-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S2x2048x16x192 : Shape := ⟨4, ![2, 2048, 16, 192]⟩
abbrev S2x2048x16x64 : Shape := ⟨4, ![2, 2048, 16, 64]⟩
abbrev S1x512x16x192 : Shape := ⟨4, ![1, 512, 16, 192]⟩
abbrev S1x2048x16x192 : Shape := ⟨4, ![1, 2048, 16, 192]⟩
abbrev S1x512x16x64 : Shape := ⟨4, ![1, 512, 16, 64]⟩
abbrev S512x16x192 : Shape := ⟨3, ![512, 16, 192]⟩
abbrev S2048x16x192 : Shape := ⟨3, ![2048, 16, 192]⟩
abbrev S512x1x64 : Shape := ⟨3, ![512, 1, 64]⟩
abbrev S512x64 : Shape := ⟨2, ![512, 64]⟩
abbrev S2048x1x64 : Shape := ⟨3, ![2048, 1, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x1x64 : Shape := ⟨4, ![1, 512, 1, 64]⟩
abbrev S1x512x2x64 : Shape := ⟨4, ![1, 512, 2, 64]⟩
abbrev S1x1024 : Shape := ⟨2, ![1, 1024]⟩

abbrev nBuf : Space → Nat
  | .hbm => 16
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S3072x1024, .bf16⟩
  | .hbm, ⟨7, _⟩ => ⟨S1024x1024, .bf16⟩
  | .hbm, ⟨8, _⟩ => ⟨S1x3072, .f32⟩
  | .hbm, ⟨9, _⟩ => ⟨S4096x3072, .bf16⟩
  | .hbm, ⟨10, _⟩ => ⟨S2x2048x16x192, .bf16⟩
  | .hbm, ⟨11, _⟩ => ⟨S2x2048x16x64, .bf16⟩
  | .hbm, ⟨12, _⟩ => ⟨S4096x1024, .bf16⟩
  | .hbm, ⟨13, _⟩ => ⟨S1x1024, .f32⟩
  | .hbm, ⟨14, _⟩ => ⟨S4096x1024, .f32⟩
  | .hbm, ⟨15, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x16x192, .bf16⟩
  | .local _ .vmem, ⟨7, _⟩ => ⟨S1x512x16x192, .bf16⟩
  | .local _ .vmem, ⟨8, _⟩ => ⟨S1x2048x16x192, .bf16⟩
  | .local _ .vmem, ⟨9, _⟩ => ⟨S1x2048x16x192, .bf16⟩
  | .local _ .vmem, ⟨10, _⟩ => ⟨S1x512x16x64, .bf16⟩
  | .local _ .vmem, ⟨11, _⟩ => ⟨S1x512x16x64, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x512x16x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x16x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x16x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x16x192 : S4096x3072.ShapeCasts S2x2048x16x192
  inb_S1x512x16x192_S1x512x16x192_0_0_0_0 : ∀ a, (![0, 0, 0, 0] : Fin 4 → Nat) a + S1x512x16x192.size a ≤ S1x512x16x192.size a
  h_S1x512x16x192 : 0 < S1x512x16x192.numel
  shapeCasts_S1x512x16x192_S512x16x192 : S1x512x16x192.ShapeCasts S512x16x192
  inb_S1x2048x16x192_S1x2048x16x192_0_0_0_0 : ∀ a, (![0, 0, 0, 0] : Fin 4 → Nat) a + S1x2048x16x192.size a ≤ S1x2048x16x192.size a
  h_S1x2048x16x192 : 0 < S1x2048x16x192.numel
  shapeCasts_S1x2048x16x192_S2048x16x192 : S1x2048x16x192.ShapeCasts S2048x16x192
  slices_S512x16x192_o0_0_0_S512x1x64 : S512x16x192.Slices ![0, 0, 0] S512x1x64
  shapeCasts_S512x1x64_S512x64 : S512x1x64.ShapeCasts S512x64
  slices_S2048x16x192_o0_0_64_S2048x1x64 : S2048x16x192.Slices ![0, 0, 64] S2048x1x64
  shapeCasts_S2048x1x64_S2048x64 : S2048x1x64.ShapeCasts S2048x64
  slices_S2048x16x192_o0_0_128_S2048x1x64 : S2048x16x192.Slices ![0, 0, 128] S2048x1x64
  reduces_S512x2048_S512 : S512x2048.Reduces [1] S512
  shapeCasts_S512_S512x1 : S512.ShapeCasts S512x1
  broadcasts_S512x1_S512x2048 : S512x1.Broadcasts S512x2048
  inb_S1x512x16x64_S1x512x1x64_0_0_0_0 : ∀ a, (![0, 0, 0, 0] : Fin 4 → Nat) a + S1x512x1x64.size a ≤ S1x512x16x64.size a
  h_S1x512x1x64 : 0 < S1x512x1x64.numel
  shapeCasts_S1x512x1x64_S512x64 : S1x512x1x64.ShapeCasts S512x64
  shapeCasts_S512x64_S1x512x1x64 : S512x64.ShapeCasts S1x512x1x64
  inb_S1x512x16x64_S1x512x2x64_0_0_0_0 : ∀ a, (![0, 0, 0, 0] : Fin 4 → Nat) a + S1x512x2x64.size a ≤ S1x512x16x64.size a
  h_S1x512x2x64 : 0 < S1x512x2x64.numel
  slices_S1x512x2x64_S1x512x1x64_0_0_0_0 : S1x512x2x64.Slices ![0, 0, 0, 0] S1x512x1x64
  packedbf16_S1x512x16x64_S1x512x2x64_0_0_0_0 : (Rect.unit (s := S1x512x16x64) ![0, 0, 0, 0] S1x512x2x64.size inb_S1x512x16x64_S1x512x2x64_0_0_0_0).PackedRows (EltTy.packing .bf16)
  slices_S512x16x192_o0_1_0_S512x1x64 : S512x16x192.Slices ![0, 1, 0] S512x1x64
  slices_S2048x16x192_o0_1_64_S2048x1x64 : S2048x16x192.Slices ![0, 1, 64] S2048x1x64
  slices_S2048x16x192_o0_1_128_S2048x1x64 : S2048x16x192.Slices ![0, 1, 128] S2048x1x64
  inb_S1x512x16x64_S1x512x1x64_0_0_1_0 : ∀ a, (![0, 0, 1, 0] : Fin 4 → Nat) a + S1x512x1x64.size a ≤ S1x512x16x64.size a
  slices_S1x512x2x64_S1x512x1x64_0_0_1_0 : S1x512x2x64.Slices ![0, 0, 1, 0] S1x512x1x64
  slices_S512x16x192_o0_2_0_S512x1x64 : S512x16x192.Slices ![0, 2, 0] S512x1x64
  slices_S2048x16x192_o0_2_64_S2048x1x64 : S2048x16x192.Slices ![0, 2, 64] S2048x1x64
  slices_S2048x16x192_o0_2_128_S2048x1x64 : S2048x16x192.Slices ![0, 2, 128] S2048x1x64
  inb_S1x512x16x64_S1x512x1x64_0_0_2_0 : ∀ a, (![0, 0, 2, 0] : Fin 4 → Nat) a + S1x512x1x64.size a ≤ S1x512x16x64.size a
  inb_S1x512x16x64_S1x512x2x64_0_0_2_0 : ∀ a, (![0, 0, 2, 0] : Fin 4 → Nat) a + S1x512x2x64.size a ≤ S1x512x16x64.size a
  packedbf16_S1x512x16x64_S1x512x2x64_0_0_2_0 : (Rect.unit (s := S1x512x16x64) ![0, 0, 2, 0] S1x512x2x64.size inb_S1x512x16x64_S1x512x2x64_0_0_2_0).PackedRows (EltTy.packing .bf16)
  slices_S512x16x192_o0_3_0_S512x1x64 : S512x16x192.Slices ![0, 3, 0] S512x1x64
  slices_S2048x16x192_o0_3_64_S2048x1x64 : S2048x16x192.Slices ![0, 3, 64] S2048x1x64
  slices_S2048x16x192_o0_3_128_S2048x1x64 : S2048x16x192.Slices ![0, 3, 128] S2048x1x64
  inb_S1x512x16x64_S1x512x1x64_0_0_3_0 : ∀ a, (![0, 0, 3, 0] : Fin 4 → Nat) a + S1x512x1x64.size a ≤ S1x512x16x64.size a
  slices_S512x16x192_o0_4_0_S512x1x64 : S512x16x192.Slices ![0, 4, 0] S512x1x64
  slices_S2048x16x192_o0_4_64_S2048x1x64 : S2048x16x192.Slices ![0, 4, 64] S2048x1x64
  slices_S2048x16x192_o0_4_128_S2048x1x64 : S2048x16x192.Slices ![0, 4, 128] S2048x1x64
  inb_S1x512x16x64_S1x512x1x64_0_0_4_0 : ∀ a, (![0, 0, 4, 0] : Fin 4 → Nat) a + S1x512x1x64.size a ≤ S1x512x16x64.size a
  inb_S1x512x16x64_S1x512x2x64_0_0_4_0 : ∀ a, (![0, 0, 4, 0] : Fin 4 → Nat) a + S1x512x2x64.size a ≤ S1x512x16x64.size a
  packedbf16_S1x512x16x64_S1x512x2x64_0_0_4_0 : (Rect.unit (s := S1x512x16x64) ![0, 0, 4, 0] S1x512x2x64.size inb_S1x512x16x64_S1x512x2x64_0_0_4_0).PackedRows (EltTy.packing .bf16)
  slices_S512x16x192_o0_5_0_S512x1x64 : S512x16x192.Slices ![0, 5, 0] S512x1x64
  slices_S2048x16x192_o0_5_64_S2048x1x64 : S2048x16x192.Slices ![0, 5, 64] S2048x1x64
  slices_S2048x16x192_o0_5_128_S2048x1x64 : S2048x16x192.Slices ![0, 5, 128] S2048x1x64
  inb_S1x512x16x64_S1x512x1x64_0_0_5_0 : ∀ a, (![0, 0, 5, 0] : Fin 4 → Nat) a + S1x512x1x64.size a ≤ S1x512x16x64.size a
  slices_S512x16x192_o0_6_0_S512x1x64 : S512x16x192.Slices ![0, 6, 0] S512x1x64
  slices_S2048x16x192_o0_6_64_S2048x1x64 : S2048x16x192.Slices ![0, 6, 64] S2048x1x64
  slices_S2048x16x192_o0_6_128_S2048x1x64 : S2048x16x192.Slices ![0, 6, 128] S2048x1x64
  inb_S1x512x16x64_S1x512x1x64_0_0_6_0 : ∀ a, (![0, 0, 6, 0] : Fin 4 → Nat) a + S1x512x1x64.size a ≤ S1x512x16x64.size a
  inb_S1x512x16x64_S1x512x2x64_0_0_6_0 : ∀ a, (![0, 0, 6, 0] : Fin 4 → Nat) a + S1x512x2x64.size a ≤ S1x512x16x64.size a
  packedbf16_S1x512x16x64_S1x512x2x64_0_0_6_0 : (Rect.unit (s := S1x512x16x64) ![0, 0, 6, 0] S1x512x2x64.size inb_S1x512x16x64_S1x512x2x64_0_0_6_0).PackedRows (EltTy.packing .bf16)
  slices_S512x16x192_o0_7_0_S512x1x64 : S512x16x192.Slices ![0, 7, 0] S512x1x64
  slices_S2048x16x192_o0_7_64_S2048x1x64 : S2048x16x192.Slices ![0, 7, 64] S2048x1x64
  slices_S2048x16x192_o0_7_128_S2048x1x64 : S2048x16x192.Slices ![0, 7, 128] S2048x1x64
  inb_S1x512x16x64_S1x512x1x64_0_0_7_0 : ∀ a, (![0, 0, 7, 0] : Fin 4 → Nat) a + S1x512x1x64.size a ≤ S1x512x16x64.size a
  slices_S512x16x192_o0_8_0_S512x1x64 : S512x16x192.Slices ![0, 8, 0] S512x1x64
  slices_S2048x16x192_o0_8_64_S2048x1x64 : S2048x16x192.Slices ![0, 8, 64] S2048x1x64
  slices_S2048x16x192_o0_8_128_S2048x1x64 : S2048x16x192.Slices ![0, 8, 128] S2048x1x64
  inb_S1x512x16x64_S1x512x1x64_0_0_8_0 : ∀ a, (![0, 0, 8, 0] : Fin 4 → Nat) a + S1x512x1x64.size a ≤ S1x512x16x64.size a
  inb_S1x512x16x64_S1x512x2x64_0_0_8_0 : ∀ a, (![0, 0, 8, 0] : Fin 4 → Nat) a + S1x512x2x64.size a ≤ S1x512x16x64.size a
  packedbf16_S1x512x16x64_S1x512x2x64_0_0_8_0 : (Rect.unit (s := S1x512x16x64) ![0, 0, 8, 0] S1x512x2x64.size inb_S1x512x16x64_S1x512x2x64_0_0_8_0).PackedRows (EltTy.packing .bf16)
  slices_S512x16x192_o0_9_0_S512x1x64 : S512x16x192.Slices ![0, 9, 0] S512x1x64
  slices_S2048x16x192_o0_9_64_S2048x1x64 : S2048x16x192.Slices ![0, 9, 64] S2048x1x64
  slices_S2048x16x192_o0_9_128_S2048x1x64 : S2048x16x192.Slices ![0, 9, 128] S2048x1x64
  inb_S1x512x16x64_S1x512x1x64_0_0_9_0 : ∀ a, (![0, 0, 9, 0] : Fin 4 → Nat) a + S1x512x1x64.size a ≤ S1x512x16x64.size a
  slices_S512x16x192_o0_10_0_S512x1x64 : S512x16x192.Slices ![0, 10, 0] S512x1x64
  slices_S2048x16x192_o0_10_64_S2048x1x64 : S2048x16x192.Slices ![0, 10, 64] S2048x1x64
  slices_S2048x16x192_o0_10_128_S2048x1x64 : S2048x16x192.Slices ![0, 10, 128] S2048x1x64
  inb_S1x512x16x64_S1x512x1x64_0_0_10_0 : ∀ a, (![0, 0, 10, 0] : Fin 4 → Nat) a + S1x512x1x64.size a ≤ S1x512x16x64.size a
  inb_S1x512x16x64_S1x512x2x64_0_0_10_0 : ∀ a, (![0, 0, 10, 0] : Fin 4 → Nat) a + S1x512x2x64.size a ≤ S1x512x16x64.size a
  packedbf16_S1x512x16x64_S1x512x2x64_0_0_10_0 : (Rect.unit (s := S1x512x16x64) ![0, 0, 10, 0] S1x512x2x64.size inb_S1x512x16x64_S1x512x2x64_0_0_10_0).PackedRows (EltTy.packing .bf16)
  slices_S512x16x192_o0_11_0_S512x1x64 : S512x16x192.Slices ![0, 11, 0] S512x1x64
  slices_S2048x16x192_o0_11_64_S2048x1x64 : S2048x16x192.Slices ![0, 11, 64] S2048x1x64
  slices_S2048x16x192_o0_11_128_S2048x1x64 : S2048x16x192.Slices ![0, 11, 128] S2048x1x64
  inb_S1x512x16x64_S1x512x1x64_0_0_11_0 : ∀ a, (![0, 0, 11, 0] : Fin 4 → Nat) a + S1x512x1x64.size a ≤ S1x512x16x64.size a
  slices_S512x16x192_o0_12_0_S512x1x64 : S512x16x192.Slices ![0, 12, 0] S512x1x64
  slices_S2048x16x192_o0_12_64_S2048x1x64 : S2048x16x192.Slices ![0, 12, 64] S2048x1x64
  slices_S2048x16x192_o0_12_128_S2048x1x64 : S2048x16x192.Slices ![0, 12, 128] S2048x1x64
  inb_S1x512x16x64_S1x512x1x64_0_0_12_0 : ∀ a, (![0, 0, 12, 0] : Fin 4 → Nat) a + S1x512x1x64.size a ≤ S1x512x16x64.size a
  inb_S1x512x16x64_S1x512x2x64_0_0_12_0 : ∀ a, (![0, 0, 12, 0] : Fin 4 → Nat) a + S1x512x2x64.size a ≤ S1x512x16x64.size a
  packedbf16_S1x512x16x64_S1x512x2x64_0_0_12_0 : (Rect.unit (s := S1x512x16x64) ![0, 0, 12, 0] S1x512x2x64.size inb_S1x512x16x64_S1x512x2x64_0_0_12_0).PackedRows (EltTy.packing .bf16)
  slices_S512x16x192_o0_13_0_S512x1x64 : S512x16x192.Slices ![0, 13, 0] S512x1x64
  slices_S2048x16x192_o0_13_64_S2048x1x64 : S2048x16x192.Slices ![0, 13, 64] S2048x1x64
  slices_S2048x16x192_o0_13_128_S2048x1x64 : S2048x16x192.Slices ![0, 13, 128] S2048x1x64
  inb_S1x512x16x64_S1x512x1x64_0_0_13_0 : ∀ a, (![0, 0, 13, 0] : Fin 4 → Nat) a + S1x512x1x64.size a ≤ S1x512x16x64.size a
  slices_S512x16x192_o0_14_0_S512x1x64 : S512x16x192.Slices ![0, 14, 0] S512x1x64
  slices_S2048x16x192_o0_14_64_S2048x1x64 : S2048x16x192.Slices ![0, 14, 64] S2048x1x64
  slices_S2048x16x192_o0_14_128_S2048x1x64 : S2048x16x192.Slices ![0, 14, 128] S2048x1x64
  inb_S1x512x16x64_S1x512x1x64_0_0_14_0 : ∀ a, (![0, 0, 14, 0] : Fin 4 → Nat) a + S1x512x1x64.size a ≤ S1x512x16x64.size a
  inb_S1x512x16x64_S1x512x2x64_0_0_14_0 : ∀ a, (![0, 0, 14, 0] : Fin 4 → Nat) a + S1x512x2x64.size a ≤ S1x512x16x64.size a
  packedbf16_S1x512x16x64_S1x512x2x64_0_0_14_0 : (Rect.unit (s := S1x512x16x64) ![0, 0, 14, 0] S1x512x2x64.size inb_S1x512x16x64_S1x512x2x64_0_0_14_0).PackedRows (EltTy.packing .bf16)
  slices_S512x16x192_o0_15_0_S512x1x64 : S512x16x192.Slices ![0, 15, 0] S512x1x64
  slices_S2048x16x192_o0_15_64_S2048x1x64 : S2048x16x192.Slices ![0, 15, 64] S2048x1x64
  slices_S2048x16x192_o0_15_128_S2048x1x64 : S2048x16x192.Slices ![0, 15, 128] S2048x1x64
  inb_S1x512x16x64_S1x512x1x64_0_0_15_0 : ∀ a, (![0, 0, 15, 0] : Fin 4 → Nat) a + S1x512x1x64.size a ≤ S1x512x16x64.size a
  shapeCasts_S2x2048x16x64_S4096x1024 : S2x2048x16x64.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x16x192.size a ≤ S2x2048x16x192.size a
  hwx1_0 : ∀ i : grid1.Coords, EltTy.bits .bf16 = 32 ∨ (Rect.block (s := S2x2048x16x192) S1x512x16x192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x16x192.size a ≤ S2x2048x16x192.size a
  hwx1_1 : ∀ i : grid1.Coords, EltTy.bits .bf16 = 32 ∨ (Rect.block (s := S2x2048x16x192) S1x2048x16x192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x16x64.size a ≤ S2x2048x16x64.size a
  hwx1_2 : ∀ i : grid1.Coords, EltTy.bits .bf16 = 32 ∨ (Rect.block (s := S2x2048x16x64) S1x512x16x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x512x16x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x16x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x16x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v7) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | .hbm, ⟨34, _⟩ => ⟨S2x2048x16x64, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.K.Region0.lean ====
/- The class-A half of region 0 (the query/key/value projection, a matrix product plus a bias row),
   at a parameter `V`: the contents of the core's buffers when the region is entered. Each window's block at a
   grid point is read off `V`; the output staging buffer after the body is the canonical contents of the body's one
   whole-block store, whose payload is a function of the three input blocks; the body's triple, the proof data
   and the body obligation follow. -/
import proofs.«146720_j59012850647568_2_alg».proof.Proof.Gen.Kernel.Launch
import proofs.«146720_j59012850647568_2_alg».proof.Proof.Gen.Kernel.Skeleton
import proofs.«146720_j59012850647568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of the block's extents tiles the block recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: what the window's view of its array reads of the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether the point fetches it or
    not (an unfetched point has the block index of the point before), for any proof data over the entry contents
    whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether the point fetches it or
    not (an unfetched point has the block index of the point before), for any proof data over the entry contents
    whose body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether the point fetches it or
    not (an unfetched point has the block index of the point before), for any proof data over the entry contents
    whose body leaves the block in place. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the four staging buffers whole -/

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- The output staging buffer after the body, from the three input blocks: the canonical contents of its one store,
    the whole block at the product-plus-bias payload of what the three loads read. -/
def out0_3 (x0 : Vec F S512x1024 .f32) (x1 : Vec F S3072x1024 .bf16) (x2 : Vec F S1x3072 .f32) : Vec F S512x3072 .bf16 :=
  View.canon [⟨r0_3, k0_pay1 (View.ld x0 r0_0) (View.ld x1 r0_1) (View.ld x2 r0_2)⟩]

/-- The one store is the whole block, so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 4000000 in
/-- The kernel body on whole staging memrefs — the three inputs' reading `x0`, `x1`, `x2`, the output's reading anything —
    runs to the continuation with the inputs' as they were and the output's reading `out0_3 x0 x1 x2`: three loads,
    an unused load of the output buffer, and one store over the whole output block. The grid coordinate is not read. -/
theorem sound_kernel0 (c : Dev nD) (E : Set ℕ) (i : grid0.Coords)
    (arg0 : Memref sig .tc .vmem S512x1024 .f32) (harg0 : arg0.IsWhole) (arg1 : Memref sig .tc .vmem S3072x1024 .bf16) (harg1 : arg1.IsWhole)
    (arg2 : Memref sig .tc .vmem S1x3072 .f32) (harg2 : arg2.IsWhole) (arg3 : Memref sig .tc .vmem S512x3072 .bf16) (harg3 : arg3.IsWhole)
    (x0 : Vec F S512x1024 .f32) (x1 : Vec F S3072x1024 .bf16) (x2 : Vec F S1x3072 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core `c`: the arrays as the region finds them; after the body at point
    `t` each input's buffer at its block and the output's at `out0_3` of the three input blocks; the invariant is the
    scoped rest and the generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debt, and each window's current staging
    memref at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region2.lean ====
/- The class-A half of region 2 (the output projection, a matrix product plus a bias row),
   at a parameter `V`: the contents of the core's buffers when the region is entered. Each window's block at a
   grid point is read off `V`; the output staging buffer after the body is the canonical contents of the body's one
   whole-block store, whose payload is a function of the three input blocks; the body's triple, the proof data
   and the body obligation follow. -/
import proofs.«146720_j59012850647568_2_alg».proof.Proof.Gen.Kernel.Launch
import proofs.«146720_j59012850647568_2_alg».proof.Proof.Gen.Kernel.Skeleton
import proofs.«146720_j59012850647568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of the block's extents tiles the block recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: what the window's view of its array reads of the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether the point fetches it or
    not (an unfetched point has the block index of the point before), for any proof data over the entry contents
    whose body leaves the block in place. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, whether the point fetches it or
    not (an unfetched point has the block index of the point before), for any proof data over the entry contents
    whose body leaves the block in place. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, whether the point fetches it or
    not (an unfetched point has the block index of the point before), for any proof data over the entry contents
    whose body leaves the block in place. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each of the four staging buffers whole -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-! ## What the body leaves in the output window's buffer -/

/-- The output staging buffer after the body, from the three input blocks: the canonical contents of its one store,
    the whole block at the product-plus-bias payload of what the three loads read. -/
def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- The one store is the whole block, so it covers it. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

/-! ## The body's triple -/

set_option maxHeartbeats 4000000 in
/-- The kernel body on whole staging memrefs — the three inputs' reading `x0`, `x1`, `x2`, the output's reading anything —
    runs to the continuation with the inputs' as they were and the output's reading `out2_3 x0 x1 x2`: three loads,
    an unused load of the output buffer, and one store over the whole output block. The grid coordinate is not read. -/
theorem sound_kernel2 (c : Dev nD) (E : Set ℕ) (i : grid2.Coords)
    (arg0 : Memref sig .tc .vmem S512x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S512x1024 .f32) (harg3 : arg3.IsWhole)
    (x0 : Vec F S512x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region's pipeline on core `c`: the arrays as the region finds them; after the body at point
    `t` each input's buffer at its block and the output's at `out2_3` of the three input blocks; the invariant is the
    scoped rest and the generator register, untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debt, and each window's current staging
    memref at what the pipeline left there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region1Body.lean ====
/-
  The attention body on its staged blocks. The printed body is cut in nine parts; it loads the block of 512 query
  rows and the block of all 2048 key/value rows once, computes each of the 16 heads' outputs from them, and writes
  the output block two heads at a time: every store loads a whole two-head rectangle back, replaces one head in it,
  and writes the rectangle. So the two stores of a pair go through ONE rectangle, the later store shadows the
  earlier, and after the body the output block no longer depends on what it held before: at (0, r, h, d) it holds
  head h's value at (0, r, 0, d).
-/
import proofs.«146720_j59012850647568_2_alg».proof.Proof.Gen.Kernel.Launch
import proofs.«146720_j59012850647568_2_alg».proof.Proof.Gen.Kernel.Skeleton
import proofs.«146720_j59012850647568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Writes in shadowed pairs

The output buffer is written two heads at a time: every store rewrites a whole two-head rectangle, keeping
one head as it was loaded and replacing the other. The two stores of a pair go through the SAME rectangle,
so the earlier one is shadowed by the later, and only the later one's payload is read afterwards. -/

section Pairs

variable {Val : EltTy → Type} {S : Shape} {e : EltTy}

/-- A list of unmasked writes (last write first) made of consecutive pairs through one rectangle each, the
    LATER write of every pair agreeing with one function `G` of the buffer's index. -/
inductive PairsOf (G : S.Idx → Val e) : List (View.Piece Val S e) → Prop
  | nil : PairsOf G []
  | cons (r : Rect S) (w₂ w₁ : r.shape.Idx → Val e) (L : List (View.Piece Val S e)) :
      (∀ x, w₂ x = G (r.emb x)) → PairsOf G L → PairsOf G (⟨r, w₂⟩ :: ⟨r, w₁⟩ :: L)

/-- At an index some write covers, the canonical contents of such a list are `G`: the first pair whose
    rectangle holds the index decides, through its later write. -/
theorem canon_apply_of_pairs [∀ e, Nonempty (Val e)] (G : S.Idx → Val e) (L : List (View.Piece Val S e))
    (hL : PairsOf G L) : ∀ y, (∃ p ∈ L, y ∈ p.1.set) → View.canon L y = G y := by
  induction hL with
  | nil => intro y hy; obtain ⟨p, hp, _⟩ := hy; simp at hp
  | cons r w₂ w₁ L hw _ ih =>
    intro y hy
    by_cases hm : y ∈ r.set
    · obtain ⟨x, rfl⟩ := r.exists_idx_of_mem hm
      rw [show r.idx x = r.emb x from rfl, View.canon_cons_emb]
      exact hw x
    · rw [View.canon_cons_of_not_mem _ _ hm, View.canon_cons_of_not_mem _ _ hm]
      refine ih y ?_
      obtain ⟨q, hq, hyq⟩ := hy
      rcases List.mem_cons.mp hq with rfl | hq
      · exact absurd hyq hm
      rcases List.mem_cons.mp hq with rfl | hq
      · exact absurd hyq hm
      · exact ⟨q, hq, hyq⟩

/-- So a buffer written by such a list that covers it reads `G`, whatever it held before. -/
theorem read_writes_of_pairs [∀ e, Nonempty (Val e)] {sig : RefSig} {κ : Kind} {sp : Space} (v : View sig κ sp S e)
    (f : v.ty.Contents Val) (G : S.Idx → Val e) (L : List (View.Piece Val S e))
    (hcov : ∀ y, ∃ p ∈ L, y ∈ p.1.set) (hL : PairsOf G L) : v.read Val (v.writes Val f L) = G :=
  (View.read_writes_eq_canon v f L hcov).trans (funext fun y => canon_apply_of_pairs G L hL y (hcov y))

end Pairs

/-! ## What the body leaves in the output buffer -/

/-- The value the body stores for head `h`, over the two blocks it loads: the skeleton's payload of that head's
    store, its arguments traced back through the parts' returned values to the two loads. -/
def headOut (h : Fin 16) (v0 : Vec F S1x512x16x192 .bf16) (v2 : Vec F S1x2048x16x192 .bf16) : FVec F S1x512x1x64 .bf16 :=
  match h with
  | ⟨0, _⟩ => k1_pay4 v0 v2
  | ⟨1, _⟩ => k1_pay7 (k1_pay5 v2) (k1_pay6 v0 v2)
  | ⟨2, _⟩ => k1_pay8 (k1_pay2 v0) (k1_pay3 v2)
  | ⟨3, _⟩ => k1_pay11 (k1_pay3 v2) (k1_pay9 (k1_pay2 v0)) (k1_pay10 (k1_pay3 v2))
  | ⟨4, _⟩ => k1_pay13 (k1_pay12 (k1_pay2 v0) (k1_pay3 v2))
  | ⟨5, _⟩ => k1_pay14 (k1_pay2 v0) (k1_pay3 v2)
  | ⟨6, _⟩ => k1_pay17 (k1_pay15 (k1_pay3 v2)) (k1_pay16 (k1_pay2 v0) (k1_pay3 v2))
  | ⟨7, _⟩ => k1_pay18 (k1_pay2 v0) (k1_pay3 v2)
  | ⟨8, _⟩ => k1_pay22 (k1_pay19 (k1_pay3 v2)) (k1_pay20 (k1_pay2 v0) (k1_pay3 v2)) (k1_pay21 (k1_pay2 v0) (k1_pay3 v2))
  | ⟨9, _⟩ => k1_pay23 (k1_pay2 v0) (k1_pay3 v2)
  | ⟨10, _⟩ => k1_pay27 (k1_pay24 (k1_pay2 v0)) (k1_pay25 (k1_pay3 v2)) (k1_pay26 (k1_pay3 v2))
  | ⟨11, _⟩ => k1_pay29 (k1_pay28 (k1_pay2 v0) (k1_pay3 v2))
  | ⟨12, _⟩ => k1_pay30 (k1_pay2 v0) (k1_pay3 v2)
  | ⟨13, _⟩ => k1_pay33 (k1_pay31 (k1_pay3 v2)) (k1_pay32 (k1_pay2 v0) (k1_pay3 v2)) (constant S512x64 .f32 0x00000000#32)
  | ⟨14, _⟩ => k1_pay34 (k1_pay2 v0) (k1_pay3 v2)
  | ⟨15, _⟩ => k1_pay1 (k1_pay35 (k1_pay3 v2)) (k1_pay36 (k1_pay2 v0) (k1_pay3 v2))
  | ⟨n + 16, hn⟩ => absurd hn (by omega)

/-- An index of the output block read as an index of a ONE-head block: the head coordinate set to zero. -/
def oneHead (y : S1x512x16x64.Idx) : S1x512x1x64.Idx := fun a =>
  match a with
  | ⟨0, _⟩ => (y 0 : Fin 1)
  | ⟨1, _⟩ => (y 1 : Fin 512)
  | ⟨2, _⟩ => (0 : Fin 1)
  | ⟨3, _⟩ => (y 3 : Fin 64)
  | ⟨n + 4, hn⟩ => absurd (show n + 4 < 4 from hn) (by omega)

/-- The output staging buffer after the body, whatever it held before: at index `(0, r, h, d)` the value
    stored for head `h` at `(0, r, 0, d)`. -/
def out1_2 (v0 : Vec F S1x512x16x192 .bf16) (v2 : Vec F S1x2048x16x192 .bf16) : Vec F S1x512x16x64 .bf16 :=
  fun y => headOut (y 2 : Fin 16) v0 v2 (oneHead y)

theorem out1_2_apply (v0 : Vec F S1x512x16x192 .bf16) (v2 : Vec F S1x2048x16x192 .bf16) (y : S1x512x16x64.Idx) :
    out1_2 v0 v2 y = headOut (y 2 : Fin 16) v0 v2 (oneHead y) := rfl

/-! ## An updated block read at an index -/

section Update

variable {α : Type} {s u : Shape}

/-- Off the window, an updated block keeps the old value. -/
theorem updateSlice_apply_of_not_mem (x : s.Idx → α) (upd : u.Idx → α) (start : Fin s.rank → Nat) (h : s.Slices start u) (i : s.Idx)
    (hn : ¬ ∀ a : Fin s.rank, start a ≤ (i a).val ∧ (i a).val < start a + u.size (a.cast h.1.symm)) :
    updateSlice x upd start h i = x i := by
  unfold updateSlice; exact dif_neg hn

/-- In the window, it takes the update's value at the index moved back by the window's start. -/
theorem updateSlice_apply_of_mem (x : s.Idx → α) (upd : u.Idx → α) (start : Fin s.rank → Nat) (h : s.Slices start u) (i : s.Idx)
    (j : u.Idx) (hin : ∀ a : Fin s.rank, start a ≤ (i a).val ∧ (i a).val < start a + u.size (a.cast h.1.symm))
    (hj : ∀ b : Fin u.rank, (j b).val = (i (b.cast h.1)).val - start (b.cast h.1)) :
    updateSlice x upd start h i = upd j := by
  unfold updateSlice; rw [dif_pos hin]; congr 1; funext b; exact Fin.ext (hj b).symm

end Update

/-! ## One pair of stores

The first store of a pair writes head `o` over the loaded two-head block `z`; the second loads the block back
(reading what the first left) and writes head `o + 1`. What the second store leaves is the two heads' values. -/

section Pair

variable {sg : RefSig} {κ : Kind} {sp : Space}

theorem pair_piece (v : View sg κ sp S1x512x16x64 .bf16) (L : List (View.Piece (Elt F) S1x512x16x64 .bf16)) (o : ℕ)
    (inb : ∀ a, (![0, 0, o, 0] : Fin 4 → ℕ) a + S1x512x2x64.size a ≤ S1x512x16x64.size a)
    (z : S1x512x2x64.Idx → Elt F .bf16) (a b : Vec F S1x512x1x64 .bf16)
    (h0 : S1x512x2x64.Slices ![0, 0, 0, 0] S1x512x1x64) (h1 : S1x512x2x64.Slices ![0, 0, 1, 0] S1x512x1x64)
    (X0 : Vec F S1x512x16x192 .bf16) (X1 : Vec F S1x2048x16x192 .bf16) (hA hB : Fin 16)
    (hAo : hA.val = o) (hBo : hB.val = o + 1) (ha : headOut hA X0 X1 = a) (hb : headOut hB X0 X1 = b)
    (x : S1x512x2x64.Idx) :
    updateSlice (v.readCov (⟨Rect.unit (s := S1x512x16x64) ![0, 0, o, 0] S1x512x2x64.size inb, updateSlice z a ![0, 0, 0, 0] h0⟩ :: L)
        (Rect.unit (s := S1x512x16x64) ![0, 0, o, 0] S1x512x2x64.size inb).toLoadRect) b ![0, 0, 1, 0] h1 x
      = out1_2 X0 X1 ((Rect.unit (s := S1x512x16x64) ![0, 0, o, 0] S1x512x2x64.size inb).emb x) := by
  have b0 : (x 0).val < 1 := (x 0).isLt
  have b1 : (x 1).val < 512 := (x 1).isLt
  have b2 : (x 2).val < 2 := (x 2).isLt
  have b3 : (x 3).val < 64 := (x 3).isLt
  subst ha; subst hb
  rw [out1_2_apply]
  by_cases hx : (x 2).val = 0
  · have hh : ((Rect.unit (s := S1x512x16x64) ![0, 0, o, 0] S1x512x2x64.size inb).emb x 2 : Fin 16) = hA :=
      Fin.ext (by rw [Rect.emb_apply]; simp [hx, hAo])
    rw [hh]
    rw [updateSlice_apply_of_not_mem _ _ _ _ _ (fun h => by have := (h (2 : Fin 4)).1; simp at this; omega)]
    have e1 : v.readCov (⟨Rect.unit (s := S1x512x16x64) ![0, 0, o, 0] S1x512x2x64.size inb, updateSlice z (headOut hA X0 X1) ![0, 0, 0, 0] h0⟩ :: L)
        (Rect.unit (s := S1x512x16x64) ![0, 0, o, 0] S1x512x2x64.size inb).toLoadRect x = updateSlice z (headOut hA X0 X1) ![0, 0, 0, 0] h0 x := by
      rw [View.readCov_eq_canon']
      exact View.canon_cons_emb (Rect.unit (s := S1x512x16x64) ![0, 0, o, 0] S1x512x2x64.size inb) (updateSlice z (headOut hA X0 X1) ![0, 0, 0, 0] h0) L x
    rw [e1]
    refine updateSlice_apply_of_mem z (headOut hA X0 X1) ![0, 0, 0, 0] h0 x (oneHead ((Rect.unit (s := S1x512x16x64) ![0, 0, o, 0] S1x512x2x64.size inb).emb x)) ?_ ?_
    · intro a; fin_cases a <;> simp <;> omega
    · intro c; fin_cases c <;> simp [oneHead, Rect.emb_apply, hx]
  · have hx1 : (x 2).val = 1 := by omega
    have hh : ((Rect.unit (s := S1x512x16x64) ![0, 0, o, 0] S1x512x2x64.size inb).emb x 2 : Fin 16) = hB :=
      Fin.ext (by rw [Rect.emb_apply]; simp [hx1, hBo])
    rw [hh]
    refine updateSlice_apply_of_mem _ (headOut hB X0 X1) ![0, 0, 1, 0] h1 x (oneHead ((Rect.unit (s := S1x512x16x64) ![0, 0, o, 0] S1x512x2x64.size inb).emb x)) ?_ ?_
    · intro a; fin_cases a <;> simp <;> omega
    · intro c; fin_cases c <;> simp [oneHead, Rect.emb_apply, hx1]

/-- The load of the pair's rectangle after its first store reads, on the first head's half, the first store's value. -/
theorem old_first (v : View sg κ sp S1x512x16x64 .bf16) (L : List (View.Piece (Elt F) S1x512x16x64 .bf16)) (o : ℕ)
    (inb : ∀ a, (![0, 0, o, 0] : Fin 4 → ℕ) a + S1x512x2x64.size a ≤ S1x512x16x64.size a)
    (z : S1x512x2x64.Idx → Elt F .bf16) (a : Vec F S1x512x1x64 .bf16)
    (h0 : S1x512x2x64.Slices ![0, 0, 0, 0] S1x512x1x64) (x : S1x512x2x64.Idx) (hx : (x 2).val = 0) :
    v.readCov (⟨Rect.unit (s := S1x512x16x64) ![0, 0, o, 0] S1x512x2x64.size inb, updateSlice z a ![0, 0, 0, 0] h0⟩ :: L)
        (Rect.unit (s := S1x512x16x64) ![0, 0, o, 0] S1x512x2x64.size inb).toLoadRect x
      = a (oneHead ((Rect.unit (s := S1x512x16x64) ![0, 0, o, 0] S1x512x2x64.size inb).emb x)) := by
  have b0 : (x 0).val < 1 := (x 0).isLt
  have b1 : (x 1).val < 512 := (x 1).isLt
  have b3 : (x 3).val < 64 := (x 3).isLt
  have e1 : v.readCov (⟨Rect.unit (s := S1x512x16x64) ![0, 0, o, 0] S1x512x2x64.size inb, updateSlice z a ![0, 0, 0, 0] h0⟩ :: L)
      (Rect.unit (s := S1x512x16x64) ![0, 0, o, 0] S1x512x2x64.size inb).toLoadRect x = updateSlice z a ![0, 0, 0, 0] h0 x := by
    rw [View.readCov_eq_canon']
    exact View.canon_cons_emb (Rect.unit (s := S1x512x16x64) ![0, 0, o, 0] S1x512x2x64.size inb) (updateSlice z a ![0, 0, 0, 0] h0) L x
  rw [e1]
  refine updateSlice_apply_of_mem z a ![0, 0, 0, 0] h0 x (oneHead ((Rect.unit (s := S1x512x16x64) ![0, 0, o, 0] S1x512x2x64.size inb).emb x)) ?_ ?_
  · intro a; fin_cases a <;> simp <;> omega
  · intro c; fin_cases c <;> simp [oneHead, Rect.emb_apply, hx]

/-- The second store of a pair, over a loaded block `old` whose first head's half holds head `hA`'s value, leaves
    the two heads' values. -/
theorem pair_second (o : ℕ) (inb : ∀ a, (![0, 0, o, 0] : Fin 4 → ℕ) a + S1x512x2x64.size a ≤ S1x512x16x64.size a)
    (old : S1x512x2x64.Idx → Elt F .bf16) (b : Vec F S1x512x1x64 .bf16) (h1 : S1x512x2x64.Slices ![0, 0, 1, 0] S1x512x1x64)
    (X0 : Vec F S1x512x16x192 .bf16) (X1 : Vec F S1x2048x16x192 .bf16) (hA hB : Fin 16)
    (hAo : hA.val = o) (hBo : hB.val = o + 1) (hb : headOut hB X0 X1 = b)
    (hold : ∀ x : S1x512x2x64.Idx, (x 2).val = 0 →
      old x = headOut hA X0 X1 (oneHead ((Rect.unit (s := S1x512x16x64) ![0, 0, o, 0] S1x512x2x64.size inb).emb x)))
    (x : S1x512x2x64.Idx) :
    updateSlice old b ![0, 0, 1, 0] h1 x
      = out1_2 X0 X1 ((Rect.unit (s := S1x512x16x64) ![0, 0, o, 0] S1x512x2x64.size inb).emb x) := by
  have b0 : (x 0).val < 1 := (x 0).isLt
  have b1 : (x 1).val < 512 := (x 1).isLt
  have b2 : (x 2).val < 2 := (x 2).isLt
  have b3 : (x 3).val < 64 := (x 3).isLt
  subst hb
  rw [out1_2_apply]
  by_cases hx : (x 2).val = 0
  · have hh : ((Rect.unit (s := S1x512x16x64) ![0, 0, o, 0] S1x512x2x64.size inb).emb x 2 : Fin 16) = hA :=
      Fin.ext (by rw [Rect.emb_apply]; simp [hx, hAo])
    rw [hh]
    rw [updateSlice_apply_of_not_mem _ _ _ _ _ (fun h => by have := (h (2 : Fin 4)).1; simp at this; omega)]
    exact hold x hx
  · have hx1 : (x 2).val = 1 := by omega
    have hh : ((Rect.unit (s := S1x512x16x64) ![0, 0, o, 0] S1x512x2x64.size inb).emb x 2 : Fin 16) = hB :=
      Fin.ext (by rw [Rect.emb_apply]; simp [hx1, hBo])
    rw [hh]
    refine updateSlice_apply_of_mem _ (headOut hB X0 X1) ![0, 0, 1, 0] h1 x (oneHead ((Rect.unit (s := S1x512x16x64) ![0, 0, o, 0] S1x512x2x64.size inb).emb x)) ?_ ?_
    · intro a; fin_cases a <;> simp <;> omega
    · intro c; fin_cases c <;> simp [oneHead, Rect.emb_apply, hx1]

end Pair

/-! ## The body's triple -/

set_option maxHeartbeats 1000000 in
/-- The kernel body on whole staging memrefs, the two input blocks at read contents and the output's at anything,
    runs to the continuation holding the inputs as they were and the output block at `out1_2` of the inputs. -/
theorem sound_kernel1 (c : Dev nD) (E : Set ℕ) (i : grid1.Coords)
    (arg2 : Memref sig .tc .vmem S1x512x16x192 .bf16) (harg2 : arg2.IsWhole)
    (arg3 : Memref sig .tc .vmem S1x2048x16x192 .bf16) (harg3 : arg3.IsWhole)
    (arg4 : Memref sig .tc .vmem S1x512x16x64 .bf16) (harg4 : arg4.IsWhole)
    (x0 : Vec F S1x512x16x192 .bf16) (x1 : Vec F S1x2048x16x192 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__attn_kernel i arg2 harg2 arg3 harg3 arg4 harg4) K := by
  simp only [cc1__attn_kernel_eq_skeleton]; unfold cc1__attn_kernel_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton]
  unfold k1_part1_skel k1_part2_skel k1_part3_skel k1_part4_skel k1_part5_skel k1_part6_skel k1_part7_skel k1_part8_skel k1_part9_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- a load through the whole-block rectangle reads the block
  have e0 : View.readAt (Elt F) arg2.view (Rect.unit (s := S1x512x16x192) ![0, 0, 0, 0] S1x512x16x192.size inb_S1x512x16x192_S1x512x16x192_0_0_0_0).toLoadRect f0
      = arg2.view.read (Elt F) f0 := View.ld_unit_zero (by funext a; fin_cases a <;> rfl) _ _
  have e1 : View.readAt (Elt F) arg3.view (Rect.unit (s := S1x2048x16x192) ![0, 0, 0, 0] S1x2048x16x192.size inb_S1x2048x16x192_S1x2048x16x192_0_0_0_0).toLoadRect f1
      = arg3.view.read (Elt F) f1 := View.ld_unit_zero (by funext a; fin_cases a <;> rfl) _ _
  rw [← e0, ← e1]
  -- the sixteen stores are eight shadowed pairs, each leaving its two heads
  refine read_writes_of_pairs _ _ _ _ (View.cover_of_tiled _ S1x512x2x64.size (by rfl)) ?_
  refine PairsOf.cons _ _ _ _ (fun x => ?_) ?_
  · refine pair_second (o := 14) (hA := 14) (hB := 15) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_14
      unfold sound_kernel1.sl.H2_15
      refine (old_first arg4.view _ 14 _ _ _ _ x' hx').trans ?_
      rfl
  refine PairsOf.cons _ _ _ _ (fun x => ?_) ?_
  · refine pair_second (o := 12) (hA := 12) (hB := 13) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_12
      unfold sound_kernel1.sl.H2_13
      refine (old_first arg4.view _ 12 _ _ _ _ x' hx').trans ?_
      rfl
  refine PairsOf.cons _ _ _ _ (fun x => ?_) ?_
  · refine pair_second (o := 10) (hA := 10) (hB := 11) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_10
      unfold sound_kernel1.sl.H2_11
      refine (old_first arg4.view _ 10 _ _ _ _ x' hx').trans ?_
      rfl
  refine PairsOf.cons _ _ _ _ (fun x => ?_) ?_
  · refine pair_second (o := 8) (hA := 8) (hB := 9) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_8
      unfold sound_kernel1.sl.H2_9
      refine (old_first arg4.view _ 8 _ _ _ _ x' hx').trans ?_
      -- this head's three arguments come as the components of one returned triple: reduce the projections first
      dsimp only
      rfl
  refine PairsOf.cons _ _ _ _ (fun x => ?_) ?_
  · refine pair_second (o := 6) (hA := 6) (hB := 7) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_6
      unfold sound_kernel1.sl.H2_7
      refine (old_first arg4.view _ 6 _ _ _ _ x' hx').trans ?_
      rfl
  refine PairsOf.cons _ _ _ _ (fun x => ?_) ?_
  · refine pair_second (o := 4) (hA := 4) (hB := 5) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_4
      unfold sound_kernel1.sl.H2_5
      refine (old_first arg4.view _ 4 _ _ _ _ x' hx').trans ?_
      rfl
  refine PairsOf.cons _ _ _ _ (fun x => ?_) ?_
  · refine pair_second (o := 2) (hA := 2) (hB := 3) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_2
      unfold sound_kernel1.sl.H2_3
      refine (old_first arg4.view _ 2 _ _ _ _ x' hx').trans ?_
      rfl
  refine PairsOf.cons _ _ _ _ (fun x => ?_) ?_
  · refine pair_second (o := 0) (hA := 0) (hB := 1) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old
      unfold sound_kernel1.sl.H2_1
      refine (old_first arg4.view _ 0 _ _ _ _ x' hx').trans ?_
      rfl
  exact PairsOf.nil

end Cert.Kernel.Hand

end
-- ==== Proof.K.Region1Dat.lean ====
/-
  The attention region's proof data, at a parameter `V` (the contents of the core's buffers when the region is
  entered). The query block and the key/value block are two windows onto ONE array — the fused projection's
  output, viewed per head —, so each window holds one half of that array (a read needs no more), and the output
  block after the body is the body's function of the two input blocks. The body obligation follows from the
  body's triple on whole staging buffers.
-/
import proofs.«146720_j59012850647568_2_alg».proof.Proof.K.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The attention region's proof data: the query block and the key/value block read ONE array, each window holding
    one half of it (reads need no more); the output block after the body is the body's function of the two input
    blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The body at a grid point: both input buffers hold their blocks, the output buffer anything; the body leaves the
    inputs and writes the output block. The invariant and the core's tallies pass through unread. -/
theorem body_obligation1 (c : Dev nD) : BodyObligation (dat1 (F := F) V c) (defs₀ (F := F)) Variants.none () Set.univ := fun t => by
  rw [bigSep_W1, bigSep_W1]
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.K.Run.lean ====
/-
  The whole run of the program: three kernel regions (the fused query/key/value projection, the attention, the
  output projection) among four stretches of host operations (reshapes and two narrowings of the weights). The
  contents of every unscoped buffer are followed from launch to return through a chain of valuations `X0 … X7`: a
  host stretch applies its operations, a region overwrites its one output array with what its write-backs leave.
  Each region is entered from, and left at, "every unscoped buffer at the boundary's contents"; the attention
  region's two input windows read one array, whose buffer is dealt in two halves at entry and made whole again at
  exit. The frame (the arguments end as launched) and the result's final contents are read off the last valuation.
-/
import proofs.«146720_j59012850647568_2_alg».proof.Proof.Gen.Kernel.Regions
import proofs.«146720_j59012850647568_2_alg».proof.Proof.K.Region0
import proofs.«146720_j59012850647568_2_alg».proof.Proof.K.Region2
import proofs.«146720_j59012850647568_2_alg».proof.Proof.K.Region1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The contents of every unscoped buffer at each boundary of @main -/

variable (m : (ℓ : Loc nD τ sig) → Buf (Elt F) ℓ)

/-- At launch. -/
abbrev X0 : Dev nD → Valuation τ sig (Elt F) := fun c b => m (c, b)
/-- After the first host stretch (the input rows flattened, both weights narrowed, the bias as a row). -/
abbrev X1 : Dev nD → Valuation τ sig (Elt F) := fun c => StableHlo.after hostOps0 (X0 m c)
abbrev Y1 : (c : Dev nD) → (b : Ref sig .tc) → Buf (Elt F) ((c : Thread nD τ).loc b) := fun c b => X1 m c b
/-- After the projection region: its output array holds what its write-backs left. -/
def X2 (c : Dev nD) : Valuation τ sig (Elt F) :=
  Function.update (X1 m c) (Proc.devRef .tc main_v4) ((dat0 (Y1 m) c).arrAt 3 cfg0.N)
abbrev Y2 : (c : Dev nD) → (b : Ref sig .tc) → Buf (Elt F) ((c : Thread nD τ).loc b) := fun c b => X2 m c b
abbrev X3 : Dev nD → Valuation τ sig (Elt F) := fun c => StableHlo.after hostOps1 (X2 m c)
abbrev Y3 : (c : Dev nD) → (b : Ref sig .tc) → Buf (Elt F) ((c : Thread nD τ).loc b) := fun c b => X3 m c b
/-- After the attention region. -/
def X4 (c : Dev nD) : Valuation τ sig (Elt F) :=
  Function.update (X3 m c) (Proc.devRef .tc main_v6) ((dat1 (Y3 m) c).arrAt 2 cfg1.N)
abbrev Y4 : (c : Dev nD) → (b : Ref sig .tc) → Buf (Elt F) ((c : Thread nD τ).loc b) := fun c b => X4 m c b
abbrev X5 : Dev nD → Valuation τ sig (Elt F) := fun c => StableHlo.after hostOps2 (X4 m c)
abbrev Y5 : (c : Dev nD) → (b : Ref sig .tc) → Buf (Elt F) ((c : Thread nD τ).loc b) := fun c b => X5 m c b
/-- After the output projection region. -/
def X6 (c : Dev nD) : Valuation τ sig (Elt F) :=
  Function.update (X5 m c) (Proc.devRef .tc main_v9) ((dat2 (Y5 m) c).arrAt 3 cfg2.N)
abbrev Y6 : (c : Dev nD) → (b : Ref sig .tc) → Buf (Elt F) ((c : Thread nD τ).loc b) := fun c b => X6 m c b
abbrev X7 : Dev nD → Valuation τ sig (Elt F) := fun c => StableHlo.after hostOps3 (X6 m c)

theorem X2_out (c : Dev nD) : X2 m c (Proc.devRef .tc main_v4) = (dat0 (Y1 m) c).arrAt 3 cfg0.N := by
  unfold X2; exact Function.update_self ..
theorem X2_of_ne (c : Dev nD) (b : Ref sig .tc) (hb : b ≠ main_v4) : X2 m c (Proc.devRef .tc b) = X1 m c (Proc.devRef .tc b) := by
  unfold X2; exact Function.update_of_ne (StableHlo.devRef_ne_of_ne hb) ..
theorem X4_out (c : Dev nD) : X4 m c (Proc.devRef .tc main_v6) = (dat1 (Y3 m) c).arrAt 2 cfg1.N := by
  unfold X4; exact Function.update_self ..
theorem X4_of_ne (c : Dev nD) (b : Ref sig .tc) (hb : b ≠ main_v6) : X4 m c (Proc.devRef .tc b) = X3 m c (Proc.devRef .tc b) := by
  unfold X4; exact Function.update_of_ne (StableHlo.devRef_ne_of_ne hb) ..
theorem X6_out (c : Dev nD) : X6 m c (Proc.devRef .tc main_v9) = (dat2 (Y5 m) c).arrAt 3 cfg2.N := by
  unfold X6; exact Function.update_self ..
theorem X6_of_ne (c : Dev nD) (b : Ref sig .tc) (hb : b ≠ main_v9) : X6 m c (Proc.devRef .tc b) = X5 m c (Proc.devRef .tc b) := by
  unfold X6; exact Function.update_of_ne (StableHlo.devRef_ne_of_ne hb) ..

/-- Every pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (Y1 m) c
  | ⟨1, _⟩ => fun c => dat1 (Y3 m) c
  | ⟨2, _⟩ => fun c => dat2 (Y5 m) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-- Exit of the projection region: every window's array holds what the pipeline leaves. -/
theorem hF0 (c : Dev nD) (w : Fin cfg0.W) : (dat0 (Y1 m) c).arrAt w cfg0.N = Y2 m c (Pipeline.arrRef spec0 w) := by
  match w with
  | ⟨0, _⟩ => exact (((dat0 (Y1 m) c).arrAt_in 0 rfl _).trans (A_eq0 (Y1 m) c 0)).trans (X2_of_ne m c _ (by decide)).symm
  | ⟨1, _⟩ => exact (((dat0 (Y1 m) c).arrAt_in 1 rfl _).trans (A_eq0 (Y1 m) c 1)).trans (X2_of_ne m c _ (by decide)).symm
  | ⟨2, _⟩ => exact (((dat0 (Y1 m) c).arrAt_in 2 rfl _).trans (A_eq0 (Y1 m) c 2)).trans (X2_of_ne m c _ (by decide)).symm
  | ⟨3, _⟩ => exact (X2_out m c).symm
theorem hrest0 (c : Dev nD) : ∀ b, b ∉ Finset.univ.image (Pipeline.arrRef spec0) → Y2 m c b = Y1 m c b :=
  fun b hb => X2_of_ne m c b fun e => hb (Finset.mem_image.mpr ⟨3, Finset.mem_univ _, e.symm⟩)
theorem hF2 (c : Dev nD) (w : Fin cfg2.W) : (dat2 (Y5 m) c).arrAt w cfg2.N = Y6 m c (Pipeline.arrRef spec2 w) := by
  match w with
  | ⟨0, _⟩ => exact (((dat2 (Y5 m) c).arrAt_in 0 rfl _).trans (A_eq2 (Y5 m) c 0)).trans (X6_of_ne m c _ (by decide)).symm
  | ⟨1, _⟩ => exact (((dat2 (Y5 m) c).arrAt_in 1 rfl _).trans (A_eq2 (Y5 m) c 1)).trans (X6_of_ne m c _ (by decide)).symm
  | ⟨2, _⟩ => exact (((dat2 (Y5 m) c).arrAt_in 2 rfl _).trans (A_eq2 (Y5 m) c 2)).trans (X6_of_ne m c _ (by decide)).symm
  | ⟨3, _⟩ => exact (X6_out m c).symm
theorem hrest2 (c : Dev nD) : ∀ b, b ∉ Finset.univ.image (Pipeline.arrRef spec2) → Y6 m c b = Y5 m c b :=
  fun b hb => X6_of_ne m c b fun e => hb (Finset.mem_image.mpr ⟨3, Finset.mem_univ _, e.symm⟩)

/-! # The regions as segments -/

set_option backward.isDefEq.respectTransparency.types false in
/-- The projection region: entered from every unscoped buffer at `X1`, left at `X2`. Its four arrays are distinct
    whole buffers, split out of the unscoped buffers at entry and put back at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Y1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y1 m c) (Y2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The buffers behind the attention region's arrays, each whole at the full share, make the region's arrays at
    entry: the array both input windows read is dealt in two halves, the output's is kept whole. -/
theorem arrays1_entry (c : Dev nD) :
    (Pipeline.arrBufs (Ix := Unit) (Name := ℕ) (U := UR sig nD τ) (Lvl := ℕ) spec1 c (Y3 m c) : sProp 𝕄)
      ⊢ (dat1 (Y3 m) c).arrays ((dat1 (Y3 m) c).arrAt · 0) := by
  unfold Pipeline.arrBufs Dat.arrays
  rw [bigSep_W1, show (Finset.univ.image (Pipeline.arrRef spec1)) = {main_v5, main_v6} from by decide,
    BI.bigSep_insert (by decide), BI.bigSep_singleton,
    (arr_whole1 0).set_eq_univ, (arr_whole1 2).set_eq_univ,
    show (dat1 (Y3 m) c).share 0 = fullShare.left from rfl, show (dat1 (Y3 m) c).share 1 = fullShare.right from rfl,
    show (dat1 (Y3 m) c).share 2 = fullShare from rfl]
  exact (Laws.sep_mono_left (pointsTo_share (PosShare.mem_left_op_right fullShare)).1).trans Laws.sep_assoc.1

/-- At exit the two halves, both still at the entry contents, are the shared array's buffer whole again, and the
    output array holds what the write-backs left. -/
theorem arrays1_exit (c : Dev nD) :
    (dat1 (Y3 m) c).arrays ((dat1 (Y3 m) c).arrAt · cfg1.N)
      ⊢ (Pipeline.arrBufs (Ix := Unit) (Name := ℕ) (U := UR sig nD τ) (Lvl := ℕ) spec1 c (Y4 m c) : sProp 𝕄) := by
  unfold Pipeline.arrBufs Dat.arrays
  rw [bigSep_W1, show (Finset.univ.image (Pipeline.arrRef spec1)) = {main_v5, main_v6} from by decide,
    BI.bigSep_insert (by decide), BI.bigSep_singleton,
    (arr_whole1 0).set_eq_univ, (arr_whole1 2).set_eq_univ,
    show (dat1 (Y3 m) c).share 0 = fullShare.left from rfl, show (dat1 (Y3 m) c).share 1 = fullShare.right from rfl,
    show (dat1 (Y3 m) c).share 2 = fullShare from rfl]
  beta_reduce
  rw [(dat1 (Y3 m) c).arrAt_in 0 rfl, (dat1 (Y3 m) c).arrAt_in 1 rfl,
    show Y4 m c main_v5 = Y3 m c main_v5 from X4_of_ne m c main_v5 (by decide),
    show Y4 m c main_v6 = (dat1 (Y3 m) c).arrAt 2 cfg1.N from X4_out m c]
  exact Laws.sep_assoc.2.trans (Laws.sep_mono_left (pointsTo_share (PosShare.mem_left_op_right fullShare)).2)

set_option backward.isDefEq.respectTransparency.types false in
/-- The attention region: entered from every unscoped buffer at `X3`, left at `X4`. Two of its windows read one
    array, so the arrays are sorted out of the unscoped buffers by hand (`arrays1_entry`, `arrays1_exit`). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Y3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hs := Pipeline.unscopedBufs_split₀ (Ix := Unit) (Name := ℕ) (U := UR sig nD τ) (Lvl := ℕ) (Val := Elt F) cfgs 1 winFacts₀1.arr_unscoped c (Y3 m c)
    rw [Pipeline.unscopedBufs_held] at hs
    iintro ⟨⟨Hub, Hp, HO⟩, -, -⟩
    ihave H := (Entails.of_eq hs) $$ Hub
    icases H with ⟨Hb, Hrest⟩
    imodintro
    isplitl [Hb]; · iapply (arrays1_entry m c); iexact Hb
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hs := Pipeline.unscopedBufs_split₀ (Ix := Unit) (Name := ℕ) (U := UR sig nD τ) (Lvl := ℕ) (Val := Elt F) cfgs 1 winFacts₀1.arr_unscoped c (Y4 m c)
    rw [Pipeline.unscopedBufs_held] at hs
    have hrest : (Pipeline.unscopedRest (Ix := Unit) (Name := ℕ) (U := UR sig nD τ) (Lvl := ℕ) spec1 c (Y3 m c) : sProp 𝕄)
        = Pipeline.unscopedRest spec1 c (Y4 m c) := by
      unfold Pipeline.unscopedRest
      exact bigSep_congr fun b hb => by
        rw [show Y4 m c b = Y3 m c b from X4_of_ne m c b fun e =>
          (Finset.mem_sdiff.mp hb).2 (Finset.mem_image.mpr ⟨2, Finset.mem_univ _, e.symm⟩)]
    iintro ⟨Ha, HO, HY, Hrest⟩
    imodintro
    isplitl [Ha Hrest]
    · iapply (Entails.of_eq hs.symm)
      isplitl [Ha]; · iapply (arrays1_exit m c); iexact Ha
      iapply (Entails.of_eq hrest); iexact Hrest
    isplitl [HY]; · iexact HY
    unfold Pipeline.Dat.owesAt Pipeline.owesWithin
    icases HO with ⟨%W, -, HO⟩; iexists W; iexact HO

set_option backward.isDefEq.respectTransparency.types false in
/-- The output projection region: entered from every unscoped buffer at `X5`, left at `X6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Y5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (Y5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Y5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y5 m c) (Y6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the run -/

/-- A host stretch as a segment over the unscoped references, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's seven segments in order. -/
abbrev segs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .region (reg1 m),
    .host (hseg hostOps2 hostOps2_sub hostOps2_fresh (X4 m)),
    .region (reg2 m),
    .host (hseg hostOps3 hostOps3_sub hostOps3_fresh (X6 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and
    in every final state each unscoped buffer of each core holds what the chain of valuations ends at (`X7`). -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c))
    (Tₙ := fun c => iprop(StableHlo.held (c : Thread nD τ) (Pipeline.ucRefs τ sig) (X7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (X7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X7 m c b)
    (hfin := fun c s' => by
      iintro ⟨⟨Hh, -⟩, HSI⟩
      unfold StableHlo.held
      imodintro
      iapply (pointsTo_read_all (Pipeline.ucRefs τ sig) (fun b => (((c : Thread nD τ)).1, b)) (X7 m c) s')
      isplitl [Hh] <;> iassumption)
    (hQ := fun s h c => h c)

/-! # What the run says of the arguments and of the result -/

/-- A buffer that no host stretch writes and that is no region's output holds at the end what it held at launch. -/
theorem X7_keep (c : Dev nD) (r : Ref sig .tc) (h0 : r ∉ hostOps0_W) (h1 : r ≠ main_v4) (h2 : r ∉ hostOps1_W) (h3 : r ≠ main_v6)
    (h4 : r ∉ hostOps2_W) (h5 : r ≠ main_v9) (h6 : r ∉ hostOps3_W) : X7 m c r = m ((c : Thread nD τ).loc r) :=
  (StableHlo.after_of_writes_sub hostOps3 _ hostOps3_writes h6).trans <| (X6_of_ne m c r h5).trans <|
  (StableHlo.after_of_writes_sub hostOps2 _ hostOps2_writes h4).trans <| (X4_of_ne m c r h3).trans <|
  (StableHlo.after_of_writes_sub hostOps1 _ hostOps1_writes h2).trans <| (X2_of_ne m c r h1).trans <|
  (StableHlo.after_of_writes_sub hostOps0 _ hostOps0_writes h0).trans rfl

/-- THE FRAME: every weakly fair execution of @main terminates, nothing faulting, and the five argument arrays end as
    launched; beside them the result array ends at the chain's last valuation. -/
theorem run_result (ρ : Dev nD → PrngReg) : θ_run defs (onTc (τ := τ) (main (F := F))) ⟨m, fun _ => 0, ρ⟩ (fun r => ∀ c : Dev nD,
      r.2.mem ((c.tc : Thread nD τ).loc main_v10) = X7 m c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v10 (by decide)),
     (h c _ (mem_uc main_arg0 (by decide))).trans (X7_keep m c main_arg0 (by decide) (by decide) (by decide) (by decide) (by decide) (by decide) (by decide)),
     (h c _ (mem_uc main_arg1 (by decide))).trans (X7_keep m c main_arg1 (by decide) (by decide) (by decide) (by decide) (by decide) (by decide) (by decide)),
     (h c _ (mem_uc main_arg2 (by decide))).trans (X7_keep m c main_arg2 (by decide) (by decide) (by decide) (by decide) (by decide) (by decide) (by decide)),
     (h c _ (mem_uc main_arg3 (by decide))).trans (X7_keep m c main_arg3 (by decide) (by decide) (by decide) (by decide) (by decide) (by decide) (by decide)),
     (h c _ (mem_uc main_arg4 (by decide))).trans (X7_keep m c main_arg4 (by decide) (by decide) (by decide) (by decide) (by decide) (by decide) (by decide))⟩)
    (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ)

end Cert.Kernel.Hand

end
-- ==== Proof.KI.Region0.lean ====
/- The class-A half of region 0 (the query/key/value projection, a matrix product plus a bias row),
   at a parameter `V`: the contents of the core's buffers when the region is entered. Each window's block at a
   grid point is read off `V`; the output staging buffer after the body is the canonical contents of the body's one
   whole-block store, whose payload is a function of the three input blocks; the body's triple, the proof data
   and the body obligation follow. -/
import proofs.«146720_j59012850647568_2_alg».proof.Proof.Gen.KernelIdeal.Launch
import proofs.«146720_j59012850647568_2_alg».proof.Proof.Gen.KernelIdeal.Skeleton
import proofs.«146720_j59012850647568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of the block's extents tiles the block recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: what the window's view of its array reads of the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether the point fetches it or
    not (an unfetched point has the block index of the point before), for any proof data over the entry contents
    whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether the point fetches it or
    not (an unfetched point has the block index of the point before), for any proof data over the entry contents
    whose body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether the point fetches it or
    not (an unfetched point has the block index of the point before), for any proof data over the entry contents
    whose body leaves the block in place. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the four staging buffers whole -/

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- The output staging buffer after the body, from the three input blocks: the canonical contents of its one store,
    the whole block at the product-plus-bias payload of what the three loads read. -/
def out0_3 (x0 : Vec F S512x1024 .f32) (x1 : Vec F S3072x1024 .bf16) (x2 : Vec F S1x3072 .f32) : Vec F S512x3072 .bf16 :=
  View.canon [⟨r0_3, k0_pay1 (View.ld x0 r0_0) (View.ld x1 r0_1) (View.ld x2 r0_2)⟩]

/-- The one store is the whole block, so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 4000000 in
/-- The kernel body on whole staging memrefs — the three inputs' reading `x0`, `x1`, `x2`, the output's reading anything —
    runs to the continuation with the inputs' as they were and the output's reading `out0_3 x0 x1 x2`: three loads,
    an unused load of the output buffer, and one store over the whole output block. The grid coordinate is not read. -/
theorem sound_kernel0 (c : Dev nD) (E : Set ℕ) (i : grid0.Coords)
    (arg0 : Memref sig .tc .vmem S512x1024 .f32) (harg0 : arg0.IsWhole) (arg1 : Memref sig .tc .vmem S3072x1024 .bf16) (harg1 : arg1.IsWhole)
    (arg2 : Memref sig .tc .vmem S1x3072 .f32) (harg2 : arg2.IsWhole) (arg3 : Memref sig .tc .vmem S512x3072 .bf16) (harg3 : arg3.IsWhole)
    (x0 : Vec F S512x1024 .f32) (x1 : Vec F S3072x1024 .bf16) (x2 : Vec F S1x3072 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core `c`: the arrays as the region finds them; after the body at point
    `t` each input's buffer at its block and the output's at `out0_3` of the three input blocks; the invariant is the
    scoped rest and the generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debt, and each window's current staging
    memref at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region2.lean ====
/- The class-A half of region 2 (the output projection, a matrix product plus a bias row),
   at a parameter `V`: the contents of the core's buffers when the region is entered. Each window's block at a
   grid point is read off `V`; the output staging buffer after the body is the canonical contents of the body's one
   whole-block store, whose payload is a function of the three input blocks; the body's triple, the proof data
   and the body obligation follow. -/
import proofs.«146720_j59012850647568_2_alg».proof.Proof.Gen.KernelIdeal.Launch
import proofs.«146720_j59012850647568_2_alg».proof.Proof.Gen.KernelIdeal.Skeleton
import proofs.«146720_j59012850647568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of the block's extents tiles the block recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: what the window's view of its array reads of the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether the point fetches it or
    not (an unfetched point has the block index of the point before), for any proof data over the entry contents
    whose body leaves the block in place. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, whether the point fetches it or
    not (an unfetched point has the block index of the point before), for any proof data over the entry contents
    whose body leaves the block in place. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, whether the point fetches it or
    not (an unfetched point has the block index of the point before), for any proof data over the entry contents
    whose body leaves the block in place. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each of the four staging buffers whole -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-! ## What the body leaves in the output window's buffer -/

/-- The output staging buffer after the body, from the three input blocks: the canonical contents of its one store,
    the whole block at the product-plus-bias payload of what the three loads read. -/
def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- The one store is the whole block, so it covers it. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

/-! ## The body's triple -/

set_option maxHeartbeats 4000000 in
/-- The kernel body on whole staging memrefs — the three inputs' reading `x0`, `x1`, `x2`, the output's reading anything —
    runs to the continuation with the inputs' as they were and the output's reading `out2_3 x0 x1 x2`: three loads,
    an unused load of the output buffer, and one store over the whole output block. The grid coordinate is not read. -/
theorem sound_kernel2 (c : Dev nD) (E : Set ℕ) (i : grid2.Coords)
    (arg0 : Memref sig .tc .vmem S512x1024 .bf16) (harg0 : arg0.IsWhole) (arg1 : Memref sig .tc .vmem S1024x1024 .bf16) (harg1 : arg1.IsWhole)
    (arg2 : Memref sig .tc .vmem S1x1024 .f32) (harg2 : arg2.IsWhole) (arg3 : Memref sig .tc .vmem S512x1024 .f32) (harg3 : arg3.IsWhole)
    (x0 : Vec F S512x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region's pipeline on core `c`: the arrays as the region finds them; after the body at point
    `t` each input's buffer at its block and the output's at `out2_3` of the three input blocks; the invariant is the
    scoped rest and the generator register, untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debt, and each window's current staging
    memref at what the pipeline left there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region1Body.lean ====
/-
  The attention body on its staged blocks. The printed body is cut in nine parts; it loads the block of 512 query
  rows and the block of all 2048 key/value rows once, computes each of the 16 heads' outputs from them, and writes
  the output block two heads at a time: every store loads a whole two-head rectangle back, replaces one head in it,
  and writes the rectangle. So the two stores of a pair go through ONE rectangle, the later store shadows the
  earlier, and after the body the output block no longer depends on what it held before: at (0, r, h, d) it holds
  head h's value at (0, r, 0, d).
-/
import proofs.«146720_j59012850647568_2_alg».proof.Proof.Gen.KernelIdeal.Launch
import proofs.«146720_j59012850647568_2_alg».proof.Proof.Gen.KernelIdeal.Skeleton
import proofs.«146720_j59012850647568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Writes in shadowed pairs

The output buffer is written two heads at a time: every store rewrites a whole two-head rectangle, keeping
one head as it was loaded and replacing the other. The two stores of a pair go through the SAME rectangle,
so the earlier one is shadowed by the later, and only the later one's payload is read afterwards. -/

section Pairs

variable {Val : EltTy → Type} {S : Shape} {e : EltTy}

/-- A list of unmasked writes (last write first) made of consecutive pairs through one rectangle each, the
    LATER write of every pair agreeing with one function `G` of the buffer's index. -/
inductive PairsOf (G : S.Idx → Val e) : List (View.Piece Val S e) → Prop
  | nil : PairsOf G []
  | cons (r : Rect S) (w₂ w₁ : r.shape.Idx → Val e) (L : List (View.Piece Val S e)) :
      (∀ x, w₂ x = G (r.emb x)) → PairsOf G L → PairsOf G (⟨r, w₂⟩ :: ⟨r, w₁⟩ :: L)

/-- At an index some write covers, the canonical contents of such a list are `G`: the first pair whose
    rectangle holds the index decides, through its later write. -/
theorem canon_apply_of_pairs [∀ e, Nonempty (Val e)] (G : S.Idx → Val e) (L : List (View.Piece Val S e))
    (hL : PairsOf G L) : ∀ y, (∃ p ∈ L, y ∈ p.1.set) → View.canon L y = G y := by
  induction hL with
  | nil => intro y hy; obtain ⟨p, hp, _⟩ := hy; simp at hp
  | cons r w₂ w₁ L hw _ ih =>
    intro y hy
    by_cases hm : y ∈ r.set
    · obtain ⟨x, rfl⟩ := r.exists_idx_of_mem hm
      rw [show r.idx x = r.emb x from rfl, View.canon_cons_emb]
      exact hw x
    · rw [View.canon_cons_of_not_mem _ _ hm, View.canon_cons_of_not_mem _ _ hm]
      refine ih y ?_
      obtain ⟨q, hq, hyq⟩ := hy
      rcases List.mem_cons.mp hq with rfl | hq
      · exact absurd hyq hm
      rcases List.mem_cons.mp hq with rfl | hq
      · exact absurd hyq hm
      · exact ⟨q, hq, hyq⟩

/-- So a buffer written by such a list that covers it reads `G`, whatever it held before. -/
theorem read_writes_of_pairs [∀ e, Nonempty (Val e)] {sig : RefSig} {κ : Kind} {sp : Space} (v : View sig κ sp S e)
    (f : v.ty.Contents Val) (G : S.Idx → Val e) (L : List (View.Piece Val S e))
    (hcov : ∀ y, ∃ p ∈ L, y ∈ p.1.set) (hL : PairsOf G L) : v.read Val (v.writes Val f L) = G :=
  (View.read_writes_eq_canon v f L hcov).trans (funext fun y => canon_apply_of_pairs G L hL y (hcov y))

end Pairs

/-! ## What the body leaves in the output buffer -/

/-- The value the body stores for head `h`, over the two blocks it loads: the skeleton's payload of that head's
    store, its arguments traced back through the parts' returned values to the two loads. -/
def headOut (h : Fin 16) (v0 : Vec F S1x512x16x192 .bf16) (v2 : Vec F S1x2048x16x192 .bf16) : FVec F S1x512x1x64 .bf16 :=
  match h with
  | ⟨0, _⟩ => k1_pay4 v0 v2
  | ⟨1, _⟩ => k1_pay7 (k1_pay5 v2) (k1_pay6 v0 v2)
  | ⟨2, _⟩ => k1_pay8 (k1_pay2 v0) (k1_pay3 v2)
  | ⟨3, _⟩ => k1_pay11 (k1_pay3 v2) (k1_pay9 (k1_pay2 v0)) (k1_pay10 (k1_pay3 v2))
  | ⟨4, _⟩ => k1_pay13 (k1_pay12 (k1_pay2 v0) (k1_pay3 v2))
  | ⟨5, _⟩ => k1_pay14 (k1_pay2 v0) (k1_pay3 v2)
  | ⟨6, _⟩ => k1_pay17 (k1_pay15 (k1_pay3 v2)) (k1_pay16 (k1_pay2 v0) (k1_pay3 v2))
  | ⟨7, _⟩ => k1_pay18 (k1_pay2 v0) (k1_pay3 v2)
  | ⟨8, _⟩ => k1_pay22 (k1_pay19 (k1_pay3 v2)) (k1_pay20 (k1_pay2 v0) (k1_pay3 v2)) (k1_pay21 (k1_pay2 v0) (k1_pay3 v2))
  | ⟨9, _⟩ => k1_pay23 (k1_pay2 v0) (k1_pay3 v2)
  | ⟨10, _⟩ => k1_pay27 (k1_pay24 (k1_pay2 v0)) (k1_pay25 (k1_pay3 v2)) (k1_pay26 (k1_pay3 v2))
  | ⟨11, _⟩ => k1_pay29 (k1_pay28 (k1_pay2 v0) (k1_pay3 v2))
  | ⟨12, _⟩ => k1_pay30 (k1_pay2 v0) (k1_pay3 v2)
  | ⟨13, _⟩ => k1_pay33 (k1_pay31 (k1_pay3 v2)) (k1_pay32 (k1_pay2 v0) (k1_pay3 v2)) (constant S512x64 .f32 0x00000000#32)
  | ⟨14, _⟩ => k1_pay34 (k1_pay2 v0) (k1_pay3 v2)
  | ⟨15, _⟩ => k1_pay1 (k1_pay35 (k1_pay3 v2)) (k1_pay36 (k1_pay2 v0) (k1_pay3 v2))
  | ⟨n + 16, hn⟩ => absurd hn (by omega)

/-- An index of the output block read as an index of a ONE-head block: the head coordinate set to zero. -/
def oneHead (y : S1x512x16x64.Idx) : S1x512x1x64.Idx := fun a =>
  match a with
  | ⟨0, _⟩ => (y 0 : Fin 1)
  | ⟨1, _⟩ => (y 1 : Fin 512)
  | ⟨2, _⟩ => (0 : Fin 1)
  | ⟨3, _⟩ => (y 3 : Fin 64)
  | ⟨n + 4, hn⟩ => absurd (show n + 4 < 4 from hn) (by omega)

/-- The output staging buffer after the body, whatever it held before: at index `(0, r, h, d)` the value
    stored for head `h` at `(0, r, 0, d)`. -/
def out1_2 (v0 : Vec F S1x512x16x192 .bf16) (v2 : Vec F S1x2048x16x192 .bf16) : Vec F S1x512x16x64 .bf16 :=
  fun y => headOut (y 2 : Fin 16) v0 v2 (oneHead y)

theorem out1_2_apply (v0 : Vec F S1x512x16x192 .bf16) (v2 : Vec F S1x2048x16x192 .bf16) (y : S1x512x16x64.Idx) :
    out1_2 v0 v2 y = headOut (y 2 : Fin 16) v0 v2 (oneHead y) := rfl

/-! ## An updated block read at an index -/

section Update

variable {α : Type} {s u : Shape}

/-- Off the window, an updated block keeps the old value. -/
theorem updateSlice_apply_of_not_mem (x : s.Idx → α) (upd : u.Idx → α) (start : Fin s.rank → Nat) (h : s.Slices start u) (i : s.Idx)
    (hn : ¬ ∀ a : Fin s.rank, start a ≤ (i a).val ∧ (i a).val < start a + u.size (a.cast h.1.symm)) :
    updateSlice x upd start h i = x i := by
  unfold updateSlice; exact dif_neg hn

/-- In the window, it takes the update's value at the index moved back by the window's start. -/
theorem updateSlice_apply_of_mem (x : s.Idx → α) (upd : u.Idx → α) (start : Fin s.rank → Nat) (h : s.Slices start u) (i : s.Idx)
    (j : u.Idx) (hin : ∀ a : Fin s.rank, start a ≤ (i a).val ∧ (i a).val < start a + u.size (a.cast h.1.symm))
    (hj : ∀ b : Fin u.rank, (j b).val = (i (b.cast h.1)).val - start (b.cast h.1)) :
    updateSlice x upd start h i = upd j := by
  unfold updateSlice; rw [dif_pos hin]; congr 1; funext b; exact Fin.ext (hj b).symm

end Update

/-! ## One pair of stores

The first store of a pair writes head `o` over the loaded two-head block `z`; the second loads the block back
(reading what the first left) and writes head `o + 1`. What the second store leaves is the two heads' values. -/

section Pair

variable {sg : RefSig} {κ : Kind} {sp : Space}

theorem pair_piece (v : View sg κ sp S1x512x16x64 .bf16) (L : List (View.Piece (Elt F) S1x512x16x64 .bf16)) (o : ℕ)
    (inb : ∀ a, (![0, 0, o, 0] : Fin 4 → ℕ) a + S1x512x2x64.size a ≤ S1x512x16x64.size a)
    (z : S1x512x2x64.Idx → Elt F .bf16) (a b : Vec F S1x512x1x64 .bf16)
    (h0 : S1x512x2x64.Slices ![0, 0, 0, 0] S1x512x1x64) (h1 : S1x512x2x64.Slices ![0, 0, 1, 0] S1x512x1x64)
    (X0 : Vec F S1x512x16x192 .bf16) (X1 : Vec F S1x2048x16x192 .bf16) (hA hB : Fin 16)
    (hAo : hA.val = o) (hBo : hB.val = o + 1) (ha : headOut hA X0 X1 = a) (hb : headOut hB X0 X1 = b)
    (x : S1x512x2x64.Idx) :
    updateSlice (v.readCov (⟨Rect.unit (s := S1x512x16x64) ![0, 0, o, 0] S1x512x2x64.size inb, updateSlice z a ![0, 0, 0, 0] h0⟩ :: L)
        (Rect.unit (s := S1x512x16x64) ![0, 0, o, 0] S1x512x2x64.size inb).toLoadRect) b ![0, 0, 1, 0] h1 x
      = out1_2 X0 X1 ((Rect.unit (s := S1x512x16x64) ![0, 0, o, 0] S1x512x2x64.size inb).emb x) := by
  have b0 : (x 0).val < 1 := (x 0).isLt
  have b1 : (x 1).val < 512 := (x 1).isLt
  have b2 : (x 2).val < 2 := (x 2).isLt
  have b3 : (x 3).val < 64 := (x 3).isLt
  subst ha; subst hb
  rw [out1_2_apply]
  by_cases hx : (x 2).val = 0
  · have hh : ((Rect.unit (s := S1x512x16x64) ![0, 0, o, 0] S1x512x2x64.size inb).emb x 2 : Fin 16) = hA :=
      Fin.ext (by rw [Rect.emb_apply]; simp [hx, hAo])
    rw [hh]
    rw [updateSlice_apply_of_not_mem _ _ _ _ _ (fun h => by have := (h (2 : Fin 4)).1; simp at this; omega)]
    have e1 : v.readCov (⟨Rect.unit (s := S1x512x16x64) ![0, 0, o, 0] S1x512x2x64.size inb, updateSlice z (headOut hA X0 X1) ![0, 0, 0, 0] h0⟩ :: L)
        (Rect.unit (s := S1x512x16x64) ![0, 0, o, 0] S1x512x2x64.size inb).toLoadRect x = updateSlice z (headOut hA X0 X1) ![0, 0, 0, 0] h0 x := by
      rw [View.readCov_eq_canon']
      exact View.canon_cons_emb (Rect.unit (s := S1x512x16x64) ![0, 0, o, 0] S1x512x2x64.size inb) (updateSlice z (headOut hA X0 X1) ![0, 0, 0, 0] h0) L x
    rw [e1]
    refine updateSlice_apply_of_mem z (headOut hA X0 X1) ![0, 0, 0, 0] h0 x (oneHead ((Rect.unit (s := S1x512x16x64) ![0, 0, o, 0] S1x512x2x64.size inb).emb x)) ?_ ?_
    · intro a; fin_cases a <;> simp <;> omega
    · intro c; fin_cases c <;> simp [oneHead, Rect.emb_apply, hx]
  · have hx1 : (x 2).val = 1 := by omega
    have hh : ((Rect.unit (s := S1x512x16x64) ![0, 0, o, 0] S1x512x2x64.size inb).emb x 2 : Fin 16) = hB :=
      Fin.ext (by rw [Rect.emb_apply]; simp [hx1, hBo])
    rw [hh]
    refine updateSlice_apply_of_mem _ (headOut hB X0 X1) ![0, 0, 1, 0] h1 x (oneHead ((Rect.unit (s := S1x512x16x64) ![0, 0, o, 0] S1x512x2x64.size inb).emb x)) ?_ ?_
    · intro a; fin_cases a <;> simp <;> omega
    · intro c; fin_cases c <;> simp [oneHead, Rect.emb_apply, hx1]

/-- The load of the pair's rectangle after its first store reads, on the first head's half, the first store's value. -/
theorem old_first (v : View sg κ sp S1x512x16x64 .bf16) (L : List (View.Piece (Elt F) S1x512x16x64 .bf16)) (o : ℕ)
    (inb : ∀ a, (![0, 0, o, 0] : Fin 4 → ℕ) a + S1x512x2x64.size a ≤ S1x512x16x64.size a)
    (z : S1x512x2x64.Idx → Elt F .bf16) (a : Vec F S1x512x1x64 .bf16)
    (h0 : S1x512x2x64.Slices ![0, 0, 0, 0] S1x512x1x64) (x : S1x512x2x64.Idx) (hx : (x 2).val = 0) :
    v.readCov (⟨Rect.unit (s := S1x512x16x64) ![0, 0, o, 0] S1x512x2x64.size inb, updateSlice z a ![0, 0, 0, 0] h0⟩ :: L)
        (Rect.unit (s := S1x512x16x64) ![0, 0, o, 0] S1x512x2x64.size inb).toLoadRect x
      = a (oneHead ((Rect.unit (s := S1x512x16x64) ![0, 0, o, 0] S1x512x2x64.size inb).emb x)) := by
  have b0 : (x 0).val < 1 := (x 0).isLt
  have b1 : (x 1).val < 512 := (x 1).isLt
  have b3 : (x 3).val < 64 := (x 3).isLt
  have e1 : v.readCov (⟨Rect.unit (s := S1x512x16x64) ![0, 0, o, 0] S1x512x2x64.size inb, updateSlice z a ![0, 0, 0, 0] h0⟩ :: L)
      (Rect.unit (s := S1x512x16x64) ![0, 0, o, 0] S1x512x2x64.size inb).toLoadRect x = updateSlice z a ![0, 0, 0, 0] h0 x := by
    rw [View.readCov_eq_canon']
    exact View.canon_cons_emb (Rect.unit (s := S1x512x16x64) ![0, 0, o, 0] S1x512x2x64.size inb) (updateSlice z a ![0, 0, 0, 0] h0) L x
  rw [e1]
  refine updateSlice_apply_of_mem z a ![0, 0, 0, 0] h0 x (oneHead ((Rect.unit (s := S1x512x16x64) ![0, 0, o, 0] S1x512x2x64.size inb).emb x)) ?_ ?_
  · intro a; fin_cases a <;> simp <;> omega
  · intro c; fin_cases c <;> simp [oneHead, Rect.emb_apply, hx]

/-- The second store of a pair, over a loaded block `old` whose first head's half holds head `hA`'s value, leaves
    the two heads' values. -/
theorem pair_second (o : ℕ) (inb : ∀ a, (![0, 0, o, 0] : Fin 4 → ℕ) a + S1x512x2x64.size a ≤ S1x512x16x64.size a)
    (old : S1x512x2x64.Idx → Elt F .bf16) (b : Vec F S1x512x1x64 .bf16) (h1 : S1x512x2x64.Slices ![0, 0, 1, 0] S1x512x1x64)
    (X0 : Vec F S1x512x16x192 .bf16) (X1 : Vec F S1x2048x16x192 .bf16) (hA hB : Fin 16)
    (hAo : hA.val = o) (hBo : hB.val = o + 1) (hb : headOut hB X0 X1 = b)
    (hold : ∀ x : S1x512x2x64.Idx, (x 2).val = 0 →
      old x = headOut hA X0 X1 (oneHead ((Rect.unit (s := S1x512x16x64) ![0, 0, o, 0] S1x512x2x64.size inb).emb x)))
    (x : S1x512x2x64.Idx) :
    updateSlice old b ![0, 0, 1, 0] h1 x
      = out1_2 X0 X1 ((Rect.unit (s := S1x512x16x64) ![0, 0, o, 0] S1x512x2x64.size inb).emb x) := by
  have b0 : (x 0).val < 1 := (x 0).isLt
  have b1 : (x 1).val < 512 := (x 1).isLt
  have b2 : (x 2).val < 2 := (x 2).isLt
  have b3 : (x 3).val < 64 := (x 3).isLt
  subst hb
  rw [out1_2_apply]
  by_cases hx : (x 2).val = 0
  · have hh : ((Rect.unit (s := S1x512x16x64) ![0, 0, o, 0] S1x512x2x64.size inb).emb x 2 : Fin 16) = hA :=
      Fin.ext (by rw [Rect.emb_apply]; simp [hx, hAo])
    rw [hh]
    rw [updateSlice_apply_of_not_mem _ _ _ _ _ (fun h => by have := (h (2 : Fin 4)).1; simp at this; omega)]
    exact hold x hx
  · have hx1 : (x 2).val = 1 := by omega
    have hh : ((Rect.unit (s := S1x512x16x64) ![0, 0, o, 0] S1x512x2x64.size inb).emb x 2 : Fin 16) = hB :=
      Fin.ext (by rw [Rect.emb_apply]; simp [hx1, hBo])
    rw [hh]
    refine updateSlice_apply_of_mem _ (headOut hB X0 X1) ![0, 0, 1, 0] h1 x (oneHead ((Rect.unit (s := S1x512x16x64) ![0, 0, o, 0] S1x512x2x64.size inb).emb x)) ?_ ?_
    · intro a; fin_cases a <;> simp <;> omega
    · intro c; fin_cases c <;> simp [oneHead, Rect.emb_apply, hx1]

end Pair

/-! ## The body's triple -/

set_option maxHeartbeats 1000000 in
/-- The kernel body on whole staging memrefs, the two input blocks at read contents and the output's at anything,
    runs to the continuation holding the inputs as they were and the output block at `out1_2` of the inputs. -/
theorem sound_kernel1 (c : Dev nD) (E : Set ℕ) (i : grid1.Coords)
    (arg2 : Memref sig .tc .vmem S1x512x16x192 .bf16) (harg2 : arg2.IsWhole)
    (arg3 : Memref sig .tc .vmem S1x2048x16x192 .bf16) (harg3 : arg3.IsWhole)
    (arg4 : Memref sig .tc .vmem S1x512x16x64 .bf16) (harg4 : arg4.IsWhole)
    (x0 : Vec F S1x512x16x192 .bf16) (x1 : Vec F S1x2048x16x192 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__attn_kernel i arg2 harg2 arg3 harg3 arg4 harg4) K := by
  simp only [cc1__attn_kernel_eq_skeleton]; unfold cc1__attn_kernel_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton]
  unfold k1_part1_skel k1_part2_skel k1_part3_skel k1_part4_skel k1_part5_skel k1_part6_skel k1_part7_skel k1_part8_skel k1_part9_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- a load through the whole-block rectangle reads the block
  have e0 : View.readAt (Elt F) arg2.view (Rect.unit (s := S1x512x16x192) ![0, 0, 0, 0] S1x512x16x192.size inb_S1x512x16x192_S1x512x16x192_0_0_0_0).toLoadRect f0
      = arg2.view.read (Elt F) f0 := View.ld_unit_zero (by funext a; fin_cases a <;> rfl) _ _
  have e1 : View.readAt (Elt F) arg3.view (Rect.unit (s := S1x2048x16x192) ![0, 0, 0, 0] S1x2048x16x192.size inb_S1x2048x16x192_S1x2048x16x192_0_0_0_0).toLoadRect f1
      = arg3.view.read (Elt F) f1 := View.ld_unit_zero (by funext a; fin_cases a <;> rfl) _ _
  rw [← e0, ← e1]
  -- the sixteen stores are eight shadowed pairs, each leaving its two heads
  refine read_writes_of_pairs _ _ _ _ (View.cover_of_tiled _ S1x512x2x64.size (by rfl)) ?_
  refine PairsOf.cons _ _ _ _ (fun x => ?_) ?_
  · refine pair_second (o := 14) (hA := 14) (hB := 15) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_14
      unfold sound_kernel1.sl.H2_15
      refine (old_first arg4.view _ 14 _ _ _ _ x' hx').trans ?_
      rfl
  refine PairsOf.cons _ _ _ _ (fun x => ?_) ?_
  · refine pair_second (o := 12) (hA := 12) (hB := 13) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_12
      unfold sound_kernel1.sl.H2_13
      refine (old_first arg4.view _ 12 _ _ _ _ x' hx').trans ?_
      rfl
  refine PairsOf.cons _ _ _ _ (fun x => ?_) ?_
  · refine pair_second (o := 10) (hA := 10) (hB := 11) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_10
      unfold sound_kernel1.sl.H2_11
      refine (old_first arg4.view _ 10 _ _ _ _ x' hx').trans ?_
      rfl
  refine PairsOf.cons _ _ _ _ (fun x => ?_) ?_
  · refine pair_second (o := 8) (hA := 8) (hB := 9) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_8
      unfold sound_kernel1.sl.H2_9
      refine (old_first arg4.view _ 8 _ _ _ _ x' hx').trans ?_
      -- this head's three arguments come as the components of one returned triple: reduce the projections first
      dsimp only
      rfl
  refine PairsOf.cons _ _ _ _ (fun x => ?_) ?_
  · refine pair_second (o := 6) (hA := 6) (hB := 7) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_6
      unfold sound_kernel1.sl.H2_7
      refine (old_first arg4.view _ 6 _ _ _ _ x' hx').trans ?_
      rfl
  refine PairsOf.cons _ _ _ _ (fun x => ?_) ?_
  · refine pair_second (o := 4) (hA := 4) (hB := 5) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_4
      unfold sound_kernel1.sl.H2_5
      refine (old_first arg4.view _ 4 _ _ _ _ x' hx').trans ?_
      rfl
  refine PairsOf.cons _ _ _ _ (fun x => ?_) ?_
  · refine pair_second (o := 2) (hA := 2) (hB := 3) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old_2
      unfold sound_kernel1.sl.H2_3
      refine (old_first arg4.view _ 2 _ _ _ _ x' hx').trans ?_
      rfl
  refine PairsOf.cons _ _ _ _ (fun x => ?_) ?_
  · refine pair_second (o := 0) (hA := 0) (hB := 1) (hAo := rfl) (hBo := rfl) (X0 := _) (X1 := _) (hb := ?hb) (hold := ?hold) _ _ _ _ x
    case hb => rfl
    case hold =>
      intro x' hx'
      -- the block loaded back is what the pair's first store left: open the two names, then the list's head piece is literal
      unfold sound_kernel1.sl.old
      unfold sound_kernel1.sl.H2_1
      refine (old_first arg4.view _ 0 _ _ _ _ x' hx').trans ?_
      rfl
  exact PairsOf.nil

end Cert.KernelIdeal.Hand

end
-- ==== Proof.KI.Region1Dat.lean ====
/-
  The attention region's proof data, at a parameter `V` (the contents of the core's buffers when the region is
  entered). The query block and the key/value block are two windows onto ONE array — the fused projection's
  output, viewed per head —, so each window holds one half of that array (a read needs no more), and the output
  block after the body is the body's function of the two input blocks. The body obligation follows from the
  body's triple on whole staging buffers.
-/
import proofs.«146720_j59012850647568_2_alg».proof.Proof.KI.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The attention region's proof data: the query block and the key/value block read ONE array, each window holding
    one half of it (reads need no more); the output block after the body is the body's function of the two input
    blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The body at a grid point: both input buffers hold their blocks, the output buffer anything; the body leaves the
    inputs and writes the output block. The invariant and the core's tallies pass through unread. -/
theorem body_obligation1 (c : Dev nD) : BodyObligation (dat1 (F := F) V c) (defs₀ (F := F)) Variants.none () Set.univ := fun t => by
  rw [bigSep_W1, bigSep_W1]
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KI.Run.lean ====
/-
  The whole run of the program: three kernel regions (the fused query/key/value projection, the attention, the
  output projection) among four stretches of host operations (reshapes and two narrowings of the weights). The
  contents of every unscoped buffer are followed from launch to return through a chain of valuations `X0 … X7`: a
  host stretch applies its operations, a region overwrites its one output array with what its write-backs leave.
  Each region is entered from, and left at, "every unscoped buffer at the boundary's contents"; the attention
  region's two input windows read one array, whose buffer is dealt in two halves at entry and made whole again at
  exit. The frame (the arguments end as launched) and the result's final contents are read off the last valuation.
-/
import proofs.«146720_j59012850647568_2_alg».proof.Proof.Gen.KernelIdeal.Regions
import proofs.«146720_j59012850647568_2_alg».proof.Proof.KI.Region0
import proofs.«146720_j59012850647568_2_alg».proof.Proof.KI.Region2
import proofs.«146720_j59012850647568_2_alg».proof.Proof.KI.Region1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The contents of every unscoped buffer at each boundary of @main -/

variable (m : (ℓ : Loc nD τ sig) → Buf (Elt F) ℓ)

/-- At launch. -/
abbrev X0 : Dev nD → Valuation τ sig (Elt F) := fun c b => m (c, b)
/-- After the first host stretch (the input rows flattened, both weights narrowed, the bias as a row). -/
abbrev X1 : Dev nD → Valuation τ sig (Elt F) := fun c => StableHlo.after hostOps0 (X0 m c)
abbrev Y1 : (c : Dev nD) → (b : Ref sig .tc) → Buf (Elt F) ((c : Thread nD τ).loc b) := fun c b => X1 m c b
/-- After the projection region: its output array holds what its write-backs left. -/
def X2 (c : Dev nD) : Valuation τ sig (Elt F) :=
  Function.update (X1 m c) (Proc.devRef .tc main_v4) ((dat0 (Y1 m) c).arrAt 3 cfg0.N)
abbrev Y2 : (c : Dev nD) → (b : Ref sig .tc) → Buf (Elt F) ((c : Thread nD τ).loc b) := fun c b => X2 m c b
abbrev X3 : Dev nD → Valuation τ sig (Elt F) := fun c => StableHlo.after hostOps1 (X2 m c)
abbrev Y3 : (c : Dev nD) → (b : Ref sig .tc) → Buf (Elt F) ((c : Thread nD τ).loc b) := fun c b => X3 m c b
/-- After the attention region. -/
def X4 (c : Dev nD) : Valuation τ sig (Elt F) :=
  Function.update (X3 m c) (Proc.devRef .tc main_v6) ((dat1 (Y3 m) c).arrAt 2 cfg1.N)
abbrev Y4 : (c : Dev nD) → (b : Ref sig .tc) → Buf (Elt F) ((c : Thread nD τ).loc b) := fun c b => X4 m c b
abbrev X5 : Dev nD → Valuation τ sig (Elt F) := fun c => StableHlo.after hostOps2 (X4 m c)
abbrev Y5 : (c : Dev nD) → (b : Ref sig .tc) → Buf (Elt F) ((c : Thread nD τ).loc b) := fun c b => X5 m c b
/-- After the output projection region. -/
def X6 (c : Dev nD) : Valuation τ sig (Elt F) :=
  Function.update (X5 m c) (Proc.devRef .tc main_v9) ((dat2 (Y5 m) c).arrAt 3 cfg2.N)
abbrev Y6 : (c : Dev nD) → (b : Ref sig .tc) → Buf (Elt F) ((c : Thread nD τ).loc b) := fun c b => X6 m c b
abbrev X7 : Dev nD → Valuation τ sig (Elt F) := fun c => StableHlo.after hostOps3 (X6 m c)

theorem X2_out (c : Dev nD) : X2 m c (Proc.devRef .tc main_v4) = (dat0 (Y1 m) c).arrAt 3 cfg0.N := by
  unfold X2; exact Function.update_self ..
theorem X2_of_ne (c : Dev nD) (b : Ref sig .tc) (hb : b ≠ main_v4) : X2 m c (Proc.devRef .tc b) = X1 m c (Proc.devRef .tc b) := by
  unfold X2; exact Function.update_of_ne (StableHlo.devRef_ne_of_ne hb) ..
theorem X4_out (c : Dev nD) : X4 m c (Proc.devRef .tc main_v6) = (dat1 (Y3 m) c).arrAt 2 cfg1.N := by
  unfold X4; exact Function.update_self ..
theorem X4_of_ne (c : Dev nD) (b : Ref sig .tc) (hb : b ≠ main_v6) : X4 m c (Proc.devRef .tc b) = X3 m c (Proc.devRef .tc b) := by
  unfold X4; exact Function.update_of_ne (StableHlo.devRef_ne_of_ne hb) ..
theorem X6_out (c : Dev nD) : X6 m c (Proc.devRef .tc main_v9) = (dat2 (Y5 m) c).arrAt 3 cfg2.N := by
  unfold X6; exact Function.update_self ..
theorem X6_of_ne (c : Dev nD) (b : Ref sig .tc) (hb : b ≠ main_v9) : X6 m c (Proc.devRef .tc b) = X5 m c (Proc.devRef .tc b) := by
  unfold X6; exact Function.update_of_ne (StableHlo.devRef_ne_of_ne hb) ..

/-- Every pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (Y1 m) c
  | ⟨1, _⟩ => fun c => dat1 (Y3 m) c
  | ⟨2, _⟩ => fun c => dat2 (Y5 m) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-- Exit of the projection region: every window's array holds what the pipeline leaves. -/
theorem hF0 (c : Dev nD) (w : Fin cfg0.W) : (dat0 (Y1 m) c).arrAt w cfg0.N = Y2 m c (Pipeline.arrRef spec0 w) := by
  match w with
  | ⟨0, _⟩ => exact (((dat0 (Y1 m) c).arrAt_in 0 rfl _).trans (A_eq0 (Y1 m) c 0)).trans (X2_of_ne m c _ (by decide)).symm
  | ⟨1, _⟩ => exact (((dat0 (Y1 m) c).arrAt_in 1 rfl _).trans (A_eq0 (Y1 m) c 1)).trans (X2_of_ne m c _ (by decide)).symm
  | ⟨2, _⟩ => exact (((dat0 (Y1 m) c).arrAt_in 2 rfl _).trans (A_eq0 (Y1 m) c 2)).trans (X2_of_ne m c _ (by decide)).symm
  | ⟨3, _⟩ => exact (X2_out m c).symm
theorem hrest0 (c : Dev nD) : ∀ b, b ∉ Finset.univ.image (Pipeline.arrRef spec0) → Y2 m c b = Y1 m c b :=
  fun b hb => X2_of_ne m c b fun e => hb (Finset.mem_image.mpr ⟨3, Finset.mem_univ _, e.symm⟩)
theorem hF2 (c : Dev nD) (w : Fin cfg2.W) : (dat2 (Y5 m) c).arrAt w cfg2.N = Y6 m c (Pipeline.arrRef spec2 w) := by
  match w with
  | ⟨0, _⟩ => exact (((dat2 (Y5 m) c).arrAt_in 0 rfl _).trans (A_eq2 (Y5 m) c 0)).trans (X6_of_ne m c _ (by decide)).symm
  | ⟨1, _⟩ => exact (((dat2 (Y5 m) c).arrAt_in 1 rfl _).trans (A_eq2 (Y5 m) c 1)).trans (X6_of_ne m c _ (by decide)).symm
  | ⟨2, _⟩ => exact (((dat2 (Y5 m) c).arrAt_in 2 rfl _).trans (A_eq2 (Y5 m) c 2)).trans (X6_of_ne m c _ (by decide)).symm
  | ⟨3, _⟩ => exact (X6_out m c).symm
theorem hrest2 (c : Dev nD) : ∀ b, b ∉ Finset.univ.image (Pipeline.arrRef spec2) → Y6 m c b = Y5 m c b :=
  fun b hb => X6_of_ne m c b fun e => hb (Finset.mem_image.mpr ⟨3, Finset.mem_univ _, e.symm⟩)

/-! # The regions as segments -/

set_option backward.isDefEq.respectTransparency.types false in
/-- The projection region: entered from every unscoped buffer at `X1`, left at `X2`. Its four arrays are distinct
    whole buffers, split out of the unscoped buffers at entry and put back at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Y1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y1 m c) (Y2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The buffers behind the attention region's arrays, each whole at the full share, make the region's arrays at
    entry: the array both input windows read is dealt in two halves, the output's is kept whole. -/
theorem arrays1_entry (c : Dev nD) :
    (Pipeline.arrBufs (Ix := Unit) (Name := ℕ) (U := UR sig nD τ) (Lvl := ℕ) spec1 c (Y3 m c) : sProp 𝕄)
      ⊢ (dat1 (Y3 m) c).arrays ((dat1 (Y3 m) c).arrAt · 0) := by
  unfold Pipeline.arrBufs Dat.arrays
  rw [bigSep_W1, show (Finset.univ.image (Pipeline.arrRef spec1)) = {main_v5, main_v6} from by decide,
    BI.bigSep_insert (by decide), BI.bigSep_singleton,
    (arr_whole1 0).set_eq_univ, (arr_whole1 2).set_eq_univ,
    show (dat1 (Y3 m) c).share 0 = fullShare.left from rfl, show (dat1 (Y3 m) c).share 1 = fullShare.right from rfl,
    show (dat1 (Y3 m) c).share 2 = fullShare from rfl]
  exact (Laws.sep_mono_left (pointsTo_share (PosShare.mem_left_op_right fullShare)).1).trans Laws.sep_assoc.1

/-- At exit the two halves, both still at the entry contents, are the shared array's buffer whole again, and the
    output array holds what the write-backs left. -/
theorem arrays1_exit (c : Dev nD) :
    (dat1 (Y3 m) c).arrays ((dat1 (Y3 m) c).arrAt · cfg1.N)
      ⊢ (Pipeline.arrBufs (Ix := Unit) (Name := ℕ) (U := UR sig nD τ) (Lvl := ℕ) spec1 c (Y4 m c) : sProp 𝕄) := by
  unfold Pipeline.arrBufs Dat.arrays
  rw [bigSep_W1, show (Finset.univ.image (Pipeline.arrRef spec1)) = {main_v5, main_v6} from by decide,
    BI.bigSep_insert (by decide), BI.bigSep_singleton,
    (arr_whole1 0).set_eq_univ, (arr_whole1 2).set_eq_univ,
    show (dat1 (Y3 m) c).share 0 = fullShare.left from rfl, show (dat1 (Y3 m) c).share 1 = fullShare.right from rfl,
    show (dat1 (Y3 m) c).share 2 = fullShare from rfl]
  beta_reduce
  rw [(dat1 (Y3 m) c).arrAt_in 0 rfl, (dat1 (Y3 m) c).arrAt_in 1 rfl,
    show Y4 m c main_v5 = Y3 m c main_v5 from X4_of_ne m c main_v5 (by decide),
    show Y4 m c main_v6 = (dat1 (Y3 m) c).arrAt 2 cfg1.N from X4_out m c]
  exact Laws.sep_assoc.2.trans (Laws.sep_mono_left (pointsTo_share (PosShare.mem_left_op_right fullShare)).2)

set_option backward.isDefEq.respectTransparency.types false in
/-- The attention region: entered from every unscoped buffer at `X3`, left at `X4`. Two of its windows read one
    array, so the arrays are sorted out of the unscoped buffers by hand (`arrays1_entry`, `arrays1_exit`). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Y3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hs := Pipeline.unscopedBufs_split₀ (Ix := Unit) (Name := ℕ) (U := UR sig nD τ) (Lvl := ℕ) (Val := Elt F) cfgs 1 winFacts₀1.arr_unscoped c (Y3 m c)
    rw [Pipeline.unscopedBufs_held] at hs
    iintro ⟨⟨Hub, Hp, HO⟩, -, -⟩
    ihave H := (Entails.of_eq hs) $$ Hub
    icases H with ⟨Hb, Hrest⟩
    imodintro
    isplitl [Hb]; · iapply (arrays1_entry m c); iexact Hb
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hs := Pipeline.unscopedBufs_split₀ (Ix := Unit) (Name := ℕ) (U := UR sig nD τ) (Lvl := ℕ) (Val := Elt F) cfgs 1 winFacts₀1.arr_unscoped c (Y4 m c)
    rw [Pipeline.unscopedBufs_held] at hs
    have hrest : (Pipeline.unscopedRest (Ix := Unit) (Name := ℕ) (U := UR sig nD τ) (Lvl := ℕ) spec1 c (Y3 m c) : sProp 𝕄)
        = Pipeline.unscopedRest spec1 c (Y4 m c) := by
      unfold Pipeline.unscopedRest
      exact bigSep_congr fun b hb => by
        rw [show Y4 m c b = Y3 m c b from X4_of_ne m c b fun e =>
          (Finset.mem_sdiff.mp hb).2 (Finset.mem_image.mpr ⟨2, Finset.mem_univ _, e.symm⟩)]
    iintro ⟨Ha, HO, HY, Hrest⟩
    imodintro
    isplitl [Ha Hrest]
    · iapply (Entails.of_eq hs.symm)
      isplitl [Ha]; · iapply (arrays1_exit m c); iexact Ha
      iapply (Entails.of_eq hrest); iexact Hrest
    isplitl [HY]; · iexact HY
    unfold Pipeline.Dat.owesAt Pipeline.owesWithin
    icases HO with ⟨%W, -, HO⟩; iexists W; iexact HO

set_option backward.isDefEq.respectTransparency.types false in
/-- The output projection region: entered from every unscoped buffer at `X5`, left at `X6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Y5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (Y5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Y5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y5 m c) (Y6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the run -/

/-- A host stretch as a segment over the unscoped references, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's seven segments in order. -/
abbrev segs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .region (reg1 m),
    .host (hseg hostOps2 hostOps2_sub hostOps2_fresh (X4 m)),
    .region (reg2 m),
    .host (hseg hostOps3 hostOps3_sub hostOps3_fresh (X6 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and
    in every final state each unscoped buffer of each core holds what the chain of valuations ends at (`X7`). -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c))
    (Tₙ := fun c => iprop(StableHlo.held (c : Thread nD τ) (Pipeline.ucRefs τ sig) (X7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (X7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X7 m c b)
    (hfin := fun c s' => by
      iintro ⟨⟨Hh, -⟩, HSI⟩
      unfold StableHlo.held
      imodintro
      iapply (pointsTo_read_all (Pipeline.ucRefs τ sig) (fun b => (((c : Thread nD τ)).1, b)) (X7 m c) s')
      isplitl [Hh] <;> iassumption)
    (hQ := fun s h c => h c)

/-! # What the run says of the arguments and of the result -/

/-- A buffer that no host stretch writes and that is no region's output holds at the end what it held at launch. -/
theorem X7_keep (c : Dev nD) (r : Ref sig .tc) (h0 : r ∉ hostOps0_W) (h1 : r ≠ main_v4) (h2 : r ∉ hostOps1_W) (h3 : r ≠ main_v6)
    (h4 : r ∉ hostOps2_W) (h5 : r ≠ main_v9) (h6 : r ∉ hostOps3_W) : X7 m c r = m ((c : Thread nD τ).loc r) :=
  (StableHlo.after_of_writes_sub hostOps3 _ hostOps3_writes h6).trans <| (X6_of_ne m c r h5).trans <|
  (StableHlo.after_of_writes_sub hostOps2 _ hostOps2_writes h4).trans <| (X4_of_ne m c r h3).trans <|
  (StableHlo.after_of_writes_sub hostOps1 _ hostOps1_writes h2).trans <| (X2_of_ne m c r h1).trans <|
  (StableHlo.after_of_writes_sub hostOps0 _ hostOps0_writes h0).trans rfl

/-- THE FRAME: every weakly fair execution of @main terminates, nothing faulting, and the five argument arrays end as
    launched; beside them the result array ends at the chain's last valuation. -/
theorem run_result (ρ : Dev nD → PrngReg) : θ_run defs (onTc (τ := τ) (main (F := F))) ⟨m, fun _ => 0, ρ⟩ (fun r => ∀ c : Dev nD,
      r.2.mem ((c.tc : Thread nD τ).loc main_v10) = X7 m c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v10 (by decide)),
     (h c _ (mem_uc main_arg0 (by decide))).trans (X7_keep m c main_arg0 (by decide) (by decide) (by decide) (by decide) (by decide) (by decide) (by decide)),
     (h c _ (mem_uc main_arg1 (by decide))).trans (X7_keep m c main_arg1 (by decide) (by decide) (by decide) (by decide) (by decide) (by decide) (by decide)),
     (h c _ (mem_uc main_arg2 (by decide))).trans (X7_keep m c main_arg2 (by decide) (by decide) (by decide) (by decide) (by decide) (by decide) (by decide)),
     (h c _ (mem_uc main_arg3 (by decide))).trans (X7_keep m c main_arg3 (by decide) (by decide) (by decide) (by decide) (by decide) (by decide) (by decide)),
     (h c _ (mem_uc main_arg4 (by decide))).trans (X7_keep m c main_arg4 (by decide) (by decide) (by decide) (by decide) (by decide) (by decide) (by decide))⟩)
    (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ)

end Cert.KernelIdeal.Hand

end
-- ==== Proof.KI.Chain.lean ====
/-
  What each region finds in the buffers it reads, and what the program returns, along the chain of valuations: the
  host stretches between the regions only re-view arrays (a reshape keeps the row-major order of the entries) and
  narrow the two weight matrices.
-/
import proofs.«146720_j59012850647568_2_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

/-! ## The projection region's inputs -/

/-- The input rows, the two batches stacked. -/
theorem X1_v0 (c : Dev nD) : X1 m c (Proc.devRef .tc main_v0)
    = shapeCast S4096x1024 (m ((c : Thread nD τ).loc main_arg0)) shapeCasts_S2x2048x1024_S4096x1024 := by
  show StableHlo.after hostOps0 (X0 m c) (Proc.devRef .tc main_v0) = _
  after_results; rfl

/-- The fused weight, narrowed. -/
theorem X1_v1 (c : Dev nD) : X1 m c (Proc.devRef .tc main_v1)
    = truncf .bf16 (m ((c : Thread nD τ).loc main_arg1)) bitsLt_bf16_f32 := by
  show StableHlo.after hostOps0 (X0 m c) (Proc.devRef .tc main_v1) = _
  after_results

/-- The fused bias as a row. -/
theorem X1_v3 (c : Dev nD) : X1 m c (Proc.devRef .tc main_v3)
    = shapeCast S1x3072 (m ((c : Thread nD τ).loc main_arg2)) shapeCasts_S3072_S1x3072 := by
  show StableHlo.after hostOps0 (X0 m c) (Proc.devRef .tc main_v3) = _
  after_results; rfl

/-- The output weight, narrowed (by the first host stretch; nothing later writes it). -/
theorem X1_v2 (c : Dev nD) : X1 m c (Proc.devRef .tc main_v2)
    = truncf .bf16 (m ((c : Thread nD τ).loc main_arg3)) bitsLt_bf16_f32 := by
  show StableHlo.after hostOps0 (X0 m c) (Proc.devRef .tc main_v2) = _
  after_results

/-! ## The attention region's input: the projection's output viewed per head -/

theorem X3_v5 (c : Dev nD) : X3 m c (Proc.devRef .tc main_v5)
    = shapeCast S2x2048x16x192 (X2 m c (Proc.devRef .tc main_v4)) shapeCasts_S4096x3072_S2x2048x16x192 := by
  show StableHlo.after hostOps1 (X2 m c) (Proc.devRef .tc main_v5) = _
  after_results; rfl

/-! ## The output projection region's inputs -/

/-- The heads' outputs, the heads' channels side by side. -/
theorem X5_v7 (c : Dev nD) : X5 m c (Proc.devRef .tc main_v7)
    = shapeCast S4096x1024 (X4 m c (Proc.devRef .tc main_v6)) shapeCasts_S2x2048x16x64_S4096x1024 := by
  show StableHlo.after hostOps2 (X4 m c) (Proc.devRef .tc main_v7) = _
  after_results; rfl

/-- The output bias as a row. -/
theorem X5_v8 (c : Dev nD) : X5 m c (Proc.devRef .tc main_v8)
    = shapeCast S1x1024 (m ((c : Thread nD τ).loc main_arg4)) shapeCasts_S1024_S1x1024 := by
  have h4 : X4 m c (Proc.devRef .tc main_arg4) = m ((c : Thread nD τ).loc main_arg4) :=
    (X4_of_ne m c main_arg4 (by decide)).trans <|
    (StableHlo.after_of_writes_sub hostOps1 _ hostOps1_writes (by decide)).trans <|
    (X2_of_ne m c main_arg4 (by decide)).trans <|
    (StableHlo.after_of_writes_sub hostOps0 _ hostOps0_writes (by decide)).trans rfl
  show StableHlo.after hostOps2 (X4 m c) (Proc.devRef .tc main_v8) = _
  after_results
  rw [h4]; rfl

/-- The narrowed output weight reaches the last region as the first host stretch left it. -/
theorem X5_v2 (c : Dev nD) : X5 m c (Proc.devRef .tc main_v2)
    = truncf .bf16 (m ((c : Thread nD τ).loc main_arg3)) bitsLt_bf16_f32 :=
  (StableHlo.after_of_writes_sub hostOps2 _ hostOps2_writes (by decide)).trans <|
  (X4_of_ne m c main_v2 (by decide)).trans <|
  (StableHlo.after_of_writes_sub hostOps1 _ hostOps1_writes (by decide)).trans <|
  (X2_of_ne m c main_v2 (by decide)).trans (X1_v2 m c)

/-! ## The result -/

theorem X7_v10 (c : Dev nD) : X7 m c (Proc.devRef .tc main_v10)
    = shapeCast S2x2048x1024 (X6 m c (Proc.devRef .tc main_v9)) shapeCasts_S4096x1024_S2x2048x1024 := by
  show StableHlo.after hostOps3 (X6 m c) (Proc.devRef .tc main_v10) = _
  after_results; rfl

end Cert.KernelIdeal.Hand

end
-- ==== Proof.KI.Region0Value.lean ====
/- Region 0's output block at an index, at the ideal values: the body's payload is a matrix product with the
   weight's rows as columns, plus the bias row, so the output staging buffer after the body reads, at row `r` and
   column `e`, the sum over the contracted axis of left(r, d) * weight(e, d), plus bias(0, e), on the extended reals.
   Format changes are the identity at the ideal values, a shape cast to the same shape is the identity, and the
   accumulator is the zero splat. -/
import proofs.«146720_j59012850647568_2_alg».proof.Proof.KI.Region0
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

/-- The staging rectangles start at the origin. -/
theorem origin0 : (![0, 0] : Fin 2 → Nat) = fun _ => 0 := funext fun a => by fin_cases a <;> rfl

/-! ## The product's operand indices -/

/-- The left operand is read at the output's row … -/
theorem lrow0 (j : S512x3072.Idx) (q : dot_S512x1024_S3072x1024_S512x3072_1_1_0_0_n_n.contr.Idx) : (dot_S512x1024_S3072x1024_S512x3072_1_1_0_0_n_n.lhsIdx j q 0).val = (j 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
/-- … and the contraction position; -/
theorem lcon0 (j : S512x3072.Idx) (q : dot_S512x1024_S3072x1024_S512x3072_1_1_0_0_n_n.contr.Idx) : (dot_S512x1024_S3072x1024_S512x3072_1_1_0_0_n_n.lhsIdx j q 1).val = (q ⟨0, by decide⟩).val :=
  dot_S512x1024_S3072x1024_S512x3072_1_1_0_0_n_n.lhsIdx_val_of_single rfl j q
/-- the weight at the output's column, as its row, … -/
theorem rrow0 (j : S512x3072.Idx) (q : dot_S512x1024_S3072x1024_S512x3072_1_1_0_0_n_n.contr.Idx) : (dot_S512x1024_S3072x1024_S512x3072_1_1_0_0_n_n.rhsIdx j q 0).val = (j 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
/-- … and the contraction position. -/
theorem rcon0 (j : S512x3072.Idx) (q : dot_S512x1024_S3072x1024_S512x3072_1_1_0_0_n_n.contr.Idx) : (dot_S512x1024_S3072x1024_S512x3072_1_1_0_0_n_n.rhsIdx j q 1).val = (q ⟨0, by decide⟩).val :=
  dot_S512x1024_S3072x1024_S512x3072_1_1_0_0_n_n.rhsIdx_val_of_single rfl j q

/-! ## The payload at an index -/

/-- The body's payload at row `r`, column `e`: the contraction of the left block's row `r` with the weight's row `e`,
    plus the bias at column `e`. -/
theorem k0_pay1_apply (v0 : Vec Ideal S512x1024 .f32) (v1 : Vec Ideal S3072x1024 .bf16) (v2 : Vec Ideal S1x3072 .f32)
    (r : Fin 512) (e : Fin 3072) :
    k0_pay1 (F := Ideal) v0 v1 v2 (ix2 r e) = (∑ d : Fin 1024, v0 (ix2 r d) * v1 (ix2 e d)) + v2 (ix2 0 e) := by
  unfold k0_pay1
  simp only [shapeCast_self, Idealize.ShloMosaic.matmul]
  rw [truncf_apply, addf_apply, Ideal.matmul_constant_zero_apply,
    broadcastTo_apply v2 broadcasts_S1x3072_S512x3072 (ix2 r e) (ix2 0 e) (fun a => by match a with | ⟨0, _⟩ => rfl | ⟨1, _⟩ => rfl),
    ← Equiv.sum_comp (contrEquiv1 dot_S512x1024_S3072x1024_S512x3072_1_1_0_0_n_n 1024 rfl rfl).symm]
  refine congrArg (· + v2 (ix2 0 e)) (Finset.sum_congr rfl fun k _ => ?_)
  have hk := contrEquiv1_symm_val dot_S512x1024_S3072x1024_S512x3072_1_1_0_0_n_n 1024 rfl rfl k
  have el : dot_S512x1024_S3072x1024_S512x3072_1_1_0_0_n_n.lhsIdx (ix2 r e) ((contrEquiv1 dot_S512x1024_S3072x1024_S512x3072_1_1_0_0_n_n 1024 rfl rfl).symm k) = ix2 r k := funext fun a => Fin.ext (by
    match a with
    | ⟨0, _⟩ => exact lrow0 _ _
    | ⟨1, _⟩ => exact (lcon0 _ _).trans hk)
  have er : dot_S512x1024_S3072x1024_S512x3072_1_1_0_0_n_n.rhsIdx (ix2 r e) ((contrEquiv1 dot_S512x1024_S3072x1024_S512x3072_1_1_0_0_n_n 1024 rfl rfl).symm k) = ix2 e k := funext fun a => Fin.ext (by
    match a with
    | ⟨0, _⟩ => exact rrow0 _ _
    | ⟨1, _⟩ => exact (rcon0 _ _).trans hk)
  rw [el, er]
  rfl

/-! ## The output block at an index -/

/-- The output staging buffer after the body, from the three input blocks, at row `r` and column `e`. -/
theorem out0_3_apply (x0 : Vec Ideal S512x1024 .f32) (x1 : Vec Ideal S3072x1024 .bf16) (x2 : Vec Ideal S1x3072 .f32)
    (r : Fin 512) (e : Fin 3072) :
    out0_3 (F := Ideal) x0 x1 x2 (ix2 r e) = (∑ d : Fin 1024, x0 (ix2 r d) * x1 (ix2 e d)) + x2 (ix2 0 e) := by
  unfold out0_3
  rw [View.canon_unit_zero origin0]
  simp only [View.ld_unit_zero (S := S512x1024) origin0, View.ld_unit_zero (S := S3072x1024) origin0, View.ld_unit_zero (S := S1x3072) origin0]
  exact k0_pay1_apply x0 x1 x2 r e

/-! ## From the blocks to the whole output array -/

/-- The output array as one function of the three arrays the region reads: row `i 0` of the left array contracted
    with row `i 1` of the weight, plus the bias at column `i 1`. -/
def G0 (a : S4096x1024.Idx → EReal) (w : S3072x1024.Idx → EReal) (b : S1x3072.Idx → EReal) : S4096x3072.Idx → EReal :=
  fun i => (∑ d : Fin 1024, a (ix2 (i 0 : Fin 4096) d) * w (ix2 (i 1 : Fin 3072) d)) + b (ix2 0 (i 1 : Fin 3072))

/-- The windows' block indices at a grid point, decided over the 8 points: the left operand's and the output's row
    blocks are the point's, every other block index is zero. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block `t` of `G0`, for any three arrays: the left window's row `r` at point `t` is the array's row `512 t + r`, which
    is the output block's row `r`; the weight and the bias are read whole. So the product-plus-bias of the three
    windows' blocks, at row `r` and column `e`, is `G0` of the arrays at the output block's index (r, e). -/
theorem G0_at_block (t : Fin cfg0.N) (a : S4096x1024.Idx → EReal) (w : S3072x1024.Idx → EReal) (b : S1x3072.Idx → EReal)
    (r : Fin 512) (e : Fin 3072) :
    (∑ d : Fin 1024, a (((cfg0.win 0).blk t).view.emb (ix2 r d)) * w (((cfg0.win 1).blk t).view.emb (ix2 e d)))
        + b (((cfg0.win 2).blk t).view.emb (ix2 0 e))
      = G0 a w b (((cfg0.win 3).blk t).view.emb (ix2 r e)) := by
  obtain ⟨h00, h01, h10, h11, h20, h21, h30, h31⟩ := blockIdx0 t
  unfold G0
  have hr := r.isLt
  have he := e.isLt
  have hrow : ∀ d : Fin 1024, ((cfg0.win 0).blk t).view.emb (ix2 r d)
      = ix2 ((((cfg0.win 3).blk t).view.emb (ix2 r e)) 0 : Fin 4096) d := fun d => by
    funext x; apply Fin.ext
    match x with
    | ⟨0, _⟩ => show win0_0.index t (0 : Fin 2) * 512 + 1 * r.val = win0_3.index t (0 : Fin 2) * 512 + 1 * r.val; omega
    | ⟨1, _⟩ => show win0_0.index t (1 : Fin 2) * 1024 + 1 * d.val = d.val; omega
  have hwt : ∀ d : Fin 1024, ((cfg0.win 1).blk t).view.emb (ix2 e d)
      = ix2 ((((cfg0.win 3).blk t).view.emb (ix2 r e)) 1 : Fin 3072) d := fun d => by
    funext x; apply Fin.ext
    match x with
    | ⟨0, _⟩ => show win0_1.index t (0 : Fin 2) * 3072 + 1 * e.val = win0_3.index t (1 : Fin 2) * 3072 + 1 * e.val; omega
    | ⟨1, _⟩ => show win0_1.index t (1 : Fin 2) * 1024 + 1 * d.val = d.val; omega
  have hbias : ((cfg0.win 2).blk t).view.emb (ix2 0 e)
      = ix2 0 ((((cfg0.win 3).blk t).view.emb (ix2 r e)) 1 : Fin 3072) := by
    funext x; apply Fin.ext
    match x with
    | ⟨0, _⟩ => show win0_2.index t (0 : Fin 2) * 1 + 1 * 0 = 0; omega
    | ⟨1, _⟩ => show win0_2.index t (1 : Fin 2) * 3072 + 1 * e.val = win0_3.index t (1 : Fin 2) * 3072 + 1 * e.val; omega
  rw [hbias]
  exact congrArg (· + _) (Finset.sum_congr rfl fun d _ => by rw [hrow d, hwt d]; rfl)

/-- What point `t` writes back is block `t` of `G0` of the arrays as the region finds them. -/
theorem flushed0_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (G0 (V c main_v0) (V c main_v1) (V c main_v3)) := by
  show (cfg0.win 3).cut (grid0.coords t) ((dat0 (F := Ideal) V c).after 3 t) = _
  rw [after0_3]
  funext j
  obtain ⟨r, e, rfl⟩ : ∃ (r : Fin 512) (e : Fin 3072), j = ix2 r e := ⟨j 0, j 1, eq_ix2 j⟩
  refine (out0_3_apply _ _ _ r e).trans ?_
  exact G0_at_block t (V c main_v0) (V c main_v1) (V c main_v3) r e

/-- An index of the output array is in point `t`'s block iff each coordinate is in the block's range on its axis. -/
theorem mem_outBlock0 (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v4).slice (win0_3.rect t)).set ↔ _
  rw [View.set_slice_whole, Rect.mem_set_unit]
  exact Iff.rfl

/-- Every index of the output array is in some point's block: row `ρ` is in the block of point `ρ / 512`. -/
theorem covered0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  have hN : cfg0.N = 8 := N_0
  refine ⟨⟨(i 0).val / 512, by rw [hN]; omega⟩, flush0_3 _, ?_⟩
  rw [mem_outBlock0]
  obtain ⟨-, -, -, -, -, -, h30, h31⟩ := blockIdx0 ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [h30]; show (i 0).val / 512 * 512 ≤ (i 0).val ∧ (i 0).val < (i 0).val / 512 * 512 + 512; omega
  | ⟨1, _⟩ =>
    show win0_3.index _ (1 : Fin 2) * 3072 ≤ (i 1).val ∧ (i 1).val < win0_3.index _ (1 : Fin 2) * 3072 + 3072
    rw [h31]; omega

/-- The output array after all 8 write-backs is `G0` of the three arrays the region finds. -/
theorem final0 (V : (c : Dev nD) → (b : Ref sig .tc) → Buf (Elt Ideal) ((c : Thread nD τ).loc b)) (c : Dev nD) :
    (dat0 (F := Ideal) V c).arrAt 3 cfg0.N = G0 (V c main_v0) (V c main_v1) (V c main_v3) :=
  (dat0 (F := Ideal) V c).arrAt_eq_of_cover 3 (G0 (V c main_v0) (V c main_v1) (V c main_v3))
    (fun t _ => flushed0_eq V c t) covered0

end Cert.KernelIdeal.Hand

end
-- ==== Proof.KI.Region2Value.lean ====
/- Region 2's output block at an index, at the ideal values: the body's payload is a matrix product with the
   weight's rows as columns, plus the bias row, so the output staging buffer after the body reads, at row `r` and
   column `e`, the sum over the contracted axis of left(r, d) * weight(e, d), plus bias(0, e), on the extended reals.
   Format changes are the identity at the ideal values, a shape cast to the same shape is the identity, and the
   accumulator is the zero splat. -/
import proofs.«146720_j59012850647568_2_alg».proof.Proof.KI.Region2
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

/-- The staging rectangles start at the origin. -/
theorem origin2 : (![0, 0] : Fin 2 → Nat) = fun _ => 0 := funext fun a => by fin_cases a <;> rfl

/-! ## The product's operand indices -/

/-- The left operand is read at the output's row … -/
theorem lrow2 (j : S512x1024.Idx) (q : dot_S512x1024_S1024x1024_S512x1024_1_1_0_0_n_n.contr.Idx) : (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- … and the contraction position; -/
theorem lcon2 (j : S512x1024.Idx) (q : dot_S512x1024_S1024x1024_S512x1024_1_1_0_0_n_n.contr.Idx) : (dot_S512x1024_S1024x1024_S512x1024_1_1_0_0_n_n.lhsIdx j q 1).val = (q ⟨0, by decide⟩).val :=
  dot_S512x1024_S1024x1024_S512x1024_1_1_0_0_n_n.lhsIdx_val_of_single rfl j q
/-- the weight at the output's column, as its row, … -/
theorem rrow2 (j : S512x1024.Idx) (q : dot_S512x1024_S1024x1024_S512x1024_1_1_0_0_n_n.contr.Idx) : (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- … and the contraction position. -/
theorem rcon2 (j : S512x1024.Idx) (q : dot_S512x1024_S1024x1024_S512x1024_1_1_0_0_n_n.contr.Idx) : (dot_S512x1024_S1024x1024_S512x1024_1_1_0_0_n_n.rhsIdx j q 1).val = (q ⟨0, by decide⟩).val :=
  dot_S512x1024_S1024x1024_S512x1024_1_1_0_0_n_n.rhsIdx_val_of_single rfl j q

/-! ## The payload at an index -/

/-- The body's payload at row `r`, column `e`: the contraction of the left block's row `r` with the weight's row `e`,
    plus the bias at column `e`. -/
theorem k2_pay1_apply (v0 : Vec Ideal S512x1024 .bf16) (v1 : Vec Ideal S1024x1024 .bf16) (v2 : Vec Ideal S1x1024 .f32)
    (r : Fin 512) (e : Fin 1024) :
    k2_pay1 (F := Ideal) v0 v1 v2 (ix2 r e) = (∑ d : Fin 1024, v0 (ix2 r d) * v1 (ix2 e d)) + v2 (ix2 0 e) := by
  unfold k2_pay1
  simp only [shapeCast_self, Idealize.ShloMosaic.matmul]
  rw [addf_apply, Ideal.matmul_constant_zero_apply,
    broadcastTo_apply v2 broadcasts_S1x1024_S512x1024 (ix2 r e) (ix2 0 e) (fun a => by match a with | ⟨0, _⟩ => rfl | ⟨1, _⟩ => rfl),
    ← Equiv.sum_comp (contrEquiv1 dot_S512x1024_S1024x1024_S512x1024_1_1_0_0_n_n 1024 rfl rfl).symm]
  refine congrArg (· + v2 (ix2 0 e)) (Finset.sum_congr rfl fun k _ => ?_)
  have hk := contrEquiv1_symm_val dot_S512x1024_S1024x1024_S512x1024_1_1_0_0_n_n 1024 rfl rfl k
  have el : dot_S512x1024_S1024x1024_S512x1024_1_1_0_0_n_n.lhsIdx (ix2 r e) ((contrEquiv1 dot_S512x1024_S1024x1024_S512x1024_1_1_0_0_n_n 1024 rfl rfl).symm k) = ix2 r k := funext fun a => Fin.ext (by
    match a with
    | ⟨0, _⟩ => exact lrow2 _ _
    | ⟨1, _⟩ => exact (lcon2 _ _).trans hk)
  have er : dot_S512x1024_S1024x1024_S512x1024_1_1_0_0_n_n.rhsIdx (ix2 r e) ((contrEquiv1 dot_S512x1024_S1024x1024_S512x1024_1_1_0_0_n_n 1024 rfl rfl).symm k) = ix2 e k := funext fun a => Fin.ext (by
    match a with
    | ⟨0, _⟩ => exact rrow2 _ _
    | ⟨1, _⟩ => exact (rcon2 _ _).trans hk)
  rw [el, er]

/-! ## The output block at an index -/

/-- The output staging buffer after the body, from the three input blocks, at row `r` and column `e`. -/
theorem out2_3_apply (x0 : Vec Ideal S512x1024 .bf16) (x1 : Vec Ideal S1024x1024 .bf16) (x2 : Vec Ideal S1x1024 .f32)
    (r : Fin 512) (e : Fin 1024) :
    out2_3 (F := Ideal) x0 x1 x2 (ix2 r e) = (∑ d : Fin 1024, x0 (ix2 r d) * x1 (ix2 e d)) + x2 (ix2 0 e) := by
  unfold out2_3
  rw [View.canon_unit_zero origin2]
  simp only [View.ld_unit_zero (S := S512x1024) origin2, View.ld_unit_zero (S := S1024x1024) origin2, View.ld_unit_zero (S := S1x1024) origin2]
  exact k2_pay1_apply x0 x1 x2 r e

/-! ## From the blocks to the whole output array -/

/-- The output array as one function of the three arrays the region reads: row `i 0` of the left array contracted
    with row `i 1` of the weight, plus the bias at column `i 1`. -/
def G2 (a : S4096x1024.Idx → EReal) (w : S1024x1024.Idx → EReal) (b : S1x1024.Idx → EReal) : S4096x1024.Idx → EReal :=
  fun i => (∑ d : Fin 1024, a (ix2 (i 0 : Fin 4096) d) * w (ix2 (i 1 : Fin 1024) d)) + b (ix2 0 (i 1 : Fin 1024))

/-- The windows' block indices at a grid point, decided over the 8 points: the left operand's and the output's row
    blocks are the point's, every other block index is zero. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Block `t` of `G2`, for any three arrays: the left window's row `r` at point `t` is the array's row `512 t + r`, which
    is the output block's row `r`; the weight and the bias are read whole. So the product-plus-bias of the three
    windows' blocks, at row `r` and column `e`, is `G2` of the arrays at the output block's index (r, e). -/
theorem G2_at_block (t : Fin cfg2.N) (a : S4096x1024.Idx → EReal) (w : S1024x1024.Idx → EReal) (b : S1x1024.Idx → EReal)
    (r : Fin 512) (e : Fin 1024) :
    (∑ d : Fin 1024, a (((cfg2.win 0).blk t).view.emb (ix2 r d)) * w (((cfg2.win 1).blk t).view.emb (ix2 e d)))
        + b (((cfg2.win 2).blk t).view.emb (ix2 0 e))
      = G2 a w b (((cfg2.win 3).blk t).view.emb (ix2 r e)) := by
  obtain ⟨h00, h01, h10, h11, h20, h21, h30, h31⟩ := blockIdx2 t
  unfold G2
  have hr := r.isLt
  have he := e.isLt
  have hrow : ∀ d : Fin 1024, ((cfg2.win 0).blk t).view.emb (ix2 r d)
      = ix2 ((((cfg2.win 3).blk t).view.emb (ix2 r e)) 0 : Fin 4096) d := fun d => by
    funext x; apply Fin.ext
    match x with
    | ⟨0, _⟩ => show win2_0.index t (0 : Fin 2) * 512 + 1 * r.val = win2_3.index t (0 : Fin 2) * 512 + 1 * r.val; omega
    | ⟨1, _⟩ => show win2_0.index t (1 : Fin 2) * 1024 + 1 * d.val = d.val; omega
  have hwt : ∀ d : Fin 1024, ((cfg2.win 1).blk t).view.emb (ix2 e d)
      = ix2 ((((cfg2.win 3).blk t).view.emb (ix2 r e)) 1 : Fin 1024) d := fun d => by
    funext x; apply Fin.ext
    match x with
    | ⟨0, _⟩ => show win2_1.index t (0 : Fin 2) * 1024 + 1 * e.val = win2_3.index t (1 : Fin 2) * 1024 + 1 * e.val; omega
    | ⟨1, _⟩ => show win2_1.index t (1 : Fin 2) * 1024 + 1 * d.val = d.val; omega
  have hbias : ((cfg2.win 2).blk t).view.emb (ix2 0 e)
      = ix2 0 ((((cfg2.win 3).blk t).view.emb (ix2 r e)) 1 : Fin 1024) := by
    funext x; apply Fin.ext
    match x with
    | ⟨0, _⟩ => show win2_2.index t (0 : Fin 2) * 1 + 1 * 0 = 0; omega
    | ⟨1, _⟩ => show win2_2.index t (1 : Fin 2) * 1024 + 1 * e.val = win2_3.index t (1 : Fin 2) * 1024 + 1 * e.val; omega
  rw [hbias]
  exact congrArg (· + _) (Finset.sum_congr rfl fun d _ => by rw [hrow d, hwt d]; rfl)

/-- What point `t` writes back is block `t` of `G2` of the arrays as the region finds them. -/
theorem flushed2_eq (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal) (G2 (V c main_v7) (V c main_v2) (V c main_v8)) := by
  show (cfg2.win 3).cut (grid2.coords t) ((dat2 (F := Ideal) V c).after 3 t) = _
  rw [after2_3]
  funext j
  obtain ⟨r, e, rfl⟩ : ∃ (r : Fin 512) (e : Fin 1024), j = ix2 r e := ⟨j 0, j 1, eq_ix2 j⟩
  refine (out2_3_apply _ _ _ r e).trans ?_
  exact G2_at_block t (V c main_v7) (V c main_v2) (V c main_v8) r e

/-- An index of the output array is in point `t`'s block iff each coordinate is in the block's range on its axis. -/
theorem mem_outBlock2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v9).slice (win2_3.rect t)).set ↔ _
  rw [View.set_slice_whole, Rect.mem_set_unit]
  exact Iff.rfl

/-- Every index of the output array is in some point's block: row `ρ` is in the block of point `ρ / 512`. -/
theorem covered2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 8 := N_2
  refine ⟨⟨(i 0).val / 512, by rw [hN]; omega⟩, flush2_3 _, ?_⟩
  rw [mem_outBlock2]
  obtain ⟨-, -, -, -, -, -, h30, h31⟩ := blockIdx2 ⟨(i 0).val / 512, by rw [hN]; omega⟩
  intro a
  match a with
  | ⟨0, _⟩ =>
    show win2_3.index _ (0 : Fin 2) * 512 ≤ (i 0).val ∧ (i 0).val < win2_3.index _ (0 : Fin 2) * 512 + 512
    rw [h30]; show (i 0).val / 512 * 512 ≤ (i 0).val ∧ (i 0).val < (i 0).val / 512 * 512 + 512; omega
  | ⟨1, _⟩ =>
    show win2_3.index _ (1 : Fin 2) * 1024 ≤ (i 1).val ∧ (i 1).val < win2_3.index _ (1 : Fin 2) * 1024 + 1024
    rw [h31]; omega

/-- The output array after all 8 write-backs is `G2` of the three arrays the region finds. -/
theorem final2 (V : (c : Dev nD) → (b : Ref sig .tc) → Buf (Elt Ideal) ((c : Thread nD τ).loc b)) (c : Dev nD) :
    (dat2 (F := Ideal) V c).arrAt 3 cfg2.N = G2 (V c main_v7) (V c main_v2) (V c main_v8) :=
  (dat2 (F := Ideal) V c).arrAt_eq_of_cover 3 (G2 (V c main_v7) (V c main_v2) (V c main_v8))
    (fun t _ => flushed2_eq V c t) covered2

end Cert.KernelIdeal.Hand

end
-- ==== Proof.Spec.lean ====
/-
  Scaled dot-product attention for one head, on the extended reals, index by index.

  A query row `r`, a head `h` and a channel `d`: the SCORE of key `k` is the dot product of the query's and the
  key's 64 channels divided by 8 (the square root of the head width 64); the row of scores goes through the softmax
  — the exponential of each score less the row's largest, over the sum of those exponentials —; the output entry is
  the values' channel `d` mixed by those weights. The fused projection stores, per position and head, 192 channels:
  the query's at 0–63, the key's at 64–127, the value's at 128–191.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The largest of a row of scores: the fold of `max` from −∞. -/
def rowMax {n : ℕ} (s : Fin n → EReal) : EReal := (Finset.univ : Finset (Fin n)).fold max ⊥ s

/-- The softmax weight of key `k` in a row of scores. -/
def weight {n : ℕ} (s : Fin n → EReal) (k : Fin n) : EReal :=
  Ideal.div (Ideal.exp (s k - rowMax s)) (∑ k' : Fin n, Ideal.exp (s k' - rowMax s))

/-- One output entry: the values mixed by the row's softmax weights. -/
def mixRow {n : ℕ} (s v : Fin n → EReal) : EReal := ∑ k : Fin n, weight s k * v k

/-- A dot product scaled by 1/8 = 1/√64. -/
def scaled (x : EReal) : EReal := x * ((1 / 8 : ℝ) : EReal)

/-- Channel `d` of a head's query part, key part (offset 64) and value part (offset 128) among its 192 channels. -/
abbrev chQ (d : Fin 64) : Fin 192 := ⟨d.val, by omega⟩
abbrev chK (d : Fin 64) : Fin 192 := ⟨64 + d.val, by omega⟩
abbrev chV (d : Fin 64) : Fin 192 := ⟨128 + d.val, by omega⟩

/-- One head's output entry at query row `r` of a block of `nq` query rows against `nk` key/value rows, both blocks
    laid out [1, rows, 16 heads, 192 channels]. -/
def headEntry {nq nk : ℕ} (q : (⟨4, ![1, nq, 16, 192]⟩ : Shape).Idx → EReal) (kv : (⟨4, ![1, nk, 16, 192]⟩ : Shape).Idx → EReal)
    (h : Fin 16) (r : Fin nq) (d : Fin 64) : EReal :=
  mixRow (fun k : Fin nk => scaled (∑ e : Fin 64, q (ix4 (0 : Fin 1) r h (chQ e)) * kv (ix4 (0 : Fin 1) k h (chK e))))
    (fun k : Fin nk => kv (ix4 (0 : Fin 1) k h (chV d)))

/-- The whole attention: from the fused projection [2, 2048, 16, 192] to the heads' outputs [2, 2048, 16, 64]. -/
def att (qkv : (⟨4, ![2, 2048, 16, 192]⟩ : Shape).Idx → EReal) : (⟨4, ![2, 2048, 16, 64]⟩ : Shape).Idx → EReal := fun i =>
  mixRow (fun k : Fin 2048 => scaled (∑ e : Fin 64, qkv (ix4 (i 0) (i 1) (i 2) (chQ e)) * qkv (ix4 (i 0) k (i 2) (chK e))))
    (fun k : Fin 2048 => qkv (ix4 (i 0) k (i 2) (chV (i 3))))

/-- The literal 0.125 is the real 1/8. -/
theorem ofBits_eighth : Ideal.ofBits .f32 0x3E000000#32 = ((1 / 8 : ℝ) : EReal) := by
  simp [Ideal.ofBits, Ideal.ieee, -EReal.coe_mul]; norm_num

/-- Dividing by the square root of the literal 64 is scaling by 1/8, on every extended real. -/
theorem div_sqrt64 (x : EReal) : Ideal.div x (Ideal.sqrt (Ideal.ofBits .f32 0x42800000#32)) = scaled x := by
  have h64 : Ideal.ofBits .f32 0x42800000#32 = ((64 : ℝ) : EReal) := by simp [Ideal.ofBits, Ideal.ieee, -EReal.coe_mul]; norm_num
  have hs : Real.sqrt 64 = 8 := by
    rw [show (64 : ℝ) = 8 ^ 2 by norm_num]; exact Real.sqrt_sq (by norm_num)
  rw [h64, Ideal.sqrt_coe, if_neg (by norm_num), hs, Ideal.div_coe (by norm_num)]
  rfl

/-- The largest of −∞ and a row's largest is the row's largest. -/
theorem max_bot_rowMax {n : ℕ} (s : Fin n → EReal) : max ⊥ (rowMax s) = rowMax s := max_eq_right bot_le

end Cert.Spec

end
-- ==== Proof.KI.Region1Value.lean ====
import proofs.«146720_j59012850647568_2_alg».proof.Proof.KI.Region1Body
import proofs.«146720_j59012850647568_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

variable {α : Type}

/-! ## Layout operations of one head, read at coordinates -/

/-- A block `[1, n, 16, 192]` viewed `[n, 16, 192]` reads, at `(r, g, c)`, the block at `(0, r, g, c)`. -/
theorem dropLead_apply {n : ℕ} (x : (⟨4, ![1, n, 16, 192]⟩ : Shape).Idx → α)
    (h : (⟨4, ![1, n, 16, 192]⟩ : Shape).ShapeCasts ⟨3, ![n, 16, 192]⟩) (r : Fin n) (g : Fin 16) (c : Fin 192) :
    shapeCast ⟨3, ![n, 16, 192]⟩ x h (ix3 r g c) = x (ix4 (0 : Fin 1) r g c) :=
  shapeCast_1abc_abc_apply x h r g c

/-- The 64 channels from offset `o` of head `g`, cut out of `[n, 16, 192]` as `[n, 1, 64]` and viewed `[n, 64]`,
    read at `(r, e)` the source at `(r, g, o + e)`. -/
theorem headSlice_apply {n : ℕ} (g o : ℕ) (x : (⟨3, ![n, 16, 192]⟩ : Shape).Idx → α)
    (hs : (⟨3, ![n, 16, 192]⟩ : Shape).Slices ![0, g, o] ⟨3, ![n, 1, 64]⟩)
    (hc : (⟨3, ![n, 1, 64]⟩ : Shape).ShapeCasts ⟨2, ![n, 64]⟩)
    (r : Fin n) (e : Fin 64) (gg : Fin 16) (c : Fin 192) (hg : gg.val = g) (hce : c.val = o + e.val) :
    shapeCast ⟨2, ![n, 64]⟩ (extractStridedSlice ⟨3, ![n, 1, 64]⟩ ![0, g, o] x hs) hc (ix2 r e) = x (ix3 r gg c) := by
  refine (shapeCast_apply _ hc (ix2 r e) (ix3 r (0 : Fin 1) e) ?_).trans ?_
  · rw [Shape.rowMajor_val_three, Shape.rowMajor_val_two]
    show (r.val * 1 + 0) * 64 + e.val = r.val * 64 + e.val
    omega
  · refine extractStridedSlice_apply _ x hs _ _ fun a => ?_
    match a with
    | ⟨0, _⟩ => exact (Nat.zero_add _).symm
    | ⟨1, _⟩ => show gg.val = g + 0; omega
    | ⟨2, _⟩ => exact hce

/-- A column `[n]` viewed `[n, 1]` reads, at `(r, u)`, the column at `r`. -/
theorem colCast_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[n, 1]` broadcast to `[n, m]` reads, at `(r, j)`, the column at `(r, 0)`. -/
theorem colBroadcast_apply {n m : ℕ} (x : (⟨2, ![n, 1]⟩ : Shape).Idx → α) (h : (⟨2, ![n, 1]⟩ : Shape).Broadcasts ⟨2, ![n, m]⟩)
    (r : Fin n) (j : Fin m) : broadcastTo ⟨2, ![n, m]⟩ x h (ix2 r j) = x (ix2 r (0 : Fin 1)) := by
  refine broadcastTo_apply x h (ix2 r j) (ix2 r (0 : Fin 1)) fun ax => ?_
  match ax with
  | ⟨0, _⟩ =>
    show r.val = if n = 1 then 0 else r.val
    split
    · have := r.isLt; omega
    · rfl
  | ⟨1, _⟩ => rfl

/-- A result `[n, m]` stored as `[1, n, 1, m]` reads, at `(u, r, w, d)`, the result at `(r, d)`. -/
theorem storeCast_apply {n m : ℕ} (x : (⟨2, ![n, m]⟩ : Shape).Idx → α) (h : (⟨2, ![n, m]⟩ : Shape).ShapeCasts ⟨4, ![1, n, 1, m]⟩)
    (u : Fin 1) (r : Fin n) (w : Fin 1) (d : Fin m) : shapeCast ⟨4, ![1, n, 1, m]⟩ x h (ix4 u r w d) = x (ix2 r d) :=
  shapeCast_apply x h _ _ (by
    have hu : u.val = 0 := by omega
    have hw : w.val = 0 := by omega
    rw [Shape.rowMajor_val_four, Shape.rowMajor_val_two]
    show r.val * m + d.val = ((u.val * n + r.val) * 1 + w.val) * m + d.val
    rw [hu, hw]; simp)

/-! ## The two contractions and the two row reductions, read at coordinates -/

/-- The literal the row maximum starts from is −∞. -/
theorem ofBits_negInf : Ideal.ofBits .f32 0xFF800000#32 = (⊥ : EReal) := by
  simp [Ideal.ofBits, Ideal.ieee]

/-- Queries times keys: entry `(r, j)` is the dot product of query row `r` and key row `j` over the 64 channels. -/
theorem scoresMatmul_apply (q : FVec Ideal S512x64 .bf16) (k : FVec Ideal S2048x64 .bf16) (r : Fin 512) (j : Fin 2048) :
    matmul dot_S512x64_S2048x64_S512x2048_1_1_0_0_n_n none q k (constant (F := Ideal) S512x2048 .f32 0x00000000#32) (ix2 r j)
      = ∑ e : Fin 64, q (ix2 r e) * k (ix2 j e) := by
  simp only [matmul]
  rw [Ideal.matmul_constant_zero_apply,
    ← Equiv.sum_comp (contrEquiv1 dot_S512x64_S2048x64_S512x2048_1_1_0_0_n_n 64 rfl rfl).symm]
  refine Finset.sum_congr rfl fun e _ => ?_
  have he := contrEquiv1_symm_val dot_S512x64_S2048x64_S512x2048_1_1_0_0_n_n 64 rfl rfl e
  have el : dot_S512x64_S2048x64_S512x2048_1_1_0_0_n_n.lhsIdx (ix2 r j)
      ((contrEquiv1 dot_S512x64_S2048x64_S512x2048_1_1_0_0_n_n 64 rfl rfl).symm e) = ix2 r e :=
    funext fun a => Fin.ext (by
      match a with
      | ⟨0, _⟩ => rfl
      | ⟨1, _⟩ => exact (dot_S512x64_S2048x64_S512x2048_1_1_0_0_n_n.lhsIdx_val_of_single rfl _ _).trans he)
  have er : dot_S512x64_S2048x64_S512x2048_1_1_0_0_n_n.rhsIdx (ix2 r j)
      ((contrEquiv1 dot_S512x64_S2048x64_S512x2048_1_1_0_0_n_n 64 rfl rfl).symm e) = ix2 j e :=
    funext fun a => Fin.ext (by
      match a with
      | ⟨0, _⟩ => rfl
      | ⟨1, _⟩ => exact (dot_S512x64_S2048x64_S512x2048_1_1_0_0_n_n.rhsIdx_val_of_single rfl _ _).trans he)
  rw [el, er]

/-- Weights times values: entry `(r, d)` is the sum over the 2048 keys of the weight at `(r, j)` times the value at `(j, d)`. -/
theorem mixMatmul_apply (p : FVec Ideal S512x2048 .bf16) (v : FVec Ideal S2048x64 .bf16) (r : Fin 512) (d : Fin 64) :
    matmul dot_S512x2048_S2048x64_S512x64_1_0_0_1_n_n none p v (constant (F := Ideal) S512x64 .f32 0x00000000#32) (ix2 r d)
      = ∑ j : Fin 2048, p (ix2 r j) * v (ix2 j d) := by
  simp only [matmul]
  rw [Ideal.matmul_constant_zero_apply,
    ← Equiv.sum_comp (contrEquiv1 dot_S512x2048_S2048x64_S512x64_1_0_0_1_n_n 2048 rfl rfl).symm]
  refine Finset.sum_congr rfl fun j _ => ?_
  have hj := contrEquiv1_symm_val dot_S512x2048_S2048x64_S512x64_1_0_0_1_n_n 2048 rfl rfl j
  have el : dot_S512x2048_S2048x64_S512x64_1_0_0_1_n_n.lhsIdx (ix2 r d)
      ((contrEquiv1 dot_S512x2048_S2048x64_S512x64_1_0_0_1_n_n 2048 rfl rfl).symm j) = ix2 r j :=
    funext fun a => Fin.ext (by
      match a with
      | ⟨0, _⟩ => rfl
      | ⟨1, _⟩ => exact (dot_S512x2048_S2048x64_S512x64_1_0_0_1_n_n.lhsIdx_val_of_single rfl _ _).trans hj)
  have er : dot_S512x2048_S2048x64_S512x64_1_0_0_1_n_n.rhsIdx (ix2 r d)
      ((contrEquiv1 dot_S512x2048_S2048x64_S512x64_1_0_0_1_n_n 2048 rfl rfl).symm j) = ix2 j d :=
    funext fun a => Fin.ext (by
      match a with
      | ⟨0, _⟩ => exact (dot_S512x2048_S2048x64_S512x64_1_0_0_1_n_n.rhsIdx_val_of_single rfl _ _).trans hj
      | ⟨1, _⟩ => rfl)
  rw [el, er]

/-- The row maximum of a `[512, 2048]` array at row `r`: the fold of `max` from −∞ over the row. -/
theorem rowMax_apply (s : FVec Ideal S512x2048 .f32) (hφ : FKind.Formats .f32)
    (hacc : (0xFF800000#32 : BitVec 32) = 0xFF800000#32) (r : Fin 512) :
    multiReduction (F := Ideal) .maximumf [1] S512 s 0xFF800000#32 reduces_S512x2048_S512 hφ hacc (ix1 r)
      = Cert.Spec.rowMax (fun j : Fin 2048 => s (ix2 r j)) := by
  refine (Ideal.multiReduction_maximumf_single s 0xFF800000#32 reduces_S512x2048_S512 hφ hacc (ix1 r)).trans ?_
  show (Finset.univ : Finset (Fin 2048)).fold max (Ideal.ofBits .f32 0xFF800000#32) (fun j => s (reduces_S512x2048_S512.lift (ix1 r) j)) = _
  rw [ofBits_negInf]
  unfold Cert.Spec.rowMax
  congr 1
  funext j
  congr 1
  funext a
  match a with
  | ⟨0, _⟩ => rfl
  | ⟨1, _⟩ => rfl

/-- The row sum of a `[512, 2048]` array at row `r`. -/
theorem rowSum_apply (p : FVec Ideal S512x2048 .f32) (hφ : FKind.Formats .f32)
    (hacc : (0x00000000#32 : BitVec 32) = 0x00000000#32) (r : Fin 512) :
    multiReduction (F := Ideal) .add [1] S512 p 0x00000000#32 reduces_S512x2048_S512 hφ hacc (ix1 r)
      = ∑ j : Fin 2048, p (ix2 r j) := by
  refine (Ideal.multiReduction_add_single p 0x00000000#32 reduces_S512x2048_S512 hφ hacc (ix1 r)).trans ?_
  show ∑ j : Fin 2048, p (reduces_S512x2048_S512.lift (ix1 r) j) = _
  refine Finset.sum_congr rfl fun j _ => ?_
  congr 1
  funext a
  match a with
  | ⟨0, _⟩ => rfl
  | ⟨1, _⟩ => rfl

/-! ## One head's attention as one function of its queries, keys and values -/

section OneHead
variable {F : FTy → Type} [FloatOps F]

/-- The 64 query channels of head `g` of a `[512, 16, 192]` block, as `[512, 64]`. -/
def headQ (g : ℕ) (hs : S512x16x192.Slices ![0, g, 0] S512x1x64) (x : FVec F S512x16x192 .bf16) : FVec F S512x64 .bf16 :=
  shapeCast S512x64 (extractStridedSlice S512x1x64 ![0, g, 0] x hs) shapeCasts_S512x1x64_S512x64

/-- The 64 key channels (offset 64) of head `g` of a `[2048, 16, 192]` block, as `[2048, 64]`. -/
def headK (g : ℕ) (hs : S2048x16x192.Slices ![0, g, 64] S2048x1x64) (x : FVec F S2048x16x192 .bf16) : FVec F S2048x64 .bf16 :=
  shapeCast S2048x64 (extractStridedSlice S2048x1x64 ![0, g, 64] x hs) shapeCasts_S2048x1x64_S2048x64

/-- The 64 value channels (offset 128) of head `g` of a `[2048, 16, 192]` block, as `[2048, 64]`. -/
def headV (g : ℕ) (hs : S2048x16x192.Slices ![0, g, 128] S2048x1x64) (x : FVec F S2048x16x192 .bf16) : FVec F S2048x64 .bf16 :=
  shapeCast S2048x64 (extractStridedSlice S2048x1x64 ![0, g, 128] x hs) shapeCasts_S2048x1x64_S2048x64

/-- The scores: queries times keys over the 64 channels, times the literal 0.125. -/
def scores (q : FVec F S512x64 .bf16) (k : FVec F S2048x64 .bf16) : FVec F S512x2048 .f32 :=
  mulf (matmul dot_S512x64_S2048x64_S512x2048_1_1_0_0_n_n none q k (constant S512x2048 .f32 0x00000000#32))
    (broadcast S512x2048 (Scalar.ofBits .f32 0x3E000000#32))

/-- A row's largest score, as a column `[512, 1]`. -/
def rowTop (s : FVec F S512x2048 .f32) : FVec F S512x1 .f32 :=
  shapeCast S512x1 (multiReduction .maximumf [1] S512 s 0xFF800000#32 reduces_S512x2048_S512 (.inl rfl) rfl) shapeCasts_S512_S512x1

/-- The scores less their row's largest. -/
def shifted (s : FVec F S512x2048 .f32) (m : FVec F S512x1 .f32) : FVec F S512x2048 .f32 :=
  subf s (broadcastTo S512x2048 m broadcasts_S512x1_S512x2048)

/-- A row of exponentials over the row's sum. -/
def normalized (p : FVec F S512x2048 .f32) : FVec F S512x2048 .f32 :=
  divf p (broadcastTo S512x2048
    (shapeCast S512x1 (multiReduction .add [1] S512 p 0x00000000#32 reduces_S512x2048_S512 (.inl rfl) rfl) shapeCasts_S512_S512x1)
    broadcasts_S512x1_S512x2048)

/-- The weights times the values, stored as `[1, 512, 1, 64]`. -/
def mixed (w : FVec F S512x2048 .bf16) (v : FVec F S2048x64 .bf16) (acc : FVec F S512x64 .f32) : FVec F S1x512x1x64 .bf16 :=
  shapeCast S1x512x1x64 (truncf .bf16 (matmul dot_S512x2048_S2048x64_S512x64_1_0_0_1_n_n none w v acc) bitsLt_bf16_f32)
    shapeCasts_S512x64_S1x512x1x64

/-- One head: scores, softmax along the keys, weights times values. -/
def attn (q : FVec F S512x64 .bf16) (k v : FVec F S2048x64 .bf16) : FVec F S1x512x1x64 .bf16 :=
  mixed (truncf .bf16 (normalized (exp (shifted (scores q k) (rowTop (scores q k))))) bitsLt_bf16_f32) v
    (constant S512x64 .f32 0x00000000#32)

end OneHead

/-! ## Its value at an index, on the extended reals -/

theorem headQ_apply (g : ℕ) (hs : S512x16x192.Slices ![0, g, 0] S512x1x64) (x : FVec Ideal S512x16x192 .bf16)
    (r : Fin 512) (e : Fin 64) (gg : Fin 16) (hg : gg.val = g) :
    headQ g hs x (ix2 r e) = x (ix3 r gg (Cert.Spec.chQ e)) :=
  headSlice_apply g 0 x hs _ r e gg _ hg (Nat.zero_add _).symm

theorem headK_apply (g : ℕ) (hs : S2048x16x192.Slices ![0, g, 64] S2048x1x64) (x : FVec Ideal S2048x16x192 .bf16)
    (j : Fin 2048) (e : Fin 64) (gg : Fin 16) (hg : gg.val = g) :
    headK g hs x (ix2 j e) = x (ix3 j gg (Cert.Spec.chK e)) :=
  headSlice_apply g 64 x hs _ j e gg _ hg rfl

theorem headV_apply (g : ℕ) (hs : S2048x16x192.Slices ![0, g, 128] S2048x1x64) (x : FVec Ideal S2048x16x192 .bf16)
    (j : Fin 2048) (e : Fin 64) (gg : Fin 16) (hg : gg.val = g) :
    headV g hs x (ix2 j e) = x (ix3 j gg (Cert.Spec.chV e)) :=
  headSlice_apply g 128 x hs _ j e gg _ hg rfl

theorem scores_apply (q : FVec Ideal S512x64 .bf16) (k : FVec Ideal S2048x64 .bf16) (r : Fin 512) (j : Fin 2048) :
    scores q k (ix2 r j) = Cert.Spec.scaled (∑ e : Fin 64, q (ix2 r e) * k (ix2 j e)) := by
  unfold scores
  rw [mulf_apply, scoresMatmul_apply, broadcast_apply]
  show _ * Ideal.ofBits .f32 0x3E000000#32 = _
  rw [Cert.Spec.ofBits_eighth]
  rfl

theorem rowTop_apply (s : FVec Ideal S512x2048 .f32) (r : Fin 512) (u : Fin 1) :
    rowTop s (ix2 r u) = Cert.Spec.rowMax (fun j : Fin 2048 => s (ix2 r j)) := by
  unfold rowTop
  rw [colCast_apply, rowMax_apply]

theorem shifted_apply (s : FVec Ideal S512x2048 .f32) (m : FVec Ideal S512x1 .f32) (r : Fin 512) (j : Fin 2048) :
    shifted s m (ix2 r j) = s (ix2 r j) - m (ix2 r (0 : Fin 1)) := by
  unfold shifted
  rw [subf_apply, colBroadcast_apply]

theorem exp_apply {s : Shape} {φ : FTy} (x : FVec Ideal s φ) (i : s.Idx) : exp x i = Ideal.exp (x i) := rfl

theorem normalized_apply (p : FVec Ideal S512x2048 .f32) (r : Fin 512) (j : Fin 2048) :
    normalized p (ix2 r j) = Ideal.div (p (ix2 r j)) (∑ j' : Fin 2048, p (ix2 r j')) := by
  unfold normalized
  rw [divf_apply, colBroadcast_apply, colCast_apply, rowSum_apply]

theorem mixed_apply (w : FVec Ideal S512x2048 .bf16) (v : FVec Ideal S2048x64 .bf16) (u : Fin 1) (r : Fin 512) (t : Fin 1) (d : Fin 64) :
    mixed w v (constant (F := Ideal) S512x64 .f32 0x00000000#32) (ix4 u r t d) = ∑ j : Fin 2048, w (ix2 r j) * v (ix2 j d) := by
  unfold mixed
  rw [storeCast_apply, truncf_apply, mixMatmul_apply]

/-- One head's stored value at `(0, r, 0, d)`: the values' channel `d` mixed by the softmax of the scaled scores of row `r`. -/
theorem attn_apply (q : FVec Ideal S512x64 .bf16) (k v : FVec Ideal S2048x64 .bf16) (u : Fin 1) (r : Fin 512) (t : Fin 1) (d : Fin 64) :
    attn q k v (ix4 u r t d)
      = Cert.Spec.mixRow (fun j : Fin 2048 => Cert.Spec.scaled (∑ e : Fin 64, q (ix2 r e) * k (ix2 j e))) (fun j : Fin 2048 => v (ix2 j d)) := by
  unfold attn
  rw [mixed_apply]
  unfold Cert.Spec.mixRow Cert.Spec.weight
  simp only [truncf_apply, normalized_apply, exp_apply, shifted_apply, rowTop_apply, scores_apply]

/-- The head-generic reading: the attention function on head `g`'s slices of the two loaded blocks is the head's entry. -/
theorem attnHead_apply (g : Fin 16) (hq : S512x16x192.Slices ![0, g.val, 0] S512x1x64)
    (hk : S2048x16x192.Slices ![0, g.val, 64] S2048x1x64) (hv : S2048x16x192.Slices ![0, g.val, 128] S2048x1x64)
    (v0 : Vec Ideal S1x512x16x192 .bf16) (v2 : Vec Ideal S1x2048x16x192 .bf16) (r : Fin 512) (d : Fin 64) :
    attn (headQ g.val hq (k1_pay2 v0)) (headK g.val hk (k1_pay3 v2)) (headV g.val hv (k1_pay3 v2)) (ix4 (0 : Fin 1) r (0 : Fin 1) d)
      = Cert.Spec.headEntry (nq := 512) (nk := 2048) v0 v2 g r d := by
  rw [attn_apply]
  unfold Cert.Spec.headEntry
  simp only [headQ_apply _ _ _ _ _ g rfl, headK_apply _ _ _ _ _ g rfl, headV_apply _ _ _ _ _ g rfl]
  unfold k1_pay2 k1_pay3
  simp only [dropLead_apply]

/-! ## The sixteen heads: each stored payload is the one attention function on that head's slices -/

theorem headOut_eq_0 {F : FTy → Type} [FloatOps F] (v0 : Vec F S1x512x16x192 .bf16) (v2 : Vec F S1x2048x16x192 .bf16) :
    headOut ⟨0, by omega⟩ v0 v2 = attn (headQ 0 slices_S512x16x192_o0_0_0_S512x1x64 (k1_pay2 v0))
      (headK 0 slices_S2048x16x192_o0_0_64_S2048x1x64 (k1_pay3 v2)) (headV 0 slices_S2048x16x192_o0_0_128_S2048x1x64 (k1_pay3 v2)) := rfl

theorem headOut_eq_1 {F : FTy → Type} [FloatOps F] (v0 : Vec F S1x512x16x192 .bf16) (v2 : Vec F S1x2048x16x192 .bf16) :
    headOut ⟨1, by omega⟩ v0 v2 = attn (headQ 1 slices_S512x16x192_o0_1_0_S512x1x64 (k1_pay2 v0))
      (headK 1 slices_S2048x16x192_o0_1_64_S2048x1x64 (k1_pay3 v2)) (headV 1 slices_S2048x16x192_o0_1_128_S2048x1x64 (k1_pay3 v2)) := rfl

theorem headOut_eq_2 {F : FTy → Type} [FloatOps F] (v0 : Vec F S1x512x16x192 .bf16) (v2 : Vec F S1x2048x16x192 .bf16) :
    headOut ⟨2, by omega⟩ v0 v2 = attn (headQ 2 slices_S512x16x192_o0_2_0_S512x1x64 (k1_pay2 v0))
      (headK 2 slices_S2048x16x192_o0_2_64_S2048x1x64 (k1_pay3 v2)) (headV 2 slices_S2048x16x192_o0_2_128_S2048x1x64 (k1_pay3 v2)) := rfl

theorem headOut_eq_3 {F : FTy → Type} [FloatOps F] (v0 : Vec F S1x512x16x192 .bf16) (v2 : Vec F S1x2048x16x192 .bf16) :
    headOut ⟨3, by omega⟩ v0 v2 = attn (headQ 3 slices_S512x16x192_o0_3_0_S512x1x64 (k1_pay2 v0))
      (headK 3 slices_S2048x16x192_o0_3_64_S2048x1x64 (k1_pay3 v2)) (headV 3 slices_S2048x16x192_o0_3_128_S2048x1x64 (k1_pay3 v2)) := rfl

theorem headOut_eq_4 {F : FTy → Type} [FloatOps F] (v0 : Vec F S1x512x16x192 .bf16) (v2 : Vec F S1x2048x16x192 .bf16) :
    headOut ⟨4, by omega⟩ v0 v2 = attn (headQ 4 slices_S512x16x192_o0_4_0_S512x1x64 (k1_pay2 v0))
      (headK 4 slices_S2048x16x192_o0_4_64_S2048x1x64 (k1_pay3 v2)) (headV 4 slices_S2048x16x192_o0_4_128_S2048x1x64 (k1_pay3 v2)) := rfl

theorem headOut_eq_5 {F : FTy → Type} [FloatOps F] (v0 : Vec F S1x512x16x192 .bf16) (v2 : Vec F S1x2048x16x192 .bf16) :
    headOut ⟨5, by omega⟩ v0 v2 = attn (headQ 5 slices_S512x16x192_o0_5_0_S512x1x64 (k1_pay2 v0))
      (headK 5 slices_S2048x16x192_o0_5_64_S2048x1x64 (k1_pay3 v2)) (headV 5 slices_S2048x16x192_o0_5_128_S2048x1x64 (k1_pay3 v2)) := rfl

theorem headOut_eq_6 {F : FTy → Type} [FloatOps F] (v0 : Vec F S1x512x16x192 .bf16) (v2 : Vec F S1x2048x16x192 .bf16) :
    headOut ⟨6, by omega⟩ v0 v2 = attn (headQ 6 slices_S512x16x192_o0_6_0_S512x1x64 (k1_pay2 v0))
      (headK 6 slices_S2048x16x192_o0_6_64_S2048x1x64 (k1_pay3 v2)) (headV 6 slices_S2048x16x192_o0_6_128_S2048x1x64 (k1_pay3 v2)) := rfl

theorem headOut_eq_7 {F : FTy → Type} [FloatOps F] (v0 : Vec F S1x512x16x192 .bf16) (v2 : Vec F S1x2048x16x192 .bf16) :
    headOut ⟨7, by omega⟩ v0 v2 = attn (headQ 7 slices_S512x16x192_o0_7_0_S512x1x64 (k1_pay2 v0))
      (headK 7 slices_S2048x16x192_o0_7_64_S2048x1x64 (k1_pay3 v2)) (headV 7 slices_S2048x16x192_o0_7_128_S2048x1x64 (k1_pay3 v2)) := rfl

theorem headOut_eq_8 {F : FTy → Type} [FloatOps F] (v0 : Vec F S1x512x16x192 .bf16) (v2 : Vec F S1x2048x16x192 .bf16) :
    headOut ⟨8, by omega⟩ v0 v2 = attn (headQ 8 slices_S512x16x192_o0_8_0_S512x1x64 (k1_pay2 v0))
      (headK 8 slices_S2048x16x192_o0_8_64_S2048x1x64 (k1_pay3 v2)) (headV 8 slices_S2048x16x192_o0_8_128_S2048x1x64 (k1_pay3 v2)) := rfl

theorem headOut_eq_9 {F : FTy → Type} [FloatOps F] (v0 : Vec F S1x512x16x192 .bf16) (v2 : Vec F S1x2048x16x192 .bf16) :
    headOut ⟨9, by omega⟩ v0 v2 = attn (headQ 9 slices_S512x16x192_o0_9_0_S512x1x64 (k1_pay2 v0))
      (headK 9 slices_S2048x16x192_o0_9_64_S2048x1x64 (k1_pay3 v2)) (headV 9 slices_S2048x16x192_o0_9_128_S2048x1x64 (k1_pay3 v2)) := rfl

theorem headOut_eq_10 {F : FTy → Type} [FloatOps F] (v0 : Vec F S1x512x16x192 .bf16) (v2 : Vec F S1x2048x16x192 .bf16) :
    headOut ⟨10, by omega⟩ v0 v2 = attn (headQ 10 slices_S512x16x192_o0_10_0_S512x1x64 (k1_pay2 v0))
      (headK 10 slices_S2048x16x192_o0_10_64_S2048x1x64 (k1_pay3 v2)) (headV 10 slices_S2048x16x192_o0_10_128_S2048x1x64 (k1_pay3 v2)) := rfl

theorem headOut_eq_11 {F : FTy → Type} [FloatOps F] (v0 : Vec F S1x512x16x192 .bf16) (v2 : Vec F S1x2048x16x192 .bf16) :
    headOut ⟨11, by omega⟩ v0 v2 = attn (headQ 11 slices_S512x16x192_o0_11_0_S512x1x64 (k1_pay2 v0))
      (headK 11 slices_S2048x16x192_o0_11_64_S2048x1x64 (k1_pay3 v2)) (headV 11 slices_S2048x16x192_o0_11_128_S2048x1x64 (k1_pay3 v2)) := rfl

theorem headOut_eq_12 {F : FTy → Type} [FloatOps F] (v0 : Vec F S1x512x16x192 .bf16) (v2 : Vec F S1x2048x16x192 .bf16) :
    headOut ⟨12, by omega⟩ v0 v2 = attn (headQ 12 slices_S512x16x192_o0_12_0_S512x1x64 (k1_pay2 v0))
      (headK 12 slices_S2048x16x192_o0_12_64_S2048x1x64 (k1_pay3 v2)) (headV 12 slices_S2048x16x192_o0_12_128_S2048x1x64 (k1_pay3 v2)) := rfl

theorem headOut_eq_13 {F : FTy → Type} [FloatOps F] (v0 : Vec F S1x512x16x192 .bf16) (v2 : Vec F S1x2048x16x192 .bf16) :
    headOut ⟨13, by omega⟩ v0 v2 = attn (headQ 13 slices_S512x16x192_o0_13_0_S512x1x64 (k1_pay2 v0))
      (headK 13 slices_S2048x16x192_o0_13_64_S2048x1x64 (k1_pay3 v2)) (headV 13 slices_S2048x16x192_o0_13_128_S2048x1x64 (k1_pay3 v2)) := rfl

theorem headOut_eq_14 {F : FTy → Type} [FloatOps F] (v0 : Vec F S1x512x16x192 .bf16) (v2 : Vec F S1x2048x16x192 .bf16) :
    headOut ⟨14, by omega⟩ v0 v2 = attn (headQ 14 slices_S512x16x192_o0_14_0_S512x1x64 (k1_pay2 v0))
      (headK 14 slices_S2048x16x192_o0_14_64_S2048x1x64 (k1_pay3 v2)) (headV 14 slices_S2048x16x192_o0_14_128_S2048x1x64 (k1_pay3 v2)) := rfl

theorem headOut_eq_15 {F : FTy → Type} [FloatOps F] (v0 : Vec F S1x512x16x192 .bf16) (v2 : Vec F S1x2048x16x192 .bf16) :
    headOut ⟨15, by omega⟩ v0 v2 = attn (headQ 15 slices_S512x16x192_o0_15_0_S512x1x64 (k1_pay2 v0))
      (headK 15 slices_S2048x16x192_o0_15_64_S2048x1x64 (k1_pay3 v2)) (headV 15 slices_S2048x16x192_o0_15_128_S2048x1x64 (k1_pay3 v2)) := rfl

/-- The value the attention body stores for head `h`, at query row `r` and channel `d`, is that head's scaled
    dot-product attention entry over the two loaded blocks. -/
theorem headOut_apply (h : Fin 16) (v0 : Vec Ideal S1x512x16x192 .bf16) (v2 : Vec Ideal S1x2048x16x192 .bf16) (r : Fin 512) (d : Fin 64) :
    headOut (F := Ideal) h v0 v2 (ix4 (0 : Fin 1) r (0 : Fin 1) d) = Cert.Spec.headEntry (nq := 512) (nk := 2048) v0 v2 h r d := by
  match h with
  | ⟨0, _⟩ => exact (congrFun (headOut_eq_0 v0 v2) _).trans (attnHead_apply ⟨0, by omega⟩ _ _ _ v0 v2 r d)
  | ⟨1, _⟩ => exact (congrFun (headOut_eq_1 v0 v2) _).trans (attnHead_apply ⟨1, by omega⟩ _ _ _ v0 v2 r d)
  | ⟨2, _⟩ => exact (congrFun (headOut_eq_2 v0 v2) _).trans (attnHead_apply ⟨2, by omega⟩ _ _ _ v0 v2 r d)
  | ⟨3, _⟩ => exact (congrFun (headOut_eq_3 v0 v2) _).trans (attnHead_apply ⟨3, by omega⟩ _ _ _ v0 v2 r d)
  | ⟨4, _⟩ => exact (congrFun (headOut_eq_4 v0 v2) _).trans (attnHead_apply ⟨4, by omega⟩ _ _ _ v0 v2 r d)
  | ⟨5, _⟩ => exact (congrFun (headOut_eq_5 v0 v2) _).trans (attnHead_apply ⟨5, by omega⟩ _ _ _ v0 v2 r d)
  | ⟨6, _⟩ => exact (congrFun (headOut_eq_6 v0 v2) _).trans (attnHead_apply ⟨6, by omega⟩ _ _ _ v0 v2 r d)
  | ⟨7, _⟩ => exact (congrFun (headOut_eq_7 v0 v2) _).trans (attnHead_apply ⟨7, by omega⟩ _ _ _ v0 v2 r d)
  | ⟨8, _⟩ => exact (congrFun (headOut_eq_8 v0 v2) _).trans (attnHead_apply ⟨8, by omega⟩ _ _ _ v0 v2 r d)
  | ⟨9, _⟩ => exact (congrFun (headOut_eq_9 v0 v2) _).trans (attnHead_apply ⟨9, by omega⟩ _ _ _ v0 v2 r d)
  | ⟨10, _⟩ => exact (congrFun (headOut_eq_10 v0 v2) _).trans (attnHead_apply ⟨10, by omega⟩ _ _ _ v0 v2 r d)
  | ⟨11, _⟩ => exact (congrFun (headOut_eq_11 v0 v2) _).trans (attnHead_apply ⟨11, by omega⟩ _ _ _ v0 v2 r d)
  | ⟨12, _⟩ => exact (congrFun (headOut_eq_12 v0 v2) _).trans (attnHead_apply ⟨12, by omega⟩ _ _ _ v0 v2 r d)
  | ⟨13, _⟩ => exact (congrFun (headOut_eq_13 v0 v2) _).trans (attnHead_apply ⟨13, by omega⟩ _ _ _ v0 v2 r d)
  | ⟨14, _⟩ => exact (congrFun (headOut_eq_14 v0 v2) _).trans (attnHead_apply ⟨14, by omega⟩ _ _ _ v0 v2 r d)
  | ⟨15, _⟩ => exact (congrFun (headOut_eq_15 v0 v2) _).trans (attnHead_apply ⟨15, by omega⟩ _ _ _ v0 v2 r d)
  | ⟨n + 16, hn⟩ => exact absurd hn (by omega)

end Cert.KernelIdeal.Hand

end
-- ==== Proof.KI.Region1Final.lean ====
/- The attention region's output array after all its write-backs, at the ideal values: scaled dot-product attention of
   the fused projection, index by index. Grid point `t` is batch `t / 4` and query tile `t % 4`; the query window's block
   is rows `512 (t % 4) …` of batch `t / 4`, the key/value window's block is the whole batch, and the output window's block
   sits where the query block does. So a head's output entry over the two blocks, at row `r` of the tile, is the
   attention of the array at position `512 (t % 4) + r` of the batch: the sums over the 2048 keys are the same sums. -/
import proofs.«146720_j59012850647568_2_alg».proof.Proof.KI.Region1Dat
import proofs.«146720_j59012850647568_2_alg».proof.Proof.Spec
import proofs.«146720_j59012850647568_2_alg».proof.Proof.KI.Region1Value
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

/-- The windows' block indices at a grid point, decided over the 8 points: batch `t / 4` for all three windows, query
    tile `t % 4` for the query and output windows, zero everywhere else. -/
theorem blockIdx1 : ∀ t : Fin cfg1.N,
    win1_0.index t (0 : Fin 4) = t.val / 4 ∧ win1_0.index t (1 : Fin 4) = t.val % 4 ∧ win1_0.index t (2 : Fin 4) = 0 ∧ win1_0.index t (3 : Fin 4) = 0
    ∧ win1_1.index t (0 : Fin 4) = t.val / 4 ∧ win1_1.index t (1 : Fin 4) = 0 ∧ win1_1.index t (2 : Fin 4) = 0 ∧ win1_1.index t (3 : Fin 4) = 0
    ∧ win1_2.index t (0 : Fin 4) = t.val / 4 ∧ win1_2.index t (1 : Fin 4) = t.val % 4 ∧ win1_2.index t (2 : Fin 4) = 0 ∧ win1_2.index t (3 : Fin 4) = 0 :=
  (by decide +kernel : ∀ t : Fin grid1.N, _)

/-- Block `t` of the attention, for any fused-projection array: one head's entry over the query window's block and the
    key/value window's block at point `t`, at row `r`, head `h`, channel `d`, is the array's attention at the output
    block's index (0, r, h, d). -/
theorem att_at_block (t : Fin cfg1.N) (qkv : S2x2048x16x192.Idx → EReal) (r : Fin 512) (h : Fin 16) (d : Fin 64) :
    Cert.Spec.headEntry (nq := 512) (nk := 2048) (fun j : S1x512x16x192.Idx => qkv (((cfg1.win 0).blk t).view.emb j))
        (fun j : S1x2048x16x192.Idx => qkv (((cfg1.win 1).blk t).view.emb j)) h r d
      = Cert.Spec.att qkv (((cfg1.win 2).blk t).view.emb (ix4 (0 : Fin 1) r h d)) := by
  obtain ⟨a0, a1, a2, a3, b0, b1, b2, b3, c0, c1, c2, c3⟩ := blockIdx1 t
  have hr := r.isLt
  have hh := h.isLt
  have hd := d.isLt
  unfold Cert.Spec.headEntry Cert.Spec.att
  have hq : ∀ e : Fin 64, ((cfg1.win 0).blk t).view.emb (ix4 (0 : Fin 1) r h (Cert.Spec.chQ e))
      = ix4 ((((cfg1.win 2).blk t).view.emb (ix4 (0 : Fin 1) r h d)) 0 : Fin 2) ((((cfg1.win 2).blk t).view.emb (ix4 (0 : Fin 1) r h d)) 1 : Fin 2048)
          ((((cfg1.win 2).blk t).view.emb (ix4 (0 : Fin 1) r h d)) 2 : Fin 16) (Cert.Spec.chQ e) := fun e => by
    have he := e.isLt
    funext x; apply Fin.ext
    match x with
    | ⟨0, _⟩ => show win1_0.index t (0 : Fin 4) * 1 + 1 * 0 = win1_2.index t (0 : Fin 4) * 1 + 1 * 0; omega
    | ⟨1, _⟩ => show win1_0.index t (1 : Fin 4) * 512 + 1 * r.val = win1_2.index t (1 : Fin 4) * 512 + 1 * r.val; omega
    | ⟨2, _⟩ => show win1_0.index t (2 : Fin 4) * 16 + 1 * h.val = win1_2.index t (2 : Fin 4) * 16 + 1 * h.val; omega
    | ⟨3, _⟩ => show win1_0.index t (3 : Fin 4) * 192 + 1 * e.val = e.val; omega
  have hk : ∀ (k : Fin 2048) (e : Fin 64), ((cfg1.win 1).blk t).view.emb (ix4 (0 : Fin 1) k h (Cert.Spec.chK e))
      = ix4 ((((cfg1.win 2).blk t).view.emb (ix4 (0 : Fin 1) r h d)) 0 : Fin 2) k
          ((((cfg1.win 2).blk t).view.emb (ix4 (0 : Fin 1) r h d)) 2 : Fin 16) (Cert.Spec.chK e) := fun k e => by
    have he := e.isLt
    funext x; apply Fin.ext
    match x with
    | ⟨0, _⟩ => show win1_1.index t (0 : Fin 4) * 1 + 1 * 0 = win1_2.index t (0 : Fin 4) * 1 + 1 * 0; omega
    | ⟨1, _⟩ => show win1_1.index t (1 : Fin 4) * 2048 + 1 * k.val = k.val; omega
    | ⟨2, _⟩ => show win1_1.index t (2 : Fin 4) * 16 + 1 * h.val = win1_2.index t (2 : Fin 4) * 16 + 1 * h.val; omega
    | ⟨3, _⟩ => show win1_1.index t (3 : Fin 4) * 192 + 1 * (64 + e.val) = 64 + e.val; omega
  have hv : ∀ k : Fin 2048, ((cfg1.win 1).blk t).view.emb (ix4 (0 : Fin 1) k h (Cert.Spec.chV d))
      = ix4 ((((cfg1.win 2).blk t).view.emb (ix4 (0 : Fin 1) r h d)) 0 : Fin 2) k
          ((((cfg1.win 2).blk t).view.emb (ix4 (0 : Fin 1) r h d)) 2 : Fin 16)
          (Cert.Spec.chV ((((cfg1.win 2).blk t).view.emb (ix4 (0 : Fin 1) r h d)) 3 : Fin 64)) := fun k => by
    funext x; apply Fin.ext
    match x with
    | ⟨0, _⟩ => show win1_1.index t (0 : Fin 4) * 1 + 1 * 0 = win1_2.index t (0 : Fin 4) * 1 + 1 * 0; omega
    | ⟨1, _⟩ => show win1_1.index t (1 : Fin 4) * 2048 + 1 * k.val = k.val; omega
    | ⟨2, _⟩ => show win1_1.index t (2 : Fin 4) * 16 + 1 * h.val = win1_2.index t (2 : Fin 4) * 16 + 1 * h.val; omega
    | ⟨3, _⟩ => show win1_1.index t (3 : Fin 4) * 192 + 1 * (128 + d.val) = 128 + (win1_2.index t (3 : Fin 4) * 64 + 1 * d.val); omega
  refine congrArg₂ (Cert.Spec.mixRow (n := 2048))
    (funext fun k => congrArg Cert.Spec.scaled (Finset.sum_congr rfl fun e _ => ?_)) (funext fun k => ?_)
  · show qkv (((cfg1.win 0).blk t).view.emb (ix4 (0 : Fin 1) r h (Cert.Spec.chQ e))) * qkv (((cfg1.win 1).blk t).view.emb (ix4 (0 : Fin 1) k h (Cert.Spec.chK e))) = _
    rw [hq e, hk k e]; rfl
  · show qkv (((cfg1.win 1).blk t).view.emb (ix4 (0 : Fin 1) k h (Cert.Spec.chV d))) = _
    rw [hv k]; rfl

/-- The statement of the head-output lemma this module rests on: the value the body stores for head `h`, at row `r` and
    channel `d`, is that head's attention entry over the two loaded blocks. -/
def HeadOutIsEntry : Prop :=
  ∀ (h : Fin 16) (v0 : Vec Ideal S1x512x16x192 .bf16) (v2 : Vec Ideal S1x2048x16x192 .bf16) (r : Fin 512) (d : Fin 64),
    headOut (F := Ideal) h v0 v2 (ix4 (0 : Fin 1) r (0 : Fin 1) d) = Cert.Spec.headEntry (nq := 512) (nk := 2048) v0 v2 h r d

/-- The one-head index of an output-block index: the head coordinate set to zero, the others kept. -/
theorem oneHead_ix4 (z : Fin 1) (r : Fin 512) (h : Fin 16) (d : Fin 64) : oneHead (ix4 z r h d) = ix4 z r (0 : Fin 1) d := by
  funext a; match a with | ⟨0, _⟩ => rfl | ⟨1, _⟩ => rfl | ⟨2, _⟩ => rfl | ⟨3, _⟩ => rfl

/-- What point `t` writes back is block `t` of the attention of the fused projection as the region finds it. -/
theorem flushed1_eq (hHead : HeadOutIsEntry) (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (Cert.Spec.att (V c main_v5)) := by
  show (cfg1.win 2).cut (grid1.coords t) ((dat1 (F := Ideal) V c).after 2 t) = _
  rw [after1_2]
  funext j
  obtain ⟨z, r, h, d, rfl⟩ : ∃ (z : Fin 1) (r : Fin 512) (h : Fin 16) (d : Fin 64), j = ix4 z r h d := ⟨j 0, j 1, j 2, j 3, eq_ix4 j⟩
  obtain rfl : z = 0 := Subsingleton.elim _ _
  show headOut (F := Ideal) h (iblk1 V c 0 t) (iblk1 V c 1 t) (oneHead (ix4 (0 : Fin 1) r h d)) = _
  rw [oneHead_ix4]
  refine (hHead h _ _ r d).trans ?_
  exact att_at_block t (V c main_v5) r h d

/-- An index of the output array is in point `t`'s block iff each coordinate is in the block's range on its axis. -/
theorem mem_outBlock1 (t : Fin cfg1.N) (i : S2x2048x16x64.Idx) :
    i ∈ ((cfg1.win 2).blk t).view.set ↔ ∀ a : Fin 4, win1_2.index t a * S1x512x16x64.size a ≤ (i a).val ∧ (i a).val < win1_2.index t a * S1x512x16x64.size a + S1x512x16x64.size a := by
  show i ∈ ((View.whole main_v6).slice (win1_2.rect t)).set ↔ _
  rw [View.set_slice_whole, Rect.mem_set_unit]
  exact Iff.rfl

/-- Every index of the output array is in some point's block: position `s` of batch `b` is in the block of point
    `4 b + s / 512`. -/
theorem covered1 (i : S2x2048x16x64.Idx) : ∃ t : Fin cfg1.N, (cfg1.win 2).flush t = true ∧ i ∈ ((cfg1.win 2).blk t).view.set := by
  have hi0 : (i 0).val < 2 := (i 0).isLt
  have hi1 : (i 1).val < 2048 := (i 1).isLt
  have hi2 : (i 2).val < 16 := (i 2).isLt
  have hi3 : (i 3).val < 64 := (i 3).isLt
  have hN : cfg1.N = 8 := N_1
  refine ⟨⟨(i 0).val * 4 + (i 1).val / 512, by rw [hN]; omega⟩, flush1_2 _, ?_⟩
  rw [mem_outBlock1]
  obtain ⟨-, -, -, -, -, -, -, -, c0, c1, c2, c3⟩ := blockIdx1 ⟨(i 0).val * 4 + (i 1).val / 512, by rw [hN]; omega⟩
  intro a
  match a with
  | ⟨0, _⟩ =>
    show win1_2.index _ (0 : Fin 4) * 1 ≤ (i 0).val ∧ (i 0).val < win1_2.index _ (0 : Fin 4) * 1 + 1
    rw [c0]; show ((i 0).val * 4 + (i 1).val / 512) / 4 * 1 ≤ (i 0).val ∧ (i 0).val < ((i 0).val * 4 + (i 1).val / 512) / 4 * 1 + 1; omega
  | ⟨1, _⟩ =>
    show win1_2.index _ (1 : Fin 4) * 512 ≤ (i 1).val ∧ (i 1).val < win1_2.index _ (1 : Fin 4) * 512 + 512
    rw [c1]; show ((i 0).val * 4 + (i 1).val / 512) % 4 * 512 ≤ (i 1).val ∧ (i 1).val < ((i 0).val * 4 + (i 1).val / 512) % 4 * 512 + 512; omega
  | ⟨2, _⟩ =>
    show win1_2.index _ (2 : Fin 4) * 16 ≤ (i 2).val ∧ (i 2).val < win1_2.index _ (2 : Fin 4) * 16 + 16
    rw [c2]; omega
  | ⟨3, _⟩ =>
    show win1_2.index _ (3 : Fin 4) * 64 ≤ (i 3).val ∧ (i 3).val < win1_2.index _ (3 : Fin 4) * 64 + 64
    rw [c3]; omega

/-- The output array after all 8 write-backs is the attention of the fused projection as the region finds it, given
    the head-output lemma. -/
theorem final1_of (hHead : HeadOutIsEntry) (V : (c : Dev nD) → (b : Ref sig .tc) → Buf (Elt Ideal) ((c : Thread nD τ).loc b)) (c : Dev nD) :
    (dat1 (F := Ideal) V c).arrAt 2 cfg1.N = Cert.Spec.att (V c main_v5) :=
  (dat1 (F := Ideal) V c).arrAt_eq_of_cover 2 (Cert.Spec.att (V c main_v5)) (fun t _ => flushed1_eq hHead V c t) covered1

/-- The output array after all 8 write-backs is the attention of the fused projection as the region finds it. -/
theorem final1 (V : (c : Dev nD) → (b : Ref sig .tc) → Buf (Elt Ideal) ((c : Thread nD τ).loc b)) (c : Dev nD) :
    (dat1 (F := Ideal) V c).arrAt 2 cfg1.N = Cert.Spec.att (V c main_v5) :=
  final1_of headOut_apply V c

end Cert.KernelIdeal.Hand

end
-- ==== Proof.RefRead.lean ====
/-
  The reference's run, read one operation at a time against the specification: after the fused projection the
  reference views the 3072 output channels per position as 16 heads of 192, moves the head axis outward, and cuts
  each head's channels in three (query, key, value); the scores are the batched query·key products divided by the
  square root of the literal 64; the softmax subtracts the row's largest score (a fold of `max` from −∞, then once
  more `max` with −∞), exponentiates, sums from the literal 0 and divides; the weights mix the values; the head
  axis moves back inward.
-/
import proofs.«146720_j59012850647568_2_alg».proof.Proof.Gen.ReferenceIdeal.Read
import proofs.«146720_j59012850647568_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.SL.Sem

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

/-- The fused projection viewed per head: the function the attention is read over. -/
abbrev qkv : S2x2048x16x192.Idx → EReal := val_main_v4 (F := Ideal) x0 x1 x2

/-- The word of −∞ denotes the bottom of the extended reals. -/
theorem ofBits_neg_inf : Ideal.ofBits .f32 0xFF800000#32 = (⊥ : EReal) := by
  simp [Ideal.ofBits, Ideal.ieee]

/-- The head axis moved outward: position and head trade places. -/
theorem v5_at (b : Fin 2) (h : Fin 16) (k : Fin 2048) (c : Fin 192) :
    val_main_v5 (F := Ideal) x0 x1 x2 (ix4 b h k c) = qkv x0 x1 x2 (ix4 b k h c) := by
  rw [val_main_v5_apply]
  exact congrArg _ (funext fun a => Fin.ext (by
    match a with | ⟨0, _⟩ => rfl | ⟨1, _⟩ => rfl | ⟨2, _⟩ => rfl | ⟨3, _⟩ => rfl))

/-- A head's query channels. -/
theorem v6_at (b : Fin 2) (h : Fin 16) (k : Fin 2048) (e : Fin 64) :
    val_main_v6 (F := Ideal) x0 x1 x2 (ix4 b h k e) = qkv x0 x1 x2 (ix4 b k h (Cert.Spec.chQ e)) := by
  rw [val_main_v6_apply, ← v5_at]
  exact congrArg _ (funext fun a => Fin.ext (by
    match a with | ⟨0, _⟩ => rfl | ⟨1, _⟩ => rfl | ⟨2, _⟩ => rfl | ⟨3, _⟩ => rfl))

/-- A head's key channels. -/
theorem v7_at (b : Fin 2) (h : Fin 16) (k : Fin 2048) (e : Fin 64) :
    val_main_v7 (F := Ideal) x0 x1 x2 (ix4 b h k e) = qkv x0 x1 x2 (ix4 b k h (Cert.Spec.chK e)) := by
  rw [val_main_v7_apply, ← v5_at]
  exact congrArg _ (funext fun a => Fin.ext (by
    match a with | ⟨0, _⟩ => rfl | ⟨1, _⟩ => rfl | ⟨2, _⟩ => rfl | ⟨3, _⟩ => rfl))

/-- A head's value channels. -/
theorem v8_at (b : Fin 2) (h : Fin 16) (k : Fin 2048) (e : Fin 64) :
    val_main_v8 (F := Ideal) x0 x1 x2 (ix4 b h k e) = qkv x0 x1 x2 (ix4 b k h (Cert.Spec.chV e)) := by
  rw [val_main_v8_apply, ← v5_at]
  exact congrArg _ (funext fun a => Fin.ext (by
    match a with | ⟨0, _⟩ => rfl | ⟨1, _⟩ => rfl | ⟨2, _⟩ => rfl | ⟨3, _⟩ => rfl))

/-- The score of key `k` for query `q`: the channels' dot product, divided by the square root of 64. -/
def score (b : Fin 2) (h : Fin 16) (q k : Fin 2048) : EReal :=
  Cert.Spec.scaled (∑ e : Fin 64, qkv x0 x1 x2 (ix4 b q h (Cert.Spec.chQ e)) * qkv x0 x1 x2 (ix4 b k h (Cert.Spec.chK e)))

theorem v12_at (b : Fin 2) (h : Fin 16) (q k : Fin 2048) :
    val_main_v12 (F := Ideal) x0 x1 x2 (ix4 b h q k) = score x0 x1 x2 b h q k := by
  rw [val_main_v12_apply, val_main_v9_apply, val_main_v11_apply, val_main_v10_apply, val_main_cst_apply]
  simp only [Ideal.hostDivf_def, Ideal.hostUnary_sqrt_def, Ideal.ofBits_def]
  rw [Cert.Spec.div_sqrt64]
  unfold score
  refine congrArg Cert.Spec.scaled (Finset.sum_congr rfl fun e _ => ?_)
  rw [← v6_at, ← v7_at]
  exact congrArg₂ (· * ·)
    (congrArg _ (funext fun a => Fin.ext (by match a with | ⟨0, _⟩ => rfl | ⟨1, _⟩ => rfl | ⟨2, _⟩ => rfl | ⟨3, _⟩ => rfl)))
    (congrArg _ (funext fun a => Fin.ext (by match a with | ⟨0, _⟩ => rfl | ⟨1, _⟩ => rfl | ⟨2, _⟩ => rfl | ⟨3, _⟩ => rfl)))

/-- The coordinate a reduction over the key axis puts back. -/
theorem lift_key (hR : S2x16x2048x2048.Reduces [3] S2x16x2048) (b : Fin 2) (h : Fin 16) (q : Fin 2048)
    (k : Fin (S2x16x2048x2048.size 3)) : hR.lift (ix3 b h q) k = ix4 b h q (⟨k.val, k.isLt⟩ : Fin 2048) := by
  funext c; apply Fin.ext
  fin_cases c <;> rfl

/-- The fold of `max` from −∞ over a row of scores. -/
theorem v13_at (b : Fin 2) (h : Fin 16) (q : Fin 2048) :
    val_main_v13 (F := Ideal) x0 x1 x2 (ix3 b h q) = Cert.Spec.rowMax (fun k : Fin 2048 => score x0 x1 x2 b h q k) := by
  have hR : S2x16x2048x2048.Reduces [3] S2x16x2048 := by decide
  unfold val_main_v13
  rw [Host.reduce_eq_fold_single FloatOps.maximumf _ _ reducesTo_S2x16x2048x2048_S2x16x2048_d3 hR h_S_]
  have hf : (val_main_v12 (F := Ideal) x0 x1 x2 ∘ hR.lift (ix3 b h q)) = fun k : Fin 2048 => score x0 x1 x2 b h q k :=
    funext fun k => (congrArg _ (lift_key hR b h q k)).trans (v12_at x0 x1 x2 b h q _)
  have hi : val_main_cst_0 (F := Ideal) (Shape.Idx.first h_S_) = (⊥ : EReal) := ofBits_neg_inf
  rw [hf, hi]
  rfl

/-- Once more `max` with −∞ changes nothing. -/
theorem v15_at (b : Fin 2) (h : Fin 16) (q : Fin 2048) :
    val_main_v15 (F := Ideal) x0 x1 x2 (ix3 b h q) = Cert.Spec.rowMax (fun k : Fin 2048 => score x0 x1 x2 b h q k) := by
  rw [val_main_v15_apply, val_main_v14_apply, val_main_cst_1_apply, v13_at]
  simp only [Ideal.maximumf_def, Ideal.ofBits_def]
  rw [ofBits_neg_inf]
  exact Cert.Spec.max_bot_rowMax _

theorem v17_at (b : Fin 2) (h : Fin 16) (q k : Fin 2048) :
    val_main_v17 (F := Ideal) x0 x1 x2 (ix4 b h q k) = Cert.Spec.rowMax (fun k : Fin 2048 => score x0 x1 x2 b h q k) := by
  rw [val_main_v17_apply, val_main_v16_apply, ← v15_at]
  exact congrArg _ (funext fun a => Fin.ext (by match a with | ⟨0, _⟩ => rfl | ⟨1, _⟩ => rfl | ⟨2, _⟩ => rfl))

/-- The exponential of a score less the row's largest. -/
theorem v19_at (b : Fin 2) (h : Fin 16) (q k : Fin 2048) :
    val_main_v19 (F := Ideal) x0 x1 x2 (ix4 b h q k)
      = Ideal.exp (score x0 x1 x2 b h q k - Cert.Spec.rowMax (fun k : Fin 2048 => score x0 x1 x2 b h q k)) := by
  rw [val_main_v19_apply, val_main_v18_apply, v12_at, v17_at]
  simp only [Ideal.hostUnary_exp_def, Ideal.subf_def]

/-- The row's sum of exponentials (the sum starts from the literal 0). -/
theorem v20_at (b : Fin 2) (h : Fin 16) (q : Fin 2048) :
    val_main_v20 (F := Ideal) x0 x1 x2 (ix3 b h q)
      = ∑ k : Fin 2048, Ideal.exp (score x0 x1 x2 b h q k - Cert.Spec.rowMax (fun k : Fin 2048 => score x0 x1 x2 b h q k)) := by
  rw [val_main_v20_apply, val_main_cst_2_apply]
  simp only [Ideal.ofBits_def, Ideal.ofBits_zero_f32, zero_add]
  refine Finset.sum_congr rfl fun k _ => ?_
  rw [← v19_at]
  exact congrArg _ (funext fun a => Fin.ext (by match a with | ⟨0, _⟩ => rfl | ⟨1, _⟩ => rfl | ⟨2, _⟩ => rfl | ⟨3, _⟩ => rfl))

/-- The softmax weight. -/
theorem v23_at (b : Fin 2) (h : Fin 16) (q k : Fin 2048) :
    val_main_v23 (F := Ideal) x0 x1 x2 (ix4 b h q k) = Cert.Spec.weight (fun k : Fin 2048 => score x0 x1 x2 b h q k) k := by
  rw [val_main_v23_apply, v19_at, val_main_v22_apply, val_main_v21_apply]
  rw [show idx_main_v21 (idx_main_v22 (ix4 b h q k)) = ix3 b h q from
    funext fun a => Fin.ext (by match a with | ⟨0, _⟩ => rfl | ⟨1, _⟩ => rfl | ⟨2, _⟩ => rfl)]
  rw [v20_at]
  simp only [Ideal.hostDivf_def]
  rfl

/-- THE ATTENTION STAGE of the reference is the specification's attention of the fused projection. -/
theorem v25_at (b : Fin 2) (q : Fin 2048) (h : Fin 16) (d : Fin 64) :
    val_main_v25 (F := Ideal) x0 x1 x2 (ix4 b q h d) = Cert.Spec.att (qkv x0 x1 x2) (ix4 b q h d) := by
  rw [val_main_v25_apply]
  rw [show idx_main_v25 (ix4 b q h d) = ix4 b h q d from
    funext fun a => Fin.ext (by match a with | ⟨0, _⟩ => rfl | ⟨1, _⟩ => rfl | ⟨2, _⟩ => rfl | ⟨3, _⟩ => rfl)]
  rw [val_main_v24_apply]
  unfold Cert.Spec.att Cert.Spec.mixRow
  refine Finset.sum_congr rfl fun k _ => ?_
  rw [show lidx_main_v24 (ix4 b h q d) k = ix4 b h q k from
      funext fun a => Fin.ext (by match a with | ⟨0, _⟩ => rfl | ⟨1, _⟩ => rfl | ⟨2, _⟩ => rfl | ⟨3, _⟩ => rfl),
    show ridx_main_v24 (ix4 b h q d) k = ix4 b h k d from
      funext fun a => Fin.ext (by match a with | ⟨0, _⟩ => rfl | ⟨1, _⟩ => rfl | ⟨2, _⟩ => rfl | ⟨3, _⟩ => rfl),
    v23_at, v8_at]
  rfl

theorem ref_att : (val_main_v25 (F := Ideal) x0 x1 x2 : S2x2048x16x64.Idx → EReal) = Cert.Spec.att (qkv x0 x1 x2) := by
  funext i
  rw [eq_ix4 i]
  exact v25_at x0 x1 x2 _ _ _ _

end Cert.ReferenceIdeal.RefValue

end
-- ==== Proof.Bridge.lean ====
/-
  The two projections, kernel against reference, index by index on the extended reals. The kernel stacks the two
  batches' rows into one matrix, multiplies by the (narrowed) weight's rows, adds the bias row, and views the result
  again per batch; the reference contracts the channel axis of the three-axis input directly and broadcasts the
  bias. A reshape keeps the row-major position of every entry, so entry (b, s, ·) of the reference is row
  b·2048 + s of the kernel's matrix, and channel h·192 + c of the fused projection is channel c of head h.
-/
import proofs.«146720_j59012850647568_2_alg».proof.Proof.KI.Region0Value
import proofs.«146720_j59012850647568_2_alg».proof.Proof.KI.Region2Value
import proofs.«146720_j59012850647568_2_alg».proof.Proof.RefRead

noncomputable section

namespace Cert.Bridge

open Cert.ReferenceIdeal Cert.ReferenceIdeal.Gen Cert.ReferenceIdeal.Read
open Idealize.ShloMosaic Idealize.ShloMosaic.ValueIdx Idealize.SL.Sem

variable (x0 : S2x2048x1024.Idx → EReal) (x1 : S3072x1024.Idx → EReal) (x2 : S3072.Idx → EReal)

/-- The kernel's fused projection, viewed per head, from the argument arrays. -/
def kQkv (hb : FTy.bits .bf16 < FTy.bits .f32) : S2x2048x16x192.Idx → EReal :=
  shapeCast S2x2048x16x192
    (Cert.KernelIdeal.Hand.G0
      (shapeCast Cert.KernelIdeal.S4096x1024 x0 Cert.KernelIdeal.Facts₀.shapeCasts_S2x2048x1024_S4096x1024)
      (truncf (F := Ideal) .bf16 x1 hb)
      (shapeCast Cert.KernelIdeal.S1x3072 x2 Cert.KernelIdeal.Facts₀.shapeCasts_S3072_S1x3072))
    Cert.KernelIdeal.Facts₀.shapeCasts_S4096x3072_S2x2048x16x192

theorem kQkv_at (hb : FTy.bits .bf16 < FTy.bits .f32) (b : Fin 2) (s : Fin 2048) (h : Fin 16) (c : Fin 192) :
    kQkv x0 x1 x2 hb (ix4 b s h c) = val_main_v4 (F := Ideal) x0 x1 x2 (ix4 b s h c) := by
  have hrow : b.val * 2048 + s.val < 4096 := by omega
  have hcol : h.val * 192 + c.val < 3072 := by omega
  unfold kQkv
  rw [shapeCast_apply _ _ (ix4 b s h c) (ix2 (⟨b.val * 2048 + s.val, hrow⟩ : Fin 4096) (⟨h.val * 192 + c.val, hcol⟩ : Fin 3072))
    (by rw [Shape.rowMajor_val_two, Shape.rowMajor_val_four]
        show (b.val * 2048 + s.val) * 3072 + (h.val * 192 + c.val) = ((b.val * 2048 + s.val) * 16 + h.val) * 192 + c.val
        omega)]
  unfold Cert.KernelIdeal.Hand.G0
  rw [val_main_v4_apply, val_main_v3_apply, val_main_v0_apply, val_main_v2_apply, val_main_v1_apply]
  simp only [Ideal.addf_def]
  refine congrArg₂ (· + ·) (Finset.sum_congr rfl fun d _ => congrArg₂ (· * ·) ?_ ?_) ?_
  · exact shapeCast_apply x0 _ _ _ (by
      rw [Shape.rowMajor_val_three, Shape.rowMajor_val_two]
      show ((((b.val * 2048 + s.val) * 16 + h.val) * 192 + c.val) / 6291456 * 2048
          + (((b.val * 2048 + s.val) * 16 + h.val) * 192 + c.val) / 3072 % 2048) * 1024 + d.val
        = (b.val * 2048 + s.val) * 1024 + d.val
      omega)
  · show x1 _ = x1 _
    exact congrArg x1 (funext fun a => Fin.ext (by
      match a with
      | ⟨0, _⟩ =>
        show h.val * 192 + c.val = (((b.val * 2048 + s.val) * 16 + h.val) * 192 + c.val) % 3072
        omega
      | ⟨1, _⟩ => rfl))
  · exact shapeCast_apply x2 _ _ _ (by
      rw [Shape.rowMajor_val_one, Shape.rowMajor_val_two]
      show (((b.val * 2048 + s.val) * 16 + h.val) * 192 + c.val) % 3072 = 0 * 3072 + (h.val * 192 + c.val)
      omega)

/-- THE FUSED PROJECTION: the kernel's, viewed per head, is the reference's. -/
theorem kQkv_eq (hb : FTy.bits .bf16 < FTy.bits .f32) : kQkv x0 x1 x2 hb = val_main_v4 (F := Ideal) x0 x1 x2 := by
  funext i
  rw [eq_ix4 i]
  exact kQkv_at x0 x1 x2 hb _ _ _ _

variable (x3 : S1024x1024.Idx → EReal) (x4 : S1024.Idx → EReal)

/-- The kernel's output projection of an array `y` of heads' outputs, viewed per batch. -/
def kOut (hb : FTy.bits .bf16 < FTy.bits .f32) (y : S2x2048x16x64.Idx → EReal) : S2x2048x1024.Idx → EReal :=
  shapeCast S2x2048x1024
    (Cert.KernelIdeal.Hand.G2
      (shapeCast Cert.KernelIdeal.S4096x1024 y Cert.KernelIdeal.Facts₀.shapeCasts_S2x2048x16x64_S4096x1024)
      (truncf (F := Ideal) .bf16 x3 hb)
      (shapeCast Cert.KernelIdeal.S1x1024 x4 Cert.KernelIdeal.Facts₀.shapeCasts_S1024_S1x1024))
    Cert.KernelIdeal.Facts₀.shapeCasts_S4096x1024_S2x2048x1024

theorem kOut_at (hb : FTy.bits .bf16 < FTy.bits .f32) (b : Fin 2) (s : Fin 2048) (e : Fin 1024) :
    kOut x3 x4 hb (val_main_v25 (F := Ideal) x0 x1 x2) (ix3 b s e)
      = val_main_v30 (F := Ideal) x0 x1 x2 x3 x4 (ix3 b s e) := by
  have hrow : b.val * 2048 + s.val < 4096 := by omega
  unfold kOut
  rw [shapeCast_apply _ _ (ix3 b s e) (ix2 (⟨b.val * 2048 + s.val, hrow⟩ : Fin 4096) e)
    (by rw [Shape.rowMajor_val_two, Shape.rowMajor_val_three]
        show (b.val * 2048 + s.val) * 1024 + e.val = (b.val * 2048 + s.val) * 1024 + e.val
        rfl)]
  unfold Cert.KernelIdeal.Hand.G2
  rw [val_main_v30_apply, val_main_v27_apply, val_main_v29_apply, val_main_v28_apply]
  simp only [Ideal.addf_def]
  refine congrArg₂ (· + ·) (Finset.sum_congr rfl fun d _ => congrArg₂ (· * ·) ?_ ?_) ?_
  · rw [val_main_v26_apply]
    exact shapeCast_apply _ _ _ _ (by
      rw [Shape.rowMajor_val_four, Shape.rowMajor_val_two]
      show ((((b.val * 2048 + s.val) * 1024 + d.val) / 2097152 * 2048 + ((b.val * 2048 + s.val) * 1024 + d.val) / 1024 % 2048) * 16
            + ((b.val * 2048 + s.val) * 1024 + d.val) / 64 % 16) * 64 + ((b.val * 2048 + s.val) * 1024 + d.val) % 64
          = (b.val * 2048 + s.val) * 1024 + d.val
      omega)
  · show x3 _ = x3 _
    exact congrArg x3 (funext fun a => Fin.ext (by match a with | ⟨0, _⟩ => rfl | ⟨1, _⟩ => rfl))
  · exact shapeCast_apply x4 _ _ _ (by
      rw [Shape.rowMajor_val_one, Shape.rowMajor_val_two]
      show e.val = 0 * 1024 + e.val
      omega)

/-- THE OUTPUT PROJECTION of the reference's heads' outputs: the kernel's is the reference's result. -/
theorem kOut_eq (hb : FTy.bits .bf16 < FTy.bits .f32) :
    kOut x3 x4 hb (val_main_v25 (F := Ideal) x0 x1 x2) = val_main_v30 (F := Ideal) x0 x1 x2 x3 x4 := by
  funext i
  rw [eq_ix3 i]
  exact kOut_at x0 x1 x2 x3 x4 hb _ _ _

end Cert.Bridge

end
-- ==== Proof.KI.Value.lean ====
/-
  The kernel's result array as one function of the five argument arrays, at the ideal instance: following the chain
  of valuations backwards from the returned buffer — a re-view of the output projection's array, whose rows are the
  (narrowed) output weight's rows against the heads' outputs with the heads' channels side by side, plus the bias;
  the heads' outputs are the attention of the fused projection viewed per head; the fused projection's rows are the
  (narrowed) fused weight's rows against the stacked input rows, plus the bias.
-/
import proofs.«146720_j59012850647568_2_alg».proof.Proof.KI.Chain
import proofs.«146720_j59012850647568_2_alg».proof.Proof.KI.Region0Value
import proofs.«146720_j59012850647568_2_alg».proof.Proof.KI.Region2Value
import proofs.«146720_j59012850647568_2_alg».proof.Proof.KI.Region1Final
import proofs.«146720_j59012850647568_2_alg».proof.Proof.Bridge

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The kernel's result on core `c` as one function of the five argument arrays: the fused projection viewed per
    head, the attention of it, and the output projection viewed per batch. -/
def resultOf (c : Dev nD) : Buf (Elt Ideal) ((c.tc : Thread nD τ).loc main_v10) :=
  Cert.Bridge.kOut (m ((c : Thread nD τ).loc main_arg3)) (m ((c : Thread nD τ).loc main_arg4)) Facts₀.bitsLt_bf16_f32
    (Cert.Spec.att (Cert.Bridge.kQkv (m ((c : Thread nD τ).loc main_arg0)) (m ((c : Thread nD τ).loc main_arg1))
      (m ((c : Thread nD τ).loc main_arg2)) Facts₀.bitsLt_bf16_f32))

/-- The chain's last valuation holds that function at the returned buffer. -/
theorem result_eq (c : Dev nD) : X7 m c (Proc.devRef .tc main_v10) = resultOf m c := by
  unfold resultOf
  rw [X7_v10, X6_out, final2 (Y5 m) c]
  show shapeCast _ (G2 (X5 m c (Proc.devRef .tc main_v7)) (X5 m c (Proc.devRef .tc main_v2)) (X5 m c (Proc.devRef .tc main_v8))) _ = _
  rw [X5_v7, X5_v2, X5_v8, X4_out, final1 (Y3 m) c]
  show shapeCast _ (G2 (shapeCast _ (Cert.Spec.att (X3 m c (Proc.devRef .tc main_v5))) _) _ _) _ = _
  rw [X3_v5, X2_out, final0 (Y1 m) c]
  show shapeCast _ (G2 (shapeCast _ (Cert.Spec.att (shapeCast _ (G0 (X1 m c (Proc.devRef .tc main_v0)) (X1 m c (Proc.devRef .tc main_v1)) (X1 m c (Proc.devRef .tc main_v3))) _)) _) _ _) _ = _
  rw [X1_v0, X1_v1, X1_v3]
  rfl

/-- THE KERNEL'S RUN WITH ITS VALUE: every weakly fair execution terminates, nothing faulting, with the result array at
    `resultOf` and the five arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v10) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m c), (h c).2⟩) (run_result m ρ)

/-- That function is the reference's last stage of the same five arrays: the fused projections agree, the reference's
    attention stage is the specification's attention of its fused projection, and the output projections agree. -/
theorem resultOf_eq_ref (c : Dev nD) : resultOf m c
    = Cert.ReferenceIdeal.Read.val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  unfold resultOf
  rw [Cert.Bridge.kQkv_eq, ← Cert.ReferenceIdeal.RefValue.ref_att, Cert.Bridge.kOut_eq]

end Cert.KernelIdeal.Hand

end
-- ==== Proof.lean ====
/-
  Multi-head self-attention (2 batches, 2048 positions, model width 1024, 16 heads of 64 channels) computed by three
  kernel regions — the fused query/key/value projection, the attention per head, the output projection — against
  the plain reference, on the extended reals.

  Frames. Each program runs to the end from any memory, nothing faulting, and leaves its five argument arrays as
  launched: for the kernel (at the word level and at the ideal instance alike) by running its seven segments —
  four stretches of host reshapes and narrowings around the three regions, each region's body run once per grid
  point on its staged blocks —, for the reference by its straight-line run.

  The idealization rewrote nothing, so `preserves` has nothing to state.

  Values. At the ideal instance a change of float format is the identity and a sum does not depend on its order,
  so both programs compute, entry by entry, the same three stages: (1) the fused projection, the input rows
  against the weight's rows plus the bias — the kernel on the two batches' rows stacked, the reference on the
  three-axis input, a reshape keeping every entry's row-major place; (2) per head, the scores (query·key over 64
  channels, scaled), their softmax along the keys, and the values mixed by it — the kernel multiplies the scores by
  0.125 where the reference divides by the square root of 64, and dividing an extended real by 8 IS multiplying it
  by 1/8, at the infinities too; the row's largest score is on both sides the fold of `max` from −∞; (3) the output
  projection, as (1). No step uses that the inputs are finite.
-/
import proofs.«146720_j59012850647568_2_alg».proof.Defs
import proofs.«146720_j59012850647568_2_alg».proof.Proof.Gen.Kernel
import proofs.«146720_j59012850647568_2_alg».proof.Proof.Gen.KernelIdeal
import proofs.«146720_j59012850647568_2_alg».proof.Proof.Gen.ReferenceIdeal
import proofs.«146720_j59012850647568_2_alg».proof.Proof.Gen.ReferenceIdeal.Run
import proofs.«146720_j59012850647568_2_alg».proof.Proof.Gen.Pre_finite_inputs
import proofs.«146720_j59012850647568_2_alg».proof.Proof.K.Run
import proofs.«146720_j59012850647568_2_alg».proof.Proof.KI.Value
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the same result: the kernel's is the three stages composed
    (`Cert.KernelIdeal.Hand.result_eq`), and the reference's run reads, stage by stage, as the same function. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2.1, (hagree c).2.2.2.2]
  exact (Cert.KernelIdeal.Hand.resultOf_eq_ref m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
